-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S512x1024 : Shape := ⟨2, ![512, 1024]⟩
abbrev S1x512 : Shape := ⟨2, ![1, 512]⟩
abbrev S512x1 : Shape := ⟨2, ![512, 1]⟩
abbrev S512 : Shape := ⟨1, ![512]⟩
abbrev S512x512 : Shape := ⟨2, ![512, 512]⟩

abbrev nBuf : Space → Nat
  | .hbm => 52
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S1x4096, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S1x4096, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S1x4096, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_call0_v0 : Ref sig .tc := ⟨.hbm, 45, rfl⟩
abbrev main_call0_v1 : Ref sig .tc := ⟨.hbm, 46, rfl⟩
abbrev main_v28 : Ref sig .tc := ⟨.hbm, 47, rfl⟩
abbrev main_cst_11 : Ref sig .tc := ⟨.hbm, 48, rfl⟩
abbrev main_v29 : Ref sig .tc := ⟨.hbm, 49, rfl⟩
abbrev main_cst_12 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c7_i32 : BitVec 32 := 7#32
  let v75 : BitVec 1 := Scalar.cmpi .eq arg1 c7_i32
  let v76 : BitVec 32 := Scalar.extui v75
  let c0_i32_45 : BitVec 32 := 0#32
  let v77 : BitVec 1 := Scalar.cmpi .ne v76 c0_i32_45
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  reducesTo_S4096x1_S_d0_1 : S4096x1.ReducesTo [0, 1] S_
  shapeCasts_S4096x1_S4096 : S4096x1.ShapeCasts S4096
  bcast_S_S4096 : S_.BroadcastsInDim S4096 (![] : Fin 0 → Fin S4096.rank)
  reducesTo_S4096_S_d0 : S4096.ReducesTo [0] S_
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .f32 = 32 ∨ (Rect.block (s := S4096x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .f32 = 32 ∨ (Rect.block (s := S1x4096) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x4096.size a
  hwx0_8 : ∀ i : grid0.Coords, EltTy.bits .f32 = 32 ∨ (Rect.block (s := S1x4096) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S4096x1.size a
  hwx0_9 : ∀ i : grid0.Coords, EltTy.bits .f32 = 32 ∨ (Rect.block (s := S4096x1) S512x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S4096x1.size a
  hwx0_10 : ∀ i : grid0.Coords, EltTy.bits .f32 = 32 ∨ (Rect.block (s := S4096x1) S512x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S4096x1.size a
  hwx0_11 : ∀ i : grid0.Coords, EltTy.bits .f32 = 32 ∨ (Rect.block (s := S4096x1) S512x1.size (cc0_transform_11 i) (hinb0_11 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14_0) S512x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14_1) S512x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v14_2) S512x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond1 i == 1#1) | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1024x4096 : Shape := ⟨2, ![1024, 4096]⟩

abbrev nBuf : Space → Nat
  | .hbm => 150
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S_, .f32⟩
  | 5 => ⟨S4096x1024, .f32⟩
  | 6 => ⟨S4096x1024, .f32⟩
  | 7 => ⟨S4096x1024, .f32⟩
  | 8 => ⟨S_, .f32⟩
  | 9 => ⟨S4096, .f32⟩
  | 10 => ⟨S4096, .f32⟩
  | 11 => ⟨S4096x1024, .f32⟩
  | 12 => ⟨S_, .f32⟩
  | 13 => ⟨S4096x1024, .f32⟩
  | 14 => ⟨S4096x1024, .f32⟩
  | 15 => ⟨S4096x1024, .f32⟩
  | 16 => ⟨S_, .f32⟩
  | 17 => ⟨S4096, .f32⟩
  | 18 => ⟨S4096, .f32⟩
  | 19 => ⟨S4096x1024, .f32⟩
  | 20 => ⟨S_, .f32⟩
  | 21 => ⟨S4096, .f32⟩
  | 22 => ⟨S4096x1, .f32⟩
  | 23 => ⟨S4096x1024, .f32⟩
  | 24 => ⟨S_, .f32⟩
  | 25 => ⟨S4096, .f32⟩
  | 26 => ⟨S1x4096, .f32⟩
  | 27 => ⟨S4096x4096, .f32⟩
  | 28 => ⟨S4096x4096, .f32⟩
  | 29 => ⟨S4096x4096, .f32⟩
  | 30 => ⟨S1024x4096, .f32⟩
  | 31 => ⟨S4096x4096, .f32⟩
  | 32 => ⟨S_, .f32⟩
  | 33 => ⟨S4096x4096, .f32⟩
  | 34 => ⟨S4096x4096, .f32⟩
  | 35 => ⟨S4096x4096, .f32⟩
  | 36 => ⟨S_, .f32⟩
  | 37 => ⟨S4096, .f32⟩
  | 38 => ⟨S4096x1, .f32⟩
  | 39 => ⟨S_, .f32⟩
  | 40 => ⟨S4096, .f32⟩
  | 41 => ⟨S1x4096, .f32⟩
  | 42 => ⟨S4096x4096, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S4096x4096, .f32⟩
  | 49 => ⟨S_, .f32⟩
  | 50 => ⟨S4096x4096, .f32⟩
  | 51 => ⟨S4096x4096, .f32⟩
  | 52 => ⟨S_, .f32⟩
  | 53 => ⟨S4096x4096, .f32⟩
  | 54 => ⟨S4096x4096, .f32⟩
  | 55 => ⟨S4096x4096, .f32⟩
  | 56 => ⟨S4096x1, .f32⟩
  | 57 => ⟨S4096x4096, .f32⟩
  | 58 => ⟨S4096x4096, .i1⟩
  | 59 => ⟨S_, .i1⟩
  | 60 => ⟨S4096, .i1⟩
  | 61 => ⟨S_, .f32⟩
  | 62 => ⟨S_, .f32⟩
  | 63 => ⟨S4096x4096, .f32⟩
  | 64 => ⟨S4096x4096, .f32⟩
  | 65 => ⟨S_, .f32⟩
  | 66 => ⟨S4096, .f32⟩
  | 67 => ⟨S_, .f32⟩
  | 68 => ⟨S_, .f32⟩
  | 69 => ⟨S4096, .f32⟩
  | 70 => ⟨S4096, .f32⟩
  | 71 => ⟨S_, .f32⟩
  | 72 => ⟨S_, .f32⟩
  | 73 => ⟨S_, .f32⟩
  | 74 => ⟨S_, .f32⟩
  | 75 => ⟨S4096x1024, .f32⟩
  | 76 => ⟨S_, .f32⟩
  | 77 => ⟨S4096, .f32⟩
  | 78 => ⟨S4096x1, .f32⟩
  | 79 => ⟨S4096x1024, .f32⟩
  | 80 => ⟨S_, .f32⟩
  | 81 => ⟨S4096, .f32⟩
  | 82 => ⟨S1x4096, .f32⟩
  | 83 => ⟨S4096x4096, .f32⟩
  | 84 => ⟨S4096x4096, .f32⟩
  | 85 => ⟨S4096x4096, .f32⟩
  | 86 => ⟨S1024x4096, .f32⟩
  | 87 => ⟨S4096x4096, .f32⟩
  | 88 => ⟨S_, .f32⟩
  | 89 => ⟨S4096x4096, .f32⟩
  | 90 => ⟨S4096x4096, .f32⟩
  | 91 => ⟨S4096x4096, .f32⟩
  | 92 => ⟨S_, .f32⟩
  | 93 => ⟨S4096, .f32⟩
  | 94 => ⟨S4096x1, .f32⟩
  | 95 => ⟨S_, .f32⟩
  | 96 => ⟨S4096, .f32⟩
  | 97 => ⟨S1x4096, .f32⟩
  | 98 => ⟨S4096x4096, .f32⟩
  | 99 => ⟨S4096x4096, .f32⟩
  | 100 => ⟨S4096x4096, .f32⟩
  | 101 => ⟨S_, .f32⟩
  | 102 => ⟨S4096x4096, .f32⟩
  | 103 => ⟨S4096x4096, .f32⟩
  | 104 => ⟨S4096x4096, .f32⟩
  | 105 => ⟨S_, .f32⟩
  | 106 => ⟨S4096x4096, .f32⟩
  | 107 => ⟨S4096x4096, .f32⟩
  | 108 => ⟨S_, .f32⟩
  | 109 => ⟨S4096x4096, .f32⟩
  | 110 => ⟨S4096x4096, .f32⟩
  | 111 => ⟨S4096x4096, .f32⟩
  | 112 => ⟨S4096x1, .f32⟩
  | 113 => ⟨S4096x4096, .f32⟩
  | 114 => ⟨S4096x4096, .i1⟩
  | 115 => ⟨S_, .i1⟩
  | 116 => ⟨S4096, .i1⟩
  | 117 => ⟨S_, .f32⟩
  | 118 => ⟨S_, .f32⟩
  | 119 => ⟨S4096x4096, .f32⟩
  | 120 => ⟨S4096x4096, .f32⟩
  | 121 => ⟨S_, .f32⟩
  | 122 => ⟨S4096, .f32⟩
  | 123 => ⟨S_, .f32⟩
  | 124 => ⟨S_, .f32⟩
  | 125 => ⟨S4096, .f32⟩
  | 126 => ⟨S4096, .f32⟩
  | 127 => ⟨S_, .f32⟩
  | _ => ⟨S4096x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S4096, .f32⟩
  | 6 => ⟨S4096, .f32⟩
  | 7 => ⟨S_, .f32⟩
  | 8 => ⟨S_, .f32⟩
  | 9 => ⟨S4096, .f32⟩
  | 10 => ⟨S4096, .f32⟩
  | 11 => ⟨S_, .f32⟩
  | 12 => ⟨S4096, .f32⟩
  | 13 => ⟨S4096, .f32⟩
  | 14 => ⟨S_, .f32⟩
  | 15 => ⟨S_, .f32⟩
  | 16 => ⟨S4096, .f32⟩
  | 17 => ⟨S4096, .f32⟩
  | 18 => ⟨S_, .f32⟩
  | 19 => ⟨S_, .f32⟩
  | 20 => ⟨S_, .f32⟩
  | 21 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c : Ref sig .tc := ⟨.hbm, 59, rfl⟩
abbrev main_v40 : Ref sig .tc := ⟨.hbm, 60, rfl⟩
abbrev main_cst_9 : Ref sig .tc := ⟨.hbm, 61, rfl⟩
abbrev main_call2_v0 : Ref sig .tc := ⟨.hbm, 62, rfl⟩
abbrev main_call2_v1 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_cst_11 : Ref sig .tc := ⟨.hbm, 67, rfl⟩
abbrev main_call3_v0 : Ref sig .tc := ⟨.hbm, 68, rfl⟩
abbrev main_call3_v1 : Ref sig .tc := ⟨.hbm, 69, rfl⟩
abbrev main_v43 : Ref sig .tc := ⟨.hbm, 70, rfl⟩
abbrev main_cst_12 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_v46 : Ref sig .tc := ⟨.hbm, 75, rfl⟩
abbrev main_cst_14 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_15 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_16 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_17 : Ref sig .tc := ⟨.hbm, 92, rfl⟩
abbrev main_v60 : Ref sig .tc := ⟨.hbm, 93, rfl⟩
abbrev main_v61 : Ref sig .tc := ⟨.hbm, 94, rfl⟩
abbrev main_cst_18 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_19 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_20 : Ref sig .tc := ⟨.hbm, 105, rfl⟩
abbrev main_v70 : Ref sig .tc := ⟨.hbm, 106, rfl⟩
abbrev main_v71 : Ref sig .tc := ⟨.hbm, 107, rfl⟩
abbrev main_cst_21 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_22 : Ref sig .tc := ⟨.hbm, 115, rfl⟩
abbrev main_v78 : Ref sig .tc := ⟨.hbm, 116, rfl⟩
abbrev main_cst_23 : Ref sig .tc := ⟨.hbm, 117, rfl⟩
abbrev main_call4_v0 : Ref sig .tc := ⟨.hbm, 118, rfl⟩
abbrev main_call4_v1 : Ref sig .tc := ⟨.hbm, 119, rfl⟩
abbrev main_v79 : Ref sig .tc := ⟨.hbm, 120, rfl⟩
abbrev main_cst_24 : Ref sig .tc := ⟨.hbm, 121, rfl⟩
abbrev main_v80 : Ref sig .tc := ⟨.hbm, 122, rfl⟩
abbrev main_cst_25 : Ref sig .tc := ⟨.hbm, 123, rfl⟩
abbrev main_call5_v0 : Ref sig .tc := ⟨.hbm, 124, rfl⟩
abbrev main_call5_v1 : Ref sig .tc := ⟨.hbm, 125, rfl⟩
abbrev main_v81 : Ref sig .tc := ⟨.hbm, 126, rfl⟩
abbrev main_cst_26 : Ref sig .tc := ⟨.hbm, 127, rfl⟩
abbrev main_v82 : Ref sig .tc := ⟨.hbm, 128, rfl⟩
abbrev main_cst_27 : Ref sig .tc := ⟨.hbm, 129, rfl⟩
abbrev main_v83 : Ref sig .tc := ⟨.hbm, 130, rfl⟩
abbrev main_cst_28 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_29 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_30 : Ref sig .tc := ⟨.hbm, 139, rfl⟩
abbrev main_v90 : Ref sig .tc := ⟨.hbm, 140, rfl⟩
abbrev main_v91 : Ref sig .tc := ⟨.hbm, 141, rfl⟩
abbrev main_cst_31 : Ref sig .tc := ⟨.hbm, 142, rfl⟩
abbrev main_call6_v0 : Ref sig .tc := ⟨.hbm, 143, rfl⟩
abbrev main_call6_v1 : Ref sig .tc := ⟨.hbm, 144, rfl⟩
abbrev main_v92 : Ref sig .tc := ⟨.hbm, 145, rfl⟩
abbrev main_cst_32 : Ref sig .tc := ⟨.hbm, 146, rfl⟩
abbrev main_v93 : Ref sig .tc := ⟨.hbm, 147, rfl⟩
abbrev main_cst_33 : Ref sig .tc := ⟨.hbm, 148, rfl⟩
abbrev main_v94 : Ref sig .tc := ⟨.hbm, 149, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KernelRuns.lean ====
/-
  What the three body runs of the mining kernel share: the contents the region finds in each buffer (after the host's row sums and
  transposes), each window's block at a grid point, the two conditions on the column coordinate decided over the 8 × 8 grid (the first
  column tile resets the carried state, the last one writes the results), where the three result windows are idle, and names for the
  staging and scratch memrefs.
-/
import proofs.«127039_j10264971838200_2_alg».proof.Proof.Gen.Kernel.Launch
import proofs.«127039_j10264971838200_2_alg».proof.Proof.Gen.Kernel.Skeleton
import proofs.«127039_j10264971838200_2_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch contents after the row sums, their broadcasts and transposes. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not, for any proof data on the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not, for any proof data on the region-entry arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not, for any proof data on the region-entry arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not, for any proof data on the region-entry arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not, for any proof data on the region-entry arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not, for any proof data on the region-entry arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not, for any proof data on the region-entry arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not, for any proof data on the region-entry arrays whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not, for any proof data on the region-entry arrays whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The two conditions on the column coordinate -/

/-- The first column tile. -/
abbrev cond0_0 (i : grid0.Coords) : Prop := k0_cond1 i = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The last column tile. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
/-- The row distances' window is stored at the first column tile only, and written back at the last. -/
theorem liveAt0_9 : ∀ t : Fin cfg0.N, cond0_0 (grid0.coords t) → cfg0.idle 9 (grid0.coords t) = false := by decide +kernel
theorem idleAt0_9 : ∀ t : Fin cfg0.N, ¬cond0_0 (grid0.coords t) → cfg0.idle 9 (grid0.coords t) = true := by decide +kernel
theorem noFlush0_9 : ∀ t : Fin cfg0.N, ¬cond0_1 (grid0.coords t) → (cfg0.win 9).flush t = false := by decide +kernel
theorem flushAt0_9 : ∀ t : Fin cfg0.N, cond0_1 (grid0.coords t) → (cfg0.win 9).flush t = true := by decide +kernel
/-- Result window 10 is stored, and written back, at the last column tile only. -/
theorem liveAt0_10 : ∀ t : Fin cfg0.N, cond0_1 (grid0.coords t) → cfg0.idle 10 (grid0.coords t) = false := by decide +kernel
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
/-- Result window 11 is stored, and written back, at the last column tile only. -/
theorem liveAt0_11 : ∀ t : Fin cfg0.N, cond0_1 (grid0.coords t) → cfg0.idle 11 (grid0.coords t) = false := by decide +kernel
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel

/-! ## The memrefs the body is called with -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1 .f32 := win0_11.stage (cfg0.slots t 11)
abbrev hs0_11 (t : Fin cfg0.N) : (ms0_11 t).IsWhole := hstage0_11 ((cfg0.slots t 11).cast nbuf0_11)
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
abbrev scM0_4 : Memref sig .tc .vmem S512x1 .f32 := Memref.whole cc0_scratch4
abbrev scM0_5 : Memref sig .tc .vmem S512x1 .f32 := Memref.whole cc0_scratch5
/-- A view of the column shape [512, 1] through which stored pieces are read back (the choice of buffer does not matter). -/
abbrev VC : View sig .tc .vmem S512x1 .f32 := scM0_0.view

/-- The scoped buffers no window stages are the six scratch columns, each owned at some contents. -/
theorem rest0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) := by
  rw [scopedRest0_eq]; simp only [scM0_0, scM0_1, scM0_2, scM0_3, scM0_4, scM0_5, owns_whole]; try rfl

end Cert.Kernel.Fr

end
-- ==== Proof.KernelRunA.lean ====
/-
  The body's run at the first column tile of a row block: the row distances, the two squared row distances, the row sums of squares and of entries are computed from the anchor, positive and negative row tiles and stored, the two running extrema are reset to −∞ and +∞ and then updated with this tile's masked maximum and minimum.
  On whole memrefs — the nine inputs at their contents, an idle result column handed back untouched, a stored one ending with its pieces
  written, the scratch columns at what the point before left (or at anything where the case overwrites them) — the body runs to its return.
  The pieces each stored column ends with are found by the run.
-/
import proofs.«127039_j10264971838200_2_alg».proof.Proof.KernelRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : cond0_0 i) (hc1 : ¬cond0_1 i)
    (x0 : Vec F S512x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) :
    Σ' (L9 : List (View.Piece (Elt F) S512x1 .f32)), Σ' (LS0 : List (View.Piece (Elt F) S512x1 .f32)), Σ' (LS1 : List (View.Piece (Elt F) S512x1 .f32)), Σ' (LS2 : List (View.Piece (Elt F) S512x1 .f32)), Σ' (LS3 : List (View.Piece (Elt F) S512x1 .f32)), Σ' (LS4 : List (View.Piece (Elt F) S512x1 .f32)), { LS5 : List (View.Piece (Elt F) S512x1 .f32) //
      ∀ (xi10 xi11 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (∃ d, owns (c : Thread nD τ) arg11 fullShare d)
            ∗ owns (c : Thread nD τ) arg12 fullShare xi10
            ∗ owns (c : Thread nD τ) arg13 fullShare xi11
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ (∃ f, arg11.view.loc (c : Thread nD τ) ↦[arg11.view.set]{fullShare} arg11.view.writes (Elt F) f L9)
                ∗ owns (c : Thread nD τ) arg12 fullShare xi10
                ∗ owns (c : Thread nD τ) arg13 fullShare xi11
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)
                ∗ (∃ f, arg17.view.loc (c : Thread nD τ) ↦[arg17.view.set]{fullShare} arg17.view.writes (Elt F) f LS3)
                ∗ (∃ f, arg18.view.loc (c : Thread nD τ) ↦[arg18.view.set]{fullShare} arg18.view.writes (Elt F) f LS4)
                ∗ (∃ f, arg19.view.loc (c : Thread nD τ) ↦[arg19.view.set]{fullShare} arg19.view.writes (Elt F) f LS5)) -∗ K ⟨⟩))
          ⊢ wp frame (wpE (defs₀ (F := F)) Variants.none c none) E (cc0_mine_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, fun xi10 xi11 E K => ?run⟩
  case run =>
    simp only [cc0_mine_kernel_eq_skeleton]; unfold cc0_mine_kernel_skel
    simp only [k0_part2_eq_skeleton, k0_part3_eq_skeleton, k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.Kernel.Fr

end
-- ==== Proof.KernelRunB.lean ====
/-
  The body's run at a middle column tile: the two running extrema are updated with this tile's masked maximum and minimum; nothing else is stored.
  On whole memrefs — the nine inputs at their contents, an idle result column handed back untouched, a stored one ending with its pieces
  written, the scratch columns at what the point before left (or at anything where the case overwrites them) — the body runs to its return.
  The pieces each stored column ends with are found by the run.
-/
import proofs.«127039_j10264971838200_2_alg».proof.Proof.KernelRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : ¬cond0_0 i) (hc1 : ¬cond0_1 i)
    (x0 : Vec F S512x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (xs0 : Vec F S512x1 .f32) (xs1 : Vec F S512x1 .f32) (xs2 : Vec F S512x1 .f32) (xs3 : Vec F S512x1 .f32) (xs4 : Vec F S512x1 .f32) (xs5 : Vec F S512x1 .f32) :
    Σ' (LS0 : List (View.Piece (Elt F) S512x1 .f32)), { LS1 : List (View.Piece (Elt F) S512x1 .f32) //
      ∀ (xi9 xi10 xi11 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare xi9
            ∗ owns (c : Thread nD τ) arg12 fullShare xi10
            ∗ owns (c : Thread nD τ) arg13 fullShare xi11
            ∗ owns (c : Thread nD τ) arg14 fullShare xs0
            ∗ owns (c : Thread nD τ) arg15 fullShare xs1
            ∗ owns (c : Thread nD τ) arg16 fullShare xs2
            ∗ owns (c : Thread nD τ) arg17 fullShare xs3
            ∗ owns (c : Thread nD τ) arg18 fullShare xs4
            ∗ owns (c : Thread nD τ) arg19 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ owns (c : Thread nD τ) arg11 fullShare xi9
                ∗ owns (c : Thread nD τ) arg12 fullShare xi10
                ∗ owns (c : Thread nD τ) arg13 fullShare xi11
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ owns (c : Thread nD τ) arg16 fullShare xs2
                ∗ owns (c : Thread nD τ) arg17 fullShare xs3
                ∗ owns (c : Thread nD τ) arg18 fullShare xs4
                ∗ owns (c : Thread nD τ) arg19 fullShare xs5) -∗ K ⟨⟩))
          ⊢ wp frame (wpE (defs₀ (F := F)) Variants.none c none) E (cc0_mine_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi9 xi10 xi11 E K => ?run⟩
  case run =>
    simp only [cc0_mine_kernel_eq_skeleton]; unfold cc0_mine_kernel_skel
    simp only [k0_part2_eq_skeleton, k0_part3_eq_skeleton, k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    iexists _; isplitr; · ipureintro; exact harg19.read_unread _
    iexact H19

end Cert.Kernel.Fr

end
-- ==== Proof.KernelRunC.lean ====
/-
  The body's run at the last column tile: the two running extrema are updated and then turned into the two results (the root of the positive part, or 0 where the extremum is still infinite).
  On whole memrefs — the nine inputs at their contents, an idle result column handed back untouched, a stored one ending with its pieces
  written, the scratch columns at what the point before left (or at anything where the case overwrites them) — the body runs to its return.
  The pieces each stored column ends with are found by the run.
-/
import proofs.«127039_j10264971838200_2_alg».proof.Proof.KernelRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : ¬cond0_0 i) (hc1 : cond0_1 i)
    (x0 : Vec F S512x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (xs0 : Vec F S512x1 .f32) (xs1 : Vec F S512x1 .f32) (xs2 : Vec F S512x1 .f32) (xs3 : Vec F S512x1 .f32) (xs4 : Vec F S512x1 .f32) (xs5 : Vec F S512x1 .f32) :
    Σ' (L10 : List (View.Piece (Elt F) S512x1 .f32)), Σ' (L11 : List (View.Piece (Elt F) S512x1 .f32)), Σ' (LS0 : List (View.Piece (Elt F) S512x1 .f32)), { LS1 : List (View.Piece (Elt F) S512x1 .f32) //
      ∀ (xi9 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare xi9
            ∗ (∃ d, owns (c : Thread nD τ) arg12 fullShare d)
            ∗ (∃ d, owns (c : Thread nD τ) arg13 fullShare d)
            ∗ owns (c : Thread nD τ) arg14 fullShare xs0
            ∗ owns (c : Thread nD τ) arg15 fullShare xs1
            ∗ owns (c : Thread nD τ) arg16 fullShare xs2
            ∗ owns (c : Thread nD τ) arg17 fullShare xs3
            ∗ owns (c : Thread nD τ) arg18 fullShare xs4
            ∗ owns (c : Thread nD τ) arg19 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ owns (c : Thread nD τ) arg11 fullShare xi9
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ owns (c : Thread nD τ) arg16 fullShare xs2
                ∗ owns (c : Thread nD τ) arg17 fullShare xs3
                ∗ owns (c : Thread nD τ) arg18 fullShare xs4
                ∗ owns (c : Thread nD τ) arg19 fullShare xs5) -∗ K ⟨⟩))
          ⊢ wp frame (wpE (defs₀ (F := F)) Variants.none c none) E (cc0_mine_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun xi9 E K => ?run⟩
  case run =>
    simp only [cc0_mine_kernel_eq_skeleton]; unfold cc0_mine_kernel_skel
    simp only [k0_part2_eq_skeleton, k0_part3_eq_skeleton, k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]; · iexists _; iexact H13
    isplitl [H14]; · iexists _; iexact H14
    isplitl [H15]; · iexists _; iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    iexists _; isplitr; · ipureintro; exact harg19.read_unread _
    iexact H19

end Cert.Kernel.Fr

end
-- ==== Proof.KernelData.lean ====
/-
  The proof data of the mining region and its body obligation.
  After the body at a grid point (row block i, column tile j) the row-distance column holds what the first column tile of the row block
  stored (carried unchanged through the later tiles and written back at the last), the two result columns hold what the last column tile
  stored, and the six scratch columns hold: the two running extrema as updated at this tile, the four row statistics as the first tile
  stored them. The positive and the negative arrays are each handed to two windows (a row tile and a column tile): each of the two
  holds half of the array's share.
-/
import proofs.«127039_j10264971838200_2_alg».proof.Proof.KernelRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the nine columns hold after a point: the three result windows' staging columns and the six scratch columns. -/
structure Cols (F : FTy → Type) where
  o9 : Vec F S512x1 .f32
  o10 : Vec F S512x1 .f32
  o11 : Vec F S512x1 .f32
  s0 : Vec F S512x1 .f32
  s1 : Vec F S512x1 .f32
  s2 : Vec F S512x1 .f32
  s3 : Vec F S512x1 .f32
  s4 : Vec F S512x1 .f32
  s5 : Vec F S512x1 .f32

/-- The three runs at a grid point's memrefs and input blocks. -/
abbrev runA (c : Dev nD) (t : Fin cfg0.N) (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 t) (iblk m c 1 t) (iblk m c 2 t) (iblk m c 3 t) (iblk m c 4 t) (iblk m c 5 t) (iblk m c 6 t) (iblk m c 7 t) (iblk m c 8 t)
abbrev runB (c : Dev nD) (t : Fin cfg0.N) (hc0 : ¬cond0_0 (grid0.coords t)) (hc1 : ¬cond0_1 (grid0.coords t)) (xs0 xs1 xs2 xs3 xs4 xs5 : Vec F S512x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 t) (iblk m c 1 t) (iblk m c 2 t) (iblk m c 3 t) (iblk m c 4 t) (iblk m c 5 t) (iblk m c 6 t) (iblk m c 7 t) (iblk m c 8 t) xs0 xs1 xs2 xs3 xs4 xs5
abbrev runC (c : Dev nD) (t : Fin cfg0.N) (hc0 : ¬cond0_0 (grid0.coords t)) (hc1 : cond0_1 (grid0.coords t)) (xs0 xs1 xs2 xs3 xs4 xs5 : Vec F S512x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 t) (iblk m c 1 t) (iblk m c 2 t) (iblk m c 3 t) (iblk m c 4 t) (iblk m c 5 t) (iblk m c 6 t) (iblk m c 7 t) (iblk m c 8 t) xs0 xs1 xs2 xs3 xs4 xs5

/-- A list of stored pieces read back as one column. -/
abbrev colOf (L : List (View.Piece (Elt F) S512x1 .f32)) : Vec F S512x1 .f32 := VC.read (Elt F) (VC.writes (Elt F) VC.junk L)

/-- The pieces the first-tile run stores into column L9 cover it. -/
theorem coverA_L9 (c : Dev nD) (t : Fin cfg0.N) (hc0 : cond0_0 (grid0.coords t)) (hc1 : ¬cond0_1 (grid0.coords t))  (y : S512x1.Idx) :
    ∃ pc ∈ (runA m c t hc0 hc1).1, y ∈ pc.1.set :=
  View.cover_of_tiledL _ S512x1.size (by sl_kernel_rfl) y
/-- The pieces the first-tile run stores into column LS0 cover it. -/
theorem coverA_LS0 (c : Dev nD) (t : Fin cfg0.N) (hc0 : cond0_0 (grid0.coords t)) (hc1 : ¬cond0_1 (grid0.coords t))  (y : S512x1.Idx) :
    ∃ pc ∈ (runA m c t hc0 hc1).2.1, y ∈ pc.1.set :=
  View.cover_of_tiledL _ S512x1.size (by sl_kernel_rfl) y
/-- The pieces the first-tile run stores into column LS1 cover it. -/
theorem coverA_LS1 (c : Dev nD) (t : Fin cfg0.N) (hc0 : cond0_0 (grid0.coords t)) (hc1 : ¬cond0_1 (grid0.coords t))  (y : S512x1.Idx) :
    ∃ pc ∈ (runA m c t hc0 hc1).2.2.1, y ∈ pc.1.set :=
  View.cover_of_tiledL _ S512x1.size (by sl_kernel_rfl) y
/-- The pieces the first-tile run stores into column LS2 cover it. -/
theorem coverA_LS2 (c : Dev nD) (t : Fin cfg0.N) (hc0 : cond0_0 (grid0.coords t)) (hc1 : ¬cond0_1 (grid0.coords t))  (y : S512x1.Idx) :
    ∃ pc ∈ (runA m c t hc0 hc1).2.2.2.1, y ∈ pc.1.set :=
  View.cover_of_tiledL _ S512x1.size (by sl_kernel_rfl) y
/-- The pieces the first-tile run stores into column LS3 cover it. -/
theorem coverA_LS3 (c : Dev nD) (t : Fin cfg0.N) (hc0 : cond0_0 (grid0.coords t)) (hc1 : ¬cond0_1 (grid0.coords t))  (y : S512x1.Idx) :
    ∃ pc ∈ (runA m c t hc0 hc1).2.2.2.2.1, y ∈ pc.1.set :=
  View.cover_of_tiledL _ S512x1.size (by sl_kernel_rfl) y
/-- The pieces the first-tile run stores into column LS4 cover it. -/
theorem coverA_LS4 (c : Dev nD) (t : Fin cfg0.N) (hc0 : cond0_0 (grid0.coords t)) (hc1 : ¬cond0_1 (grid0.coords t))  (y : S512x1.Idx) :
    ∃ pc ∈ (runA m c t hc0 hc1).2.2.2.2.2.1, y ∈ pc.1.set :=
  View.cover_of_tiledL _ S512x1.size (by sl_kernel_rfl) y
/-- The pieces the first-tile run stores into column LS5 cover it. -/
theorem coverA_LS5 (c : Dev nD) (t : Fin cfg0.N) (hc0 : cond0_0 (grid0.coords t)) (hc1 : ¬cond0_1 (grid0.coords t))  (y : S512x1.Idx) :
    ∃ pc ∈ (runA m c t hc0 hc1).2.2.2.2.2.2.1, y ∈ pc.1.set :=
  View.cover_of_tiledL _ S512x1.size (by sl_kernel_rfl) y
/-- The pieces the middle-tile run stores into column LS0 cover it. -/
theorem coverB_LS0 (c : Dev nD) (t : Fin cfg0.N) (hc0 : ¬cond0_0 (grid0.coords t)) (hc1 : ¬cond0_1 (grid0.coords t)) (xs0 xs1 xs2 xs3 xs4 xs5 : Vec F S512x1 .f32) (y : S512x1.Idx) :
    ∃ pc ∈ (runB m c t hc0 hc1 xs0 xs1 xs2 xs3 xs4 xs5).1, y ∈ pc.1.set :=
  View.cover_of_tiledL _ S512x1.size (by sl_kernel_rfl) y
/-- The pieces the middle-tile run stores into column LS1 cover it. -/
theorem coverB_LS1 (c : Dev nD) (t : Fin cfg0.N) (hc0 : ¬cond0_0 (grid0.coords t)) (hc1 : ¬cond0_1 (grid0.coords t)) (xs0 xs1 xs2 xs3 xs4 xs5 : Vec F S512x1 .f32) (y : S512x1.Idx) :
    ∃ pc ∈ (runB m c t hc0 hc1 xs0 xs1 xs2 xs3 xs4 xs5).2.1, y ∈ pc.1.set :=
  View.cover_of_tiledL _ S512x1.size (by sl_kernel_rfl) y
/-- The pieces the last-tile run stores into column L10 cover it. -/
theorem coverC_L10 (c : Dev nD) (t : Fin cfg0.N) (hc0 : ¬cond0_0 (grid0.coords t)) (hc1 : cond0_1 (grid0.coords t)) (xs0 xs1 xs2 xs3 xs4 xs5 : Vec F S512x1 .f32) (y : S512x1.Idx) :
    ∃ pc ∈ (runC m c t hc0 hc1 xs0 xs1 xs2 xs3 xs4 xs5).1, y ∈ pc.1.set :=
  View.cover_of_tiledL _ S512x1.size (by sl_kernel_rfl) y
/-- The pieces the last-tile run stores into column L11 cover it. -/
theorem coverC_L11 (c : Dev nD) (t : Fin cfg0.N) (hc0 : ¬cond0_0 (grid0.coords t)) (hc1 : cond0_1 (grid0.coords t)) (xs0 xs1 xs2 xs3 xs4 xs5 : Vec F S512x1 .f32) (y : S512x1.Idx) :
    ∃ pc ∈ (runC m c t hc0 hc1 xs0 xs1 xs2 xs3 xs4 xs5).2.1, y ∈ pc.1.set :=
  View.cover_of_tiledL _ S512x1.size (by sl_kernel_rfl) y
/-- The pieces the last-tile run stores into column LS0 cover it. -/
theorem coverC_LS0 (c : Dev nD) (t : Fin cfg0.N) (hc0 : ¬cond0_0 (grid0.coords t)) (hc1 : cond0_1 (grid0.coords t)) (xs0 xs1 xs2 xs3 xs4 xs5 : Vec F S512x1 .f32) (y : S512x1.Idx) :
    ∃ pc ∈ (runC m c t hc0 hc1 xs0 xs1 xs2 xs3 xs4 xs5).2.2.1, y ∈ pc.1.set :=
  View.cover_of_tiledL _ S512x1.size (by sl_kernel_rfl) y
/-- The pieces the last-tile run stores into column LS1 cover it. -/
theorem coverC_LS1 (c : Dev nD) (t : Fin cfg0.N) (hc0 : ¬cond0_0 (grid0.coords t)) (hc1 : cond0_1 (grid0.coords t)) (xs0 xs1 xs2 xs3 xs4 xs5 : Vec F S512x1 .f32) (y : S512x1.Idx) :
    ∃ pc ∈ (runC m c t hc0 hc1 xs0 xs1 xs2 xs3 xs4 xs5).2.2.2.1, y ∈ pc.1.set :=
  View.cover_of_tiledL _ S512x1.size (by sl_kernel_rfl) y

/-- The columns after a first-tile point. (The two result columns are not consulted there: a placeholder.) -/
def colsA (c : Dev nD) (t : Fin cfg0.N) (hc0 : cond0_0 (grid0.coords t)) (hc1 : ¬cond0_1 (grid0.coords t)) : Cols F :=
  { o9 := colOf (runA m c t hc0 hc1).1, o10 := colOf (runA m c t hc0 hc1).1, o11 := colOf (runA m c t hc0 hc1).1,
      s0 := colOf (runA m c t hc0 hc1).2.1, s1 := colOf (runA m c t hc0 hc1).2.2.1, s2 := colOf (runA m c t hc0 hc1).2.2.2.1,
      s3 := colOf (runA m c t hc0 hc1).2.2.2.2.1, s4 := colOf (runA m c t hc0 hc1).2.2.2.2.2.1, s5 := colOf (runA m c t hc0 hc1).2.2.2.2.2.2.1 }
/-- The columns after a middle-tile point, from what the point before left (`p`). -/
def colsB (c : Dev nD) (t : Fin cfg0.N) (hc0 : ¬cond0_0 (grid0.coords t)) (hc1 : ¬cond0_1 (grid0.coords t)) (p : Cols F) : Cols F :=
  { o9 := p.o9, o10 := p.o10, o11 := p.o11,
    s0 := colOf (runB m c t hc0 hc1 p.s0 p.s1 p.s2 p.s3 p.s4 p.s5).1, s1 := colOf (runB m c t hc0 hc1 p.s0 p.s1 p.s2 p.s3 p.s4 p.s5).2.1,
    s2 := p.s2, s3 := p.s3, s4 := p.s4, s5 := p.s5 }
/-- The columns after a last-tile point, from what the point before left. -/
def colsC (c : Dev nD) (t : Fin cfg0.N) (hc0 : ¬cond0_0 (grid0.coords t)) (hc1 : cond0_1 (grid0.coords t)) (p : Cols F) : Cols F :=
  { o9 := p.o9, o10 := colOf (runC m c t hc0 hc1 p.s0 p.s1 p.s2 p.s3 p.s4 p.s5).1, o11 := colOf (runC m c t hc0 hc1 p.s0 p.s1 p.s2 p.s3 p.s4 p.s5).2.1,
    s0 := colOf (runC m c t hc0 hc1 p.s0 p.s1 p.s2 p.s3 p.s4 p.s5).2.2.1, s1 := colOf (runC m c t hc0 hc1 p.s0 p.s1 p.s2 p.s3 p.s4 p.s5).2.2.2.1,
    s2 := p.s2, s3 := p.s3, s4 := p.s4, s5 := p.s5 }

/-! ## What the columns hold after each point -/

/-- By recursion on the point: the case its column coordinate selects, over what the point before left. -/
def colsAt (c : Dev nD) : (n : ℕ) → n < cfg0.N → Cols F
  | 0, hn => colsA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 8 = 0 then
      if h1 : (n + 1) % 8 = 7 then False.elim (by omega)
      else colsA m c ⟨n + 1, hn⟩ ((hcond0_0 ⟨n + 1, hn⟩).mpr h0) (fun h => h1 ((hcond0_1 ⟨n + 1, hn⟩).mp h))
    else
      if h1 : (n + 1) % 8 = 7 then
        colsC m c ⟨n + 1, hn⟩ (fun h => h0 ((hcond0_0 ⟨n + 1, hn⟩).mp h)) ((hcond0_1 ⟨n + 1, hn⟩).mpr h1) (colsAt c n (Nat.lt_of_succ_lt hn))
      else
        colsB m c ⟨n + 1, hn⟩ (fun h => h0 ((hcond0_0 ⟨n + 1, hn⟩).mp h)) (fun h => h1 ((hcond0_1 ⟨n + 1, hn⟩).mp h)) (colsAt c n (Nat.lt_of_succ_lt hn))

theorem colsAt_A (c : Dev nD) (t : Fin cfg0.N) (h0 : t.val % 8 = 0) (h1 : ¬t.val % 8 = 7) :
    colsAt m c t.val t.isLt = colsA m c t ((hcond0_0 t).mpr h0) (fun h => h1 ((hcond0_1 t).mp h)) := by
  obtain ⟨n, hn⟩ := t
  cases n with
  | zero => exact rfl
  | succ n => exact (dif_pos h0).trans ((dif_neg h1).trans rfl)

theorem colsAt_B (c : Dev nD) (t : Fin cfg0.N) (h0 : ¬t.val % 8 = 0) (h1 : ¬t.val % 8 = 7) :
    colsAt m c t.val t.isLt = colsB m c t (fun h => h0 ((hcond0_0 t).mp h)) (fun h => h1 ((hcond0_1 t).mp h))
      (colsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem colsAt_C (c : Dev nD) (t : Fin cfg0.N) (h0 : ¬t.val % 8 = 0) (h1 : t.val % 8 = 7) :
    colsAt m c t.val t.isLt = colsC m c t (fun h => h0 ((hcond0_0 t).mp h)) ((hcond0_1 t).mpr h1)
      (colsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- Past the first tile of a row block the row-distance column is what the point before left. -/
theorem colsAt_o9 (c : Dev nD) (t : Fin cfg0.N) (h0 : ¬t.val % 8 = 0) :
    (colsAt m c t.val t.isLt).o9 = (colsAt m c (t.val - 1) (Nat.lt_of_le_of_lt (Nat.sub_le _ _) t.isLt)).o9 := by
  by_cases h1 : t.val % 8 = 7
  · rw [colsAt_C m c t h0 h1]; rfl
  · rw [colsAt_B m c t h0 h1]; rfl

/-! ## The invariant between points -/

/-- Before the first point: the six scratch columns at anything. Afterwards: each at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare (colsAt m c n hn).s0 ∗ owns (c : Thread nD τ) scM0_1 fullShare (colsAt m c n hn).s1 ∗ owns (c : Thread nD τ) scM0_2 fullShare (colsAt m c n hn).s2 ∗ owns (c : Thread nD τ) scM0_3 fullShare (colsAt m c n hn).s3 ∗ owns (c : Thread nD τ) scM0_4 fullShare (colsAt m c n hn).s4 ∗ owns (c : Thread nD τ) scM0_5 fullShare (colsAt m c n hn).s5)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare (colsAt m c n hn).s0 ∗ owns (c : Thread nD τ) scM0_1 fullShare (colsAt m c n hn).s1 ∗ owns (c : Thread nD τ) scM0_2 fullShare (colsAt m c n hn).s2 ∗ owns (c : Thread nD τ) scM0_3 fullShare (colsAt m c n hn).s3 ∗ owns (c : Thread nD τ) scM0_4 fullShare (colsAt m c n hn).s4 ∗ owns (c : Thread nD τ) scM0_5 fullShare (colsAt m c n hn).s5) := rfl

theorem PhiS_pos (c : Dev nD) (n : ℕ) (h : n ≤ cfg0.N) (hz : n ≠ 0) :
    PhiS m c n h = iprop(owns (c : Thread nD τ) scM0_0 fullShare (colsAt m c (n - 1) (by omega)).s0 ∗ owns (c : Thread nD τ) scM0_1 fullShare (colsAt m c (n - 1) (by omega)).s1 ∗ owns (c : Thread nD τ) scM0_2 fullShare (colsAt m c (n - 1) (by omega)).s2 ∗ owns (c : Thread nD τ) scM0_3 fullShare (colsAt m c (n - 1) (by omega)).s3 ∗ owns (c : Thread nD τ) scM0_4 fullShare (colsAt m c (n - 1) (by omega)).s4 ∗ owns (c : Thread nD τ) scM0_5 fullShare (colsAt m c (n - 1) (by omega)).s5) := by
  cases n with
  | zero => exact absurd rfl hz
  | succ n => rfl

/-! ## The proof data -/

/-- The arrays as the region finds them; after the body each input's buffer at its block, the three result columns at `colsAt`'s;
    the invariant `PhiS`; nothing owed. The positive array's share is dealt to windows 1 and 3, the negative array's to windows 2 and 4,
    a half each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (colsAt m c t.val t.isLt).o9
    | ⟨10, _⟩ => (colsAt m c t.val t.isLt).o10
    | ⟨11, _⟩ => (colsAt m c t.val t.isLt).o11
  Φ t := PhiS m c t.val (Nat.le_of_lt_succ t.isLt)
  q w := match w with
    | ⟨1, _⟩ => fullShare.left
    | ⟨3, _⟩ => fullShare.right
    | ⟨2, _⟩ => fullShare.left
    | ⟨4, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (colsAt m c t.val t.isLt).o9 := by dsimp only [dats]
theorem after0_10 (c : Dev nD) (t : Fin cfg0.N) : (dats m 0 c).after 10 t = (colsAt m c t.val t.isLt).o10 := by dsimp only [dats]
theorem after0_11 (c : Dev nD) (t : Fin cfg0.N) : (dats m 0 c).after 11 t = (colsAt m c t.val t.isLt).o11 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

end Cert.Kernel.Fr

end
-- ==== Proof.KernelBody.lean ====
/-
  The body obligation of the mining region: at every grid point, from the invariant and each window's staging buffer at what the pipeline
  hands it, the kernel body runs to the invariant at the next point and each buffer at what the proof data names.
-/
import proofs.«127039_j10264971838200_2_alg».proof.Proof.KernelData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Past the first tile of a row block the row-distance window's staging buffer holds what the point before left in it: it is not
    fetched, the point before did not write it back, and where it is idle the body hands it back untouched. -/
theorem before0_9 (c : Dev nD) : ∀ (n : ℕ) (t : Fin cfg0.N), t.val = n → ¬t.val % 8 = 0 → ∀ d,
    (dats m 0 c).before 9 t d = (colsAt m c (t.val - 1) (Nat.lt_of_le_of_lt (Nat.sub_le _ _) t.isLt)).o9 := by
  intro n
  induction n using Nat.strong_induction_on with
  | _ n ih =>
    intro t htn h0 d
    have hN : t.val < 64 := lt_of_lt_of_eq t.isLt N_0
    have ht : t.val ≠ 0 := fun e => h0 (by rw [e])
    have hfl : (cfg0.win 9).flush ⟨t.val - 1, (Nat.lt_of_le_of_lt (Nat.sub_le _ _) t.isLt)⟩ = false :=
      noFlush0_9 _ (fun h => by have := (hcond0_1 _).mp h; (try dsimp only at this); omega)
    rw [(dats m 0 c).before_of_pos 9 t ht ((cfg0.win 9).fetch_out rfl t) d, hfl, if_neg Bool.false_ne_true]
    unfold Dat.left
    by_cases hp : (t.val - 1) % 8 = 0
    · rw [liveAt0_9 ⟨t.val - 1, (Nat.lt_of_le_of_lt (Nat.sub_le _ _) t.isLt)⟩ ((hcond0_0 _).mpr hp)]
      show (dats m 0 c).after 9 ⟨t.val - 1, (Nat.lt_of_le_of_lt (Nat.sub_le _ _) t.isLt)⟩ = _
      rw [after0_9]
    · rw [idleAt0_9 ⟨t.val - 1, (Nat.lt_of_le_of_lt (Nat.sub_le _ _) t.isLt)⟩ (fun h => hp ((hcond0_0 _).mp h))]
      show (dats m 0 c).before 9 ⟨t.val - 1, (Nat.lt_of_le_of_lt (Nat.sub_le _ _) t.isLt)⟩ d = _
      rw [ih (t.val - 1) (by omega) ⟨t.val - 1, (Nat.lt_of_le_of_lt (Nat.sub_le _ _) t.isLt)⟩ rfl hp d]
      exact (colsAt_o9 m c ⟨t.val - 1, (Nat.lt_of_le_of_lt (Nat.sub_le _ _) t.isLt)⟩ hp).symm

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 16000000 in
/-- The body at any point: the inputs' buffers hold their blocks; the column coordinate says which of the three runs applies; the
    invariant hands the run the scratch columns at what the point before left (at anything before the first point) and takes them back
    at this point's contents; an idle result column goes back as it was found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  have hN : t.val < 64 := lt_of_lt_of_eq t.isLt N_0
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [show (dats m 0 c).leavesExact 9 t = owns (c : Thread nD τ) (ms0_9 t) fullShare ((dats m 0 c).after 9 t) from by
      unfold Dat.leavesExact; rw [liveAt0_9 t hc0], after0_9]
    rw [Dat.leavesExact_idle (dats m 0 c) 10 t (idleAt0_10 t hc1) (noFlush0_10 t hc1)]
    rw [Dat.leavesExact_idle (dats m 0 c) 11 t (idleAt0_11 t hc1) (noFlush0_11 t hc1)]
    rw [colsAt_A m c t h0 h1]
    unfold colsA; (try dsimp only)
    by_cases hz : t.val = 0
    · rw [PhiS_castSucc m c t, PhiS_zero m c _ _ hz, rest0_eq]
      iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA m c t hc0 hc1).2.2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, ⟨%e9, H9⟩, H10, H11, ⟨%es0, HS0⟩, ⟨%es1, HS1⟩, ⟨%es2, HS2⟩, ⟨%es3, HS3⟩, ⟨%es4, HS4⟩, ⟨%es5, HS5⟩⟩
      isplitl [HS0 HS1 HS2 HS3 HS4 HS5]
      · isplitl [HS0]
        · unfold owns; iexists _; isplitr
          swap; · iexact HS0
          ipureintro; exact View.read_writes_of_cover _ _ _ _ _ (coverA_LS0 m c t hc0 hc1)
        isplitl [HS1]
        · unfold owns; iexists _; isplitr
          swap; · iexact HS1
          ipureintro; exact View.read_writes_of_cover _ _ _ _ _ (coverA_LS1 m c t hc0 hc1)
        isplitl [HS2]
        · unfold owns; iexists _; isplitr
          swap; · iexact HS2
          ipureintro; exact View.read_writes_of_cover _ _ _ _ _ (coverA_LS2 m c t hc0 hc1)
        isplitl [HS3]
        · unfold owns; iexists _; isplitr
          swap; · iexact HS3
          ipureintro; exact View.read_writes_of_cover _ _ _ _ _ (coverA_LS3 m c t hc0 hc1)
        isplitl [HS4]
        · unfold owns; iexists _; isplitr
          swap; · iexact HS4
          ipureintro; exact View.read_writes_of_cover _ _ _ _ _ (coverA_LS4 m c t hc0 hc1)
        unfold owns; iexists _; isplitr
        swap; · iexact HS5
        ipureintro; exact View.read_writes_of_cover _ _ _ _ _ (coverA_LS5 m c t hc0 hc1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverA_L9 m c t hc0 hc1)
      isplitl [H10]; · iexists _; iexact H10
      iexists _; iexact H11
    · rw [PhiS_castSucc m c t, PhiS_pos m c _ _ hz]
      iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA m c t hc0 hc1).2.2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iintro ⟨H0, H1, H2, H3, H4, H5, H6, H7, H8, ⟨%e9, H9⟩, H10, H11, ⟨%es0, HS0⟩, ⟨%es1, HS1⟩, ⟨%es2, HS2⟩, ⟨%es3, HS3⟩, ⟨%es4, HS4⟩, ⟨%es5, HS5⟩⟩
      isplitl [HS0 HS1 HS2 HS3 HS4 HS5]
      · isplitl [HS0]
        · unfold owns; iexists _; isplitr
          swap; · iexact HS0
          ipureintro; exact View.read_writes_of_cover _ _ _ _ _ (coverA_LS0 m c t hc0 hc1)
        isplitl [HS1]
        · unfold owns; iexists _; isplitr
          swap; · iexact HS1
          ipureintro; exact View.read_writes_of_cover _ _ _ _ _ (coverA_LS1 m c t hc0 hc1)
        isplitl [HS2]
        · unfold owns; iexists _; isplitr
          swap; · iexact HS2
          ipureintro; exact View.read_writes_of_cover _ _ _ _ _ (coverA_LS2 m c t hc0 hc1)
        isplitl [HS3]
        · unfold owns; iexists _; isplitr
          swap; · iexact HS3
          ipureintro; exact View.read_writes_of_cover _ _ _ _ _ (coverA_LS3 m c t hc0 hc1)
        isplitl [HS4]
        · unfold owns; iexists _; isplitr
          swap; · iexact HS4
          ipureintro; exact View.read_writes_of_cover _ _ _ _ _ (coverA_LS4 m c t hc0 hc1)
        unfold owns; iexists _; isplitr
        swap; · iexact HS5
        ipureintro; exact View.read_writes_of_cover _ _ _ _ _ (coverA_LS5 m c t hc0 hc1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverA_L9 m c t hc0 hc1)
      isplitl [H10]; · iexists _; iexact H10
      iexists _; iexact H11
  · have hz : t.val ≠ 0 := fun e => h0 (by rw [e])
    have hc0 : ¬cond0_0 (grid0.coords t) := fun h => h0 ((hcond0_0 t).mp h)
    rw [PhiS_castSucc m c t, PhiS_pos m c _ _ hz]
    by_cases h1 : t.val % 8 = 7
    · have hc1 : cond0_1 (grid0.coords t) := (hcond0_1 t).mpr h1
      simp only [before0_9 m c t.val t rfl h0]
      rw [show (dats m 0 c).leavesExact 9 t = owns (c : Thread nD τ) (ms0_9 t) fullShare ((dats m 0 c).after 9 t) from by
        unfold Dat.leavesExact; rw [idleAt0_9 t hc0, flushAt0_9 t hc1], after0_9]
      rw [show (dats m 0 c).leavesExact 10 t = owns (c : Thread nD τ) (ms0_10 t) fullShare ((dats m 0 c).after 10 t) from by
        unfold Dat.leavesExact; rw [liveAt0_10 t hc1], after0_10]
      rw [show (dats m 0 c).leavesExact 11 t = owns (c : Thread nD τ) (ms0_11 t) fullShare ((dats m 0 c).after 11 t) from by
        unfold Dat.leavesExact; rw [liveAt0_11 t hc1], after0_11]
      rw [colsAt_C m c t h0 h1]
      unfold colsC; (try dsimp only)
      iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, ⟨%e10, H10⟩, ⟨%e11, H11⟩, ⟨%es0, HS0⟩, ⟨%es1, HS1⟩, HS2, HS3, HS4, HS5⟩
      isplitl [HS0 HS1 HS2 HS3 HS4 HS5]
      · isplitl [HS0]
        · unfold owns; iexists _; isplitr
          swap; · iexact HS0
          ipureintro; exact View.read_writes_of_cover _ _ _ _ _ (coverC_LS0 m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5)
        isplitl [HS1]
        · unfold owns; iexists _; isplitr
          swap; · iexact HS1
          ipureintro; exact View.read_writes_of_cover _ _ _ _ _ (coverC_LS1 m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5)
        isplitl [HS2]; · iexact HS2
        isplitl [HS3]; · iexact HS3
        isplitl [HS4]; · iexact HS4
        iexact HS5
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (coverC_L10 m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5)
      unfold owns; iexists _; isplitr
      swap; · iexact H11
      ipureintro; exact View.read_writes_of_cover _ _ _ _ _ (coverC_L11 m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5)
    · have hc1 : ¬cond0_1 (grid0.coords t) := fun h => h1 ((hcond0_1 t).mp h)
      rw [Dat.leavesExact_idle (dats m 0 c) 9 t (idleAt0_9 t hc0) (noFlush0_9 t hc1)]
      rw [Dat.leavesExact_idle (dats m 0 c) 10 t (idleAt0_10 t hc1) (noFlush0_10 t hc1)]
      rw [Dat.leavesExact_idle (dats m 0 c) 11 t (idleAt0_11 t hc1) (noFlush0_11 t hc1)]
      rw [colsAt_B m c t h0 h1]
      unfold colsB; (try dsimp only)
      iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5).2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, ⟨%es0, HS0⟩, ⟨%es1, HS1⟩, HS2, HS3, HS4, HS5⟩
      isplitl [HS0 HS1 HS2 HS3 HS4 HS5]
      · isplitl [HS0]
        · unfold owns; iexists _; isplitr
          swap; · iexact HS0
          ipureintro; exact View.read_writes_of_cover _ _ _ _ _ (coverB_LS0 m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5)
        isplitl [HS1]
        · unfold owns; iexists _; isplitr
          swap; · iexact HS1
          ipureintro; exact View.read_writes_of_cover _ _ _ _ _ (coverB_LS1 m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5)
        isplitl [HS2]; · iexact HS2
        isplitl [HS3]; · iexact HS3
        isplitl [HS4]; · iexact HS4
        iexact HS5
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is the scoped rest: the six scratch columns at anything. -/
theorem Phi_zero (c : Dev nD) :
    (dats m 0 c).Φ 0 = Pipeline.scopedRest (Ix := Unit) (Name := ℕ) (U := UR sig nD τ) (Lvl := ℕ) (Val := Elt F) spec0 c := rfl

/-- After the last point it gives the scoped rest back: the columns' named contents are forgotten. -/
theorem Phi_last (c : Dev nD) :
    (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), rest0_eq]
  iintro ⟨HS0, HS1, HS2, HS3, HS4, HS5⟩
  isplitl [HS0]; · iexists _; iexact HS0
  isplitl [HS1]; · iexists _; iexact HS1
  isplitl [HS2]; · iexists _; iexact HS2
  isplitl [HS3]; · iexists _; iexact HS3
  isplitl [HS4]; · iexists _; iexact HS4
  iexists _; iexact HS5

end Cert.Kernel.Fr

end
-- ==== Proof.KernelShares.lean ====
/-
  The arrays' shares, dealt at the region's entry and gathered at its exit.
  The region is handed ten distinct arrays whole: the three argument arrays, the four transposed row-sum vectors and the three result
  columns. Twelve windows lie on them: the positive array carries its row-tile window and its column-tile window, and so does the
  negative array. At entry each of those two arrays' full share is split into its left and right halves, one per window on it; at exit the
  halves are joined again. The valuation the region leaves differs from the one it found at the three result columns only.
-/
import proofs.«127039_j10264971838200_2_alg».proof.Proof.KernelData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays, each a whole buffer, as points-tos of the buffers behind them at the windows' shares. -/
theorem arrays_eq' (c : Dev nD) (Fa : (w : Fin cfg0.W) → Buf (Elt F) ((cfg0.win w).arr.view.loc (c : Thread nD τ))) :
    (dats m 0 c).arrays Fa = bigSep Finset.univ fun w => (((c : Thread nD τ).loc (Pipeline.arrRef spec0 w)) ↦{(dats m 0 c).share w} Fa w : sProp 𝕄) := by
  unfold Dat.arrays
  exact bigSep_congr fun w _ => by rw [(arr_whole0 w).set_eq_univ]

/-- The same, window by window. -/
theorem arrays_chain (c : Dev nD) (Fa : (w : Fin cfg0.W) → Buf (Elt F) ((cfg0.win w).arr.view.loc (c : Thread nD τ))) :
    (dats m 0 c).arrays Fa = iprop((((c : Thread nD τ).loc main_arg0) ↦{fullShare} Fa 0) ∗ (((c : Thread nD τ).loc main_arg1) ↦{fullShare.left} Fa 1) ∗ (((c : Thread nD τ).loc main_arg2) ↦{fullShare.left} Fa 2) ∗ (((c : Thread nD τ).loc main_arg1) ↦{fullShare.right} Fa 3) ∗ (((c : Thread nD τ).loc main_arg2) ↦{fullShare.right} Fa 4) ∗ (((c : Thread nD τ).loc main_v2) ↦{fullShare} Fa 5) ∗ (((c : Thread nD τ).loc main_v6) ↦{fullShare} Fa 6) ∗ (((c : Thread nD τ).loc main_v9) ↦{fullShare} Fa 7) ∗ (((c : Thread nD τ).loc main_v13) ↦{fullShare} Fa 8) ∗ (((c : Thread nD τ).loc main_v14_0) ↦{fullShare} Fa 9) ∗ (((c : Thread nD τ).loc main_v14_1) ↦{fullShare} Fa 10) ∗ (((c : Thread nD τ).loc main_v14_2) ↦{fullShare} Fa 11)) := by
  rw [arrays_eq', bigSep_W0]; rfl

/-- The ten distinct buffers behind the windows' arrays, one by one. -/
theorem arrBufs_chain (c : Dev nD) (Vb : (b : Ref sig .tc) → Buf (Elt F) ((c : Thread nD τ).loc b)) :
    (Pipeline.arrBufs (Ix := Unit) (Name := ℕ) (U := UR sig nD τ) (Lvl := ℕ) spec0 c Vb : sProp 𝕄)
      = iprop((((c : Thread nD τ).loc main_arg0) ↦{fullShare} Vb main_arg0) ∗ (((c : Thread nD τ).loc main_arg1) ↦{fullShare} Vb main_arg1) ∗ (((c : Thread nD τ).loc main_arg2) ↦{fullShare} Vb main_arg2) ∗ (((c : Thread nD τ).loc main_v2) ↦{fullShare} Vb main_v2) ∗ (((c : Thread nD τ).loc main_v6) ↦{fullShare} Vb main_v6) ∗ (((c : Thread nD τ).loc main_v9) ↦{fullShare} Vb main_v9) ∗ (((c : Thread nD τ).loc main_v13) ↦{fullShare} Vb main_v13) ∗ (((c : Thread nD τ).loc main_v14_0) ↦{fullShare} Vb main_v14_0) ∗ (((c : Thread nD τ).loc main_v14_1) ↦{fullShare} Vb main_v14_1) ∗ (((c : Thread nD τ).loc main_v14_2) ↦{fullShare} Vb main_v14_2)) := by
  unfold Pipeline.arrBufs
  rw [bigSep_eq_bigSepL_of_eq [main_arg0, main_arg1, main_arg2, main_v2, main_v6, main_v9, main_v13, main_v14_0, main_v14_1, main_v14_2] (by decide) (by decide)]
  rfl

/-- At entry each window's array holds what the region finds. -/
theorem arrAt_zero (c : Dev nD) : ((dats m 0 c).arrAt · 0) = fun w => V m c (Pipeline.arrRef spec0 w) :=
  funext fun w => (show (dats m 0 c).arrAt w 0 = (dats m 0 c).A w from rfl).trans (A_eq m c w)

/-- ENTRY: the ten buffers at the region-entry contents are the twelve windows' arrays, the two shared arrays' shares halved. -/
theorem arrays_in (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrAt_zero, arrBufs_chain, arrays_chain]
  iintro ⟨H0, H1, H2, H5, H6, H7, H8, H9, H10, H11⟩
  ihave H1s := (pointsTo_share (PosShare.mem_left_op_right fullShare)).1 $$ H1
  icases H1s with ⟨H1l, H1r⟩
  ihave H2s := (pointsTo_share (PosShare.mem_left_op_right fullShare)).1 $$ H2
  icases H2s with ⟨H2l, H2r⟩
  isplitl [H0]; · iexact H0
  isplitl [H1l]; · iexact H1l
  isplitl [H2l]; · iexact H2l
  isplitl [H1r]; · iexact H1r
  isplitl [H2r]; · iexact H2r
  isplitl [H5]; · iexact H5
  isplitl [H6]; · iexact H6
  isplitl [H7]; · iexact H7
  isplitl [H8]; · iexact H8
  isplitl [H9]; · iexact H9
  isplitl [H10]; · iexact H10
  iexact H11

/-! ## The valuation the region leaves -/

/-- The region-entry valuation with the three result columns at what the pipeline's write-backs leave. -/
def Wr (c : Dev nD) : Valuation τ sig (Elt F) :=
  Function.update (Function.update (Function.update (V0 m c) (Proc.devRef .tc main_v14_0) ((dats m 0 c).arrAt 9 cfg0.N))
    (Proc.devRef .tc main_v14_1) ((dats m 0 c).arrAt 10 cfg0.N)) (Proc.devRef .tc main_v14_2) ((dats m 0 c).arrAt 11 cfg0.N)

theorem Wr_v14_2 (c : Dev nD) : Wr m c (Proc.devRef .tc main_v14_2) = (dats m 0 c).arrAt 11 cfg0.N := Function.update_self ..
theorem Wr_v14_1 (c : Dev nD) : Wr m c (Proc.devRef .tc main_v14_1) = (dats m 0 c).arrAt 10 cfg0.N :=
  (Function.update_of_ne (by decide) ..).trans (Function.update_self ..)
theorem Wr_v14_0 (c : Dev nD) : Wr m c (Proc.devRef .tc main_v14_0) = (dats m 0 c).arrAt 9 cfg0.N :=
  (Function.update_of_ne (by decide) ..).trans ((Function.update_of_ne (by decide) ..).trans (Function.update_self ..))
/-- Off the three result columns it is the region-entry valuation. -/
theorem Wr_of_ne (c : Dev nD) (b : DevRef τ sig) (h0 : b ≠ Proc.devRef .tc main_v14_0) (h1 : b ≠ Proc.devRef .tc main_v14_1) (h2 : b ≠ Proc.devRef .tc main_v14_2) :
    Wr m c b = V0 m c b :=
  (Function.update_of_ne h2 ..).trans ((Function.update_of_ne h1 ..).trans (Function.update_of_ne h0 ..))

theorem arrAtN_0 (c : Dev nD) : (dats m 0 c).arrAt 0 cfg0.N = V m c main_arg0 := ((dats m 0 c).arrAt_in 0 rfl _).trans (A_eq m c 0)
theorem arrAtN_1 (c : Dev nD) : (dats m 0 c).arrAt 1 cfg0.N = V m c main_arg1 := ((dats m 0 c).arrAt_in 1 rfl _).trans (A_eq m c 1)
theorem arrAtN_2 (c : Dev nD) : (dats m 0 c).arrAt 2 cfg0.N = V m c main_arg2 := ((dats m 0 c).arrAt_in 2 rfl _).trans (A_eq m c 2)
theorem arrAtN_3 (c : Dev nD) : (dats m 0 c).arrAt 3 cfg0.N = V m c main_arg1 := ((dats m 0 c).arrAt_in 3 rfl _).trans (A_eq m c 3)
theorem arrAtN_4 (c : Dev nD) : (dats m 0 c).arrAt 4 cfg0.N = V m c main_arg2 := ((dats m 0 c).arrAt_in 4 rfl _).trans (A_eq m c 4)
theorem arrAtN_5 (c : Dev nD) : (dats m 0 c).arrAt 5 cfg0.N = V m c main_v2 := ((dats m 0 c).arrAt_in 5 rfl _).trans (A_eq m c 5)
theorem arrAtN_6 (c : Dev nD) : (dats m 0 c).arrAt 6 cfg0.N = V m c main_v6 := ((dats m 0 c).arrAt_in 6 rfl _).trans (A_eq m c 6)
theorem arrAtN_7 (c : Dev nD) : (dats m 0 c).arrAt 7 cfg0.N = V m c main_v9 := ((dats m 0 c).arrAt_in 7 rfl _).trans (A_eq m c 7)
theorem arrAtN_8 (c : Dev nD) : (dats m 0 c).arrAt 8 cfg0.N = V m c main_v13 := ((dats m 0 c).arrAt_in 8 rfl _).trans (A_eq m c 8)

/-- EXIT: the twelve windows' arrays at their final contents are the ten buffers at the valuation the region leaves, the halves joined. -/
theorem arrays_out (c : Dev nD) :
    (dats m 0 c).arrays ((dats m 0 c).arrAt · cfg0.N)
      ⊢ (Pipeline.arrBufs (Ix := Unit) (Name := ℕ) (U := UR sig nD τ) (Lvl := ℕ) spec0 c (fun b => Wr m c (Proc.devRef .tc b)) : sProp 𝕄) := by
  rw [arrBufs_chain, arrays_chain]
  simp only [arrAtN_0, arrAtN_1, arrAtN_2, arrAtN_3, arrAtN_4, arrAtN_5, arrAtN_6, arrAtN_7, arrAtN_8, Wr_v14_0, Wr_v14_1, Wr_v14_2,
    Wr_of_ne m c (Proc.devRef .tc main_arg0) (by decide) (by decide) (by decide), Wr_of_ne m c (Proc.devRef .tc main_arg1) (by decide) (by decide) (by decide),
    Wr_of_ne m c (Proc.devRef .tc main_arg2) (by decide) (by decide) (by decide), Wr_of_ne m c (Proc.devRef .tc main_v2) (by decide) (by decide) (by decide),
    Wr_of_ne m c (Proc.devRef .tc main_v6) (by decide) (by decide) (by decide), Wr_of_ne m c (Proc.devRef .tc main_v9) (by decide) (by decide) (by decide),
    Wr_of_ne m c (Proc.devRef .tc main_v13) (by decide) (by decide) (by decide)]
  iintro ⟨H0, H1l, H2l, H1r, H2r, H5, H6, H7, H8, H9, H10, H11⟩
  isplitl [H0]; · iexact H0
  isplitl [H1l H1r]
  · iapply (pointsTo_share (PosShare.mem_left_op_right fullShare)).2
    isplitl [H1l]; · iexact H1l
    iexact H1r
  isplitl [H2l H2r]
  · iapply (pointsTo_share (PosShare.mem_left_op_right fullShare)).2
    isplitl [H2l]; · iexact H2l
    iexact H2r
  isplitl [H5]; · iexact H5
  isplitl [H6]; · iexact H6
  isplitl [H7]; · iexact H7
  isplitl [H8]; · iexact H8
  isplitl [H9]; · iexact H9
  isplitl [H10]; · iexact H10
  iexact H11

/-- The buffers that are no window's array are untouched by the region. -/
theorem rest_out (c : Dev nD) :
    (Pipeline.unscopedRest (Ix := Unit) (Name := ℕ) (U := UR sig nD τ) (Lvl := ℕ) spec0 c (fun b => Wr m c (Proc.devRef .tc b)) : sProp 𝕄)
      = Pipeline.unscopedRest spec0 c (V m c) := by
  unfold Pipeline.unscopedRest
  refine bigSep_congr fun b hb => ?_
  have hb' := (Finset.mem_sdiff.mp hb).2
  dsimp only
  rw [Wr_of_ne m c (Proc.devRef .tc b)
    (fun e => hb' (Finset.mem_image.mpr ⟨9, Finset.mem_univ _, (Proc.devRef_injective (τ := τ) _ e).symm⟩))
    (fun e => hb' (Finset.mem_image.mpr ⟨10, Finset.mem_univ _, (Proc.devRef_injective (τ := τ) _ e).symm⟩))
    (fun e => hb' (Finset.mem_image.mpr ⟨11, Finset.mem_univ _, (Proc.devRef_injective (τ := τ) _ e).symm⟩))]

end Cert.Kernel.Fr

end
-- ==== Proof.KernelLaunch.lean ====
/-
  The launch: @main is the host's row sums and transposes, the mining region, and three stretches of host operations (the two means and
  the margins; the clip; the final mean). Each host stretch runs over the unscoped buffers held whole at a valuation; the region is entered
  by dealing the ten arrays to the twelve windows and left by gathering them. Every weakly fair execution terminates, and the final memory
  holds every unscoped buffer at the last stretch's valuation.
-/
import proofs.«127039_j10264971838200_2_alg».proof.Proof.KernelBody
import proofs.«127039_j10264971838200_2_alg».proof.Proof.KernelShares

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)
abbrev EP : Emb (UR sig nD τ) (MT nD τ sig Unit (Elt F) ℕ (UR sig nD τ) ℕ) := emb₁

/-- Core `c`'s buffers at launch. -/
abbrev W₀ (c : Dev nD) : Valuation τ sig (Elt F) := fun b => m (c, b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The valuations after each host stretch that follows the region. -/
abbrev W1 (c : Dev nD) : Valuation τ sig (Elt F) := StableHlo.after hostOps1 (Wr m c)
abbrev W2 (c : Dev nD) : Valuation τ sig (Elt F) := StableHlo.after hostOps1_1 (W1 m c)
abbrev W3 (c : Dev nD) : Valuation τ sig (Elt F) := StableHlo.after hostOps1_2 (W2 m c)

def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (List.forall_iff_forall_mem.mp hostOps0_fresh) (W₀ m) R
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (List.forall_iff_forall_mem.mp hostOps1_fresh) (Wr m) R
def seg2 : Pipeline.HostSeg (Name := ℕ) (U := UR sig nD τ) (pcfgs (F := F)) defs₀ 𝒱₀ L lv :=
  Pipeline.HostSeg.ofOps _ _ _ _ _ (Pipeline.ucRefs τ sig) hostOps1_1 (fun op h => Pipeline.sub_ucRefs op ((List.forall_iff_forall_mem.mp hostOps1_1_sub) op h))
    (List.forall_iff_forall_mem.mp hostOps1_1_fresh) (W1 m) R
def seg3 : Pipeline.HostSeg (Name := ℕ) (U := UR sig nD τ) (pcfgs (F := F)) defs₀ 𝒱₀ L lv :=
  Pipeline.HostSeg.ofOps _ _ _ _ _ (Pipeline.ucRefs τ sig) hostOps1_2 (fun op h => Pipeline.sub_ucRefs op ((List.forall_iff_forall_mem.mp hostOps1_2_sub) op h))
    (List.forall_iff_forall_mem.mp hostOps1_2_fresh) (W2 m) R

set_option backward.isDefEq.respectTransparency.types false in
/-- THE REGION, entered from every unscoped buffer at the valuation the first host stretch leaves, left with them at `Wr`. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (W₀ m c)) ∗ R c)
  post c := iprop(StableHlo.held (c : Thread nD τ) (Pipeline.ucRefs τ sig) (Wr m c) ∗ R c)
  X _ := BI.emp
  Y _ := BI.emp
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (W₀ m c)) = unscopedBufs c (V m c) from (Pipeline.unscopedBufs_held c _).symm,
      Pipeline.ownSems0_none, Pipeline.unscopedBufs_split₀ cfgs 0 winFacts₀0.arr_unscoped c (V m c)]
    iintro ⟨⟨⟨Hab, Hrest⟩, HO⟩, -, -⟩
    imodintro
    isplitl [Hab]; · iapply (arrays_in m c); iexact Hab
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [Phi_zero]
    iintro ⟨-, -, Hr⟩; iexact Hr
  hout c := by
    rw [Pipeline.ownSems0_none]
    refine (Phi_last m c).trans ?_
    iintro Hr
    isplitr; · iempintro
    isplitr; · iempintro
    iexact Hr
  hexit c := by
    rw [show StableHlo.held (c : Thread nD τ) (Pipeline.ucRefs τ sig) (Wr m c) = unscopedBufs c (fun b => Wr m c (Proc.devRef .tc b)) from (Pipeline.unscopedBufs_held c _).symm,
      Pipeline.unscopedBufs_split₀ cfgs 0 winFacts₀0.arr_unscoped c (fun b => Wr m c (Proc.devRef .tc b)), rest_out]
    iintro ⟨Ha, HO, -, Hrest⟩
    imodintro
    isplitr [HO]
    · isplitl [Ha]; · iapply (arrays_out m c); iexact Ha
      iexact Hrest
    · unfold Pipeline.Dat.owesAt Pipeline.owesWithin
      icases HO with ⟨%W, -, HO⟩; iexists W; iexact HO

/-- @main as the list of the five. -/
abbrev segs : List (Pipeline.Seg (pcfgs (F := F)) adm (dats m) () defs₀ 𝒱₀ L lv) :=
  [.host (seg0 m), .region (reg0 m), .host (seg1 m), .host (seg2 m), .host (seg3 m)]

/-- The launch element: the pipeline library's at the staging cells. -/
def u₀ : UR sig nD τ := initOf (Pipeline.cells (Pipeline.pin (pcfgs (F := F)) adm) cellOf_inj) (Pipeline.launchToks (Pipeline.pin (pcfgs (F := F)) adm) cellOf_inj)

/-- The physical post: every unscoped buffer at the last stretch's valuation. -/
def QC : PUnit × MemSt nD τ sig (Elt F) → Prop := fun r =>
  ∀ c : Dev nD, ∀ b ∈ Pipeline.ucRefs τ sig, r.2.mem ((c : Dev nD), b) = W3 m c b

set_option backward.isDefEq.respectTransparency.types false in
/-- At the compiled mesh, from any memory with zero counters: every weakly fair execution of @main terminates, nothing faulting, and
    every final state has each unscoped buffer at the valuation the last host stretch leaves. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [show main (F := F) c = Pipeline.Seg.run (segs m) from by rw [main_chain, Pipeline.Seg.run_eq_chain]; rfl])
    (by simp only [Pipeline.Seg.pipes_host, Pipeline.Seg.pipes_region, Pipeline.Seg.pipes_nil]; decide) (O₀ := 0) (hL := fun _ _ => rfl) (G := fun _ => iprop(emp)) (u₀ := u₀ (F := F))
    (hu₀ := by
      unfold u₀
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W₀ m c) ∗ R c))
    (Tₙ := fun c => StableHlo.held (c : Thread nD τ) (Pipeline.ucRefs τ sig) (W3 m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W₀ m c) from Pipeline.unscopedBufs_held c (W₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = W3 m c b)
    (hfin := fun c s' => by
      unfold StableHlo.held
      iintro ⟨Hh, HSI⟩
      ihave Hr := (pointsTo_read_all (Pipeline.ucRefs τ sig) (fun b => ((c : Dev nD), b)) (W3 m c) s') $$ [Hh HSI]
      · isplitl [Hh] <;> iassumption
      icases Hr with ⟨%h, HSI⟩
      imodintro
      isplitr; · ipureintro; exact h
      iexact HSI)
    (hQ := fun _ h => h)

end Cert.Kernel.Fr

end
-- ==== Proof.KernelFrameOf.lean ====
/-
  The frame: no host operation writes an argument array and the region's three written arrays are its results, so every argument array
  ends as it was launched.
-/
import proofs.«127039_j10264971838200_2_alg».proof.Proof.KernelLaunch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation of this stretch writes an argument array. -/
theorem not_written_hostOps0 (b : Ref sig .tc) (hb : b = main_arg0 ∨ b = main_arg1 ∨ b = main_arg2) :
    ∀ op ∈ (hostOps0 : List (HloOp τ sig (Elt F))), Proc.devRef .tc b ∉ op.writes := by
  intro op hop
  simp only [hostOps0, List.mem_cons, List.mem_nil_iff, or_false] at hop
  rcases hb with rfl | rfl | rfl <;> rcases hop with rfl | rfl | rfl | rfl | rfl | rfl | rfl | rfl | rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;>
    exact StableHlo.devRef_ne_of_ne (by decide)

/-- No operation of this stretch writes an argument array. -/
theorem not_written_hostOps1 (b : Ref sig .tc) (hb : b = main_arg0 ∨ b = main_arg1 ∨ b = main_arg2) :
    ∀ op ∈ (hostOps1 : List (HloOp τ sig (Elt F))), Proc.devRef .tc b ∉ op.writes := by
  intro op hop
  simp only [hostOps1, List.mem_cons, List.mem_nil_iff, or_false] at hop
  rcases hb with rfl | rfl | rfl <;> rcases hop with rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;>
    exact StableHlo.devRef_ne_of_ne (by decide)

/-- No operation of this stretch writes an argument array. -/
theorem not_written_hostOps1_1 (b : Ref sig .tc) (hb : b = main_arg0 ∨ b = main_arg1 ∨ b = main_arg2) :
    ∀ op ∈ (hostOps1_1 : List (HloOp τ sig (Elt F))), Proc.devRef .tc b ∉ op.writes := by
  intro op hop
  simp only [hostOps1_1, List.mem_cons, List.mem_nil_iff, or_false] at hop
  rcases hb with rfl | rfl | rfl <;> rcases hop with rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;>
    exact StableHlo.devRef_ne_of_ne (by decide)

/-- No operation of this stretch writes an argument array. -/
theorem not_written_hostOps1_2 (b : Ref sig .tc) (hb : b = main_arg0 ∨ b = main_arg1 ∨ b = main_arg2) :
    ∀ op ∈ (hostOps1_2 : List (HloOp τ sig (Elt F))), Proc.devRef .tc b ∉ op.writes := by
  intro op hop
  simp only [hostOps1_2, List.mem_cons, List.mem_nil_iff, or_false] at hop
  rcases hb with rfl | rfl | rfl <;> rcases hop with rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;>
    exact StableHlo.devRef_ne_of_ne (by decide)

/-- An argument array's buffer holds its launch contents in the last valuation. -/
theorem W3_arg (c : Dev nD) (b : Ref sig .tc) (hb : b = main_arg0 ∨ b = main_arg1 ∨ b = main_arg2) :
    W3 m c (Proc.devRef .tc b) = m ((c : Thread nD τ).loc b) := by
  have h3 := StableHlo.after_of_forall_not_mem (b := Proc.devRef .tc b) hostOps1_2 (W2 m c) (not_written_hostOps1_2 b hb)
  have h2 := StableHlo.after_of_forall_not_mem (b := Proc.devRef .tc b) hostOps1_1 (W1 m c) (not_written_hostOps1_1 b hb)
  have h1 := StableHlo.after_of_forall_not_mem (b := Proc.devRef .tc b) hostOps1 (Wr m c) (not_written_hostOps1 b hb)
  have hr : Wr m c (Proc.devRef .tc b) = V0 m c (Proc.devRef .tc b) := by
    rcases hb with rfl | rfl | rfl <;> exact Wr_of_ne m c _ (by decide) (by decide) (by decide)
  have h0 := StableHlo.after_of_forall_not_mem (b := Proc.devRef .tc b) hostOps0 (W₀ m c) (not_written_hostOps0 b hb)
  exact h3.trans (h2.trans (h1.trans (hr.trans h0)))

theorem ucRefs_arg0 : (Proc.devRef .tc main_arg0 : DevRef τ sig) ∈ Pipeline.ucRefs τ sig := by decide
theorem ucRefs_arg1 : (Proc.devRef .tc main_arg1 : DevRef τ sig) ∈ Pipeline.ucRefs τ sig := by decide
theorem ucRefs_arg2 : (Proc.devRef .tc main_arg2 : DevRef τ sig) ∈ Pipeline.ucRefs τ sig := by decide
theorem ucRefs_v30 : (Proc.devRef .tc main_v30 : DevRef τ sig) ∈ Pipeline.ucRefs τ sig := by decide

/-- THE FRAME: every weakly fair execution of @main terminates, nothing faulting, with the three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ ucRefs_arg0).trans (W3_arg m c main_arg0 (.inl rfl)),
     (h c _ ucRefs_arg1).trans (W3_arg m c main_arg1 (.inr (.inl rfl))),
     (h c _ ucRefs_arg2).trans (W3_arg m c main_arg2 (.inr (.inr rfl)))⟩) (run_main m ρ)

end Cert.Kernel.Fr

end
-- ==== Proof.KernelIdealRuns.lean ====
/-
  What the three body runs of the mining kernel share: the contents the region finds in each buffer (after the host's row sums and
  transposes), each window's block at a grid point, the two conditions on the column coordinate decided over the 8 × 8 grid (the first
  column tile resets the carried state, the last one writes the results), where the three result windows are idle, and names for the
  staging and scratch memrefs.
-/
import proofs.«127039_j10264971838200_2_alg».proof.Proof.Gen.KernelIdeal.Launch
import proofs.«127039_j10264971838200_2_alg».proof.Proof.Gen.KernelIdeal.Skeleton
import proofs.«127039_j10264971838200_2_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch contents after the row sums, their broadcasts and transposes. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not, for any proof data on the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not, for any proof data on the region-entry arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not, for any proof data on the region-entry arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not, for any proof data on the region-entry arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not, for any proof data on the region-entry arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not, for any proof data on the region-entry arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not, for any proof data on the region-entry arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not, for any proof data on the region-entry arrays whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not, for any proof data on the region-entry arrays whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The two conditions on the column coordinate -/

/-- The first column tile. -/
abbrev cond0_0 (i : grid0.Coords) : Prop := k0_cond1 i = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The last column tile. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
/-- The row distances' window is stored at the first column tile only, and written back at the last. -/
theorem liveAt0_9 : ∀ t : Fin cfg0.N, cond0_0 (grid0.coords t) → cfg0.idle 9 (grid0.coords t) = false := by decide +kernel
theorem idleAt0_9 : ∀ t : Fin cfg0.N, ¬cond0_0 (grid0.coords t) → cfg0.idle 9 (grid0.coords t) = true := by decide +kernel
theorem noFlush0_9 : ∀ t : Fin cfg0.N, ¬cond0_1 (grid0.coords t) → (cfg0.win 9).flush t = false := by decide +kernel
theorem flushAt0_9 : ∀ t : Fin cfg0.N, cond0_1 (grid0.coords t) → (cfg0.win 9).flush t = true := by decide +kernel
/-- Result window 10 is stored, and written back, at the last column tile only. -/
theorem liveAt0_10 : ∀ t : Fin cfg0.N, cond0_1 (grid0.coords t) → cfg0.idle 10 (grid0.coords t) = false := by decide +kernel
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
/-- Result window 11 is stored, and written back, at the last column tile only. -/
theorem liveAt0_11 : ∀ t : Fin cfg0.N, cond0_1 (grid0.coords t) → cfg0.idle 11 (grid0.coords t) = false := by decide +kernel
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel

/-! ## The memrefs the body is called with -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1 .f32 := win0_11.stage (cfg0.slots t 11)
abbrev hs0_11 (t : Fin cfg0.N) : (ms0_11 t).IsWhole := hstage0_11 ((cfg0.slots t 11).cast nbuf0_11)
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
abbrev scM0_4 : Memref sig .tc .vmem S512x1 .f32 := Memref.whole cc0_scratch4
abbrev scM0_5 : Memref sig .tc .vmem S512x1 .f32 := Memref.whole cc0_scratch5
/-- A view of the column shape [512, 1] through which stored pieces are read back (the choice of buffer does not matter). -/
abbrev VC : View sig .tc .vmem S512x1 .f32 := scM0_0.view

/-- The scoped buffers no window stages are the six scratch columns, each owned at some contents. -/
theorem rest0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) := by
  rw [scopedRest0_eq]; simp only [scM0_0, scM0_1, scM0_2, scM0_3, scM0_4, scM0_5, owns_whole]; try rfl

end Cert.KernelIdeal.Fr

end
-- ==== Proof.KernelIdealRunA.lean ====
/-
  The body's run at the first column tile of a row block: the row distances, the two squared row distances, the row sums of squares and of entries are computed from the anchor, positive and negative row tiles and stored, the two running extrema are reset to −∞ and +∞ and then updated with this tile's masked maximum and minimum.
  On whole memrefs — the nine inputs at their contents, an idle result column handed back untouched, a stored one ending with its pieces
  written, the scratch columns at what the point before left (or at anything where the case overwrites them) — the body runs to its return.
  The pieces each stored column ends with are found by the run.
-/
import proofs.«127039_j10264971838200_2_alg».proof.Proof.KernelIdealRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : cond0_0 i) (hc1 : ¬cond0_1 i)
    (x0 : Vec F S512x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) :
    Σ' (L9 : List (View.Piece (Elt F) S512x1 .f32)), Σ' (LS0 : List (View.Piece (Elt F) S512x1 .f32)), Σ' (LS1 : List (View.Piece (Elt F) S512x1 .f32)), Σ' (LS2 : List (View.Piece (Elt F) S512x1 .f32)), Σ' (LS3 : List (View.Piece (Elt F) S512x1 .f32)), Σ' (LS4 : List (View.Piece (Elt F) S512x1 .f32)), { LS5 : List (View.Piece (Elt F) S512x1 .f32) //
      ∀ (xi10 xi11 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (∃ d, owns (c : Thread nD τ) arg11 fullShare d)
            ∗ owns (c : Thread nD τ) arg12 fullShare xi10
            ∗ owns (c : Thread nD τ) arg13 fullShare xi11
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ (∃ f, arg11.view.loc (c : Thread nD τ) ↦[arg11.view.set]{fullShare} arg11.view.writes (Elt F) f L9)
                ∗ owns (c : Thread nD τ) arg12 fullShare xi10
                ∗ owns (c : Thread nD τ) arg13 fullShare xi11
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)
                ∗ (∃ f, arg17.view.loc (c : Thread nD τ) ↦[arg17.view.set]{fullShare} arg17.view.writes (Elt F) f LS3)
                ∗ (∃ f, arg18.view.loc (c : Thread nD τ) ↦[arg18.view.set]{fullShare} arg18.view.writes (Elt F) f LS4)
                ∗ (∃ f, arg19.view.loc (c : Thread nD τ) ↦[arg19.view.set]{fullShare} arg19.view.writes (Elt F) f LS5)) -∗ K ⟨⟩))
          ⊢ wp frame (wpE (defs₀ (F := F)) Variants.none c none) E (cc0_mine_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, fun xi10 xi11 E K => ?run⟩
  case run =>
    simp only [cc0_mine_kernel_eq_skeleton]; unfold cc0_mine_kernel_skel
    simp only [k0_part2_eq_skeleton, k0_part3_eq_skeleton, k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.KernelIdeal.Fr

end
-- ==== Proof.KernelIdealRunB.lean ====
/-
  The body's run at a middle column tile: the two running extrema are updated with this tile's masked maximum and minimum; nothing else is stored.
  On whole memrefs — the nine inputs at their contents, an idle result column handed back untouched, a stored one ending with its pieces
  written, the scratch columns at what the point before left (or at anything where the case overwrites them) — the body runs to its return.
  The pieces each stored column ends with are found by the run.
-/
import proofs.«127039_j10264971838200_2_alg».proof.Proof.KernelIdealRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : ¬cond0_0 i) (hc1 : ¬cond0_1 i)
    (x0 : Vec F S512x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (xs0 : Vec F S512x1 .f32) (xs1 : Vec F S512x1 .f32) (xs2 : Vec F S512x1 .f32) (xs3 : Vec F S512x1 .f32) (xs4 : Vec F S512x1 .f32) (xs5 : Vec F S512x1 .f32) :
    Σ' (LS0 : List (View.Piece (Elt F) S512x1 .f32)), { LS1 : List (View.Piece (Elt F) S512x1 .f32) //
      ∀ (xi9 xi10 xi11 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare xi9
            ∗ owns (c : Thread nD τ) arg12 fullShare xi10
            ∗ owns (c : Thread nD τ) arg13 fullShare xi11
            ∗ owns (c : Thread nD τ) arg14 fullShare xs0
            ∗ owns (c : Thread nD τ) arg15 fullShare xs1
            ∗ owns (c : Thread nD τ) arg16 fullShare xs2
            ∗ owns (c : Thread nD τ) arg17 fullShare xs3
            ∗ owns (c : Thread nD τ) arg18 fullShare xs4
            ∗ owns (c : Thread nD τ) arg19 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ owns (c : Thread nD τ) arg11 fullShare xi9
                ∗ owns (c : Thread nD τ) arg12 fullShare xi10
                ∗ owns (c : Thread nD τ) arg13 fullShare xi11
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ owns (c : Thread nD τ) arg16 fullShare xs2
                ∗ owns (c : Thread nD τ) arg17 fullShare xs3
                ∗ owns (c : Thread nD τ) arg18 fullShare xs4
                ∗ owns (c : Thread nD τ) arg19 fullShare xs5) -∗ K ⟨⟩))
          ⊢ wp frame (wpE (defs₀ (F := F)) Variants.none c none) E (cc0_mine_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi9 xi10 xi11 E K => ?run⟩
  case run =>
    simp only [cc0_mine_kernel_eq_skeleton]; unfold cc0_mine_kernel_skel
    simp only [k0_part2_eq_skeleton, k0_part3_eq_skeleton, k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    iexists _; isplitr; · ipureintro; exact harg19.read_unread _
    iexact H19

end Cert.KernelIdeal.Fr

end
-- ==== Proof.KernelIdealRunC.lean ====
/-
  The body's run at the last column tile: the two running extrema are updated and then turned into the two results (the root of the positive part, or 0 where the extremum is still infinite).
  On whole memrefs — the nine inputs at their contents, an idle result column handed back untouched, a stored one ending with its pieces
  written, the scratch columns at what the point before left (or at anything where the case overwrites them) — the body runs to its return.
  The pieces each stored column ends with are found by the run.
-/
import proofs.«127039_j10264971838200_2_alg».proof.Proof.KernelIdealRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : ¬cond0_0 i) (hc1 : cond0_1 i)
    (x0 : Vec F S512x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (xs0 : Vec F S512x1 .f32) (xs1 : Vec F S512x1 .f32) (xs2 : Vec F S512x1 .f32) (xs3 : Vec F S512x1 .f32) (xs4 : Vec F S512x1 .f32) (xs5 : Vec F S512x1 .f32) :
    Σ' (L10 : List (View.Piece (Elt F) S512x1 .f32)), Σ' (L11 : List (View.Piece (Elt F) S512x1 .f32)), Σ' (LS0 : List (View.Piece (Elt F) S512x1 .f32)), { LS1 : List (View.Piece (Elt F) S512x1 .f32) //
      ∀ (xi9 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare xi9
            ∗ (∃ d, owns (c : Thread nD τ) arg12 fullShare d)
            ∗ (∃ d, owns (c : Thread nD τ) arg13 fullShare d)
            ∗ owns (c : Thread nD τ) arg14 fullShare xs0
            ∗ owns (c : Thread nD τ) arg15 fullShare xs1
            ∗ owns (c : Thread nD τ) arg16 fullShare xs2
            ∗ owns (c : Thread nD τ) arg17 fullShare xs3
            ∗ owns (c : Thread nD τ) arg18 fullShare xs4
            ∗ owns (c : Thread nD τ) arg19 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ owns (c : Thread nD τ) arg11 fullShare xi9
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ owns (c : Thread nD τ) arg16 fullShare xs2
                ∗ owns (c : Thread nD τ) arg17 fullShare xs3
                ∗ owns (c : Thread nD τ) arg18 fullShare xs4
                ∗ owns (c : Thread nD τ) arg19 fullShare xs5) -∗ K ⟨⟩))
          ⊢ wp frame (wpE (defs₀ (F := F)) Variants.none c none) E (cc0_mine_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun xi9 E K => ?run⟩
  case run =>
    simp only [cc0_mine_kernel_eq_skeleton]; unfold cc0_mine_kernel_skel
    simp only [k0_part2_eq_skeleton, k0_part3_eq_skeleton, k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]; · iexists _; iexact H13
    isplitl [H14]; · iexists _; iexact H14
    isplitl [H15]; · iexists _; iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    iexists _; isplitr; · ipureintro; exact harg19.read_unread _
    iexact H19

end Cert.KernelIdeal.Fr

end
-- ==== Proof.KernelIdealData.lean ====
/-
  The proof data of the mining region and its body obligation.
  After the body at a grid point (row block i, column tile j) the row-distance column holds what the first column tile of the row block
  stored (carried unchanged through the later tiles and written back at the last), the two result columns hold what the last column tile
  stored, and the six scratch columns hold: the two running extrema as updated at this tile, the four row statistics as the first tile
  stored them. The positive and the negative arrays are each handed to two windows (a row tile and a column tile): each of the two
  holds half of the array's share.
-/
import proofs.«127039_j10264971838200_2_alg».proof.Proof.KernelIdealRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the nine columns hold after a point: the three result windows' staging columns and the six scratch columns. -/
structure Cols (F : FTy → Type) where
  o9 : Vec F S512x1 .f32
  o10 : Vec F S512x1 .f32
  o11 : Vec F S512x1 .f32
  s0 : Vec F S512x1 .f32
  s1 : Vec F S512x1 .f32
  s2 : Vec F S512x1 .f32
  s3 : Vec F S512x1 .f32
  s4 : Vec F S512x1 .f32
  s5 : Vec F S512x1 .f32

/-- The three runs at a grid point's memrefs and input blocks. -/
abbrev runA (c : Dev nD) (t : Fin cfg0.N) (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 t) (iblk m c 1 t) (iblk m c 2 t) (iblk m c 3 t) (iblk m c 4 t) (iblk m c 5 t) (iblk m c 6 t) (iblk m c 7 t) (iblk m c 8 t)
abbrev runB (c : Dev nD) (t : Fin cfg0.N) (hc0 : ¬cond0_0 (grid0.coords t)) (hc1 : ¬cond0_1 (grid0.coords t)) (xs0 xs1 xs2 xs3 xs4 xs5 : Vec F S512x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 t) (iblk m c 1 t) (iblk m c 2 t) (iblk m c 3 t) (iblk m c 4 t) (iblk m c 5 t) (iblk m c 6 t) (iblk m c 7 t) (iblk m c 8 t) xs0 xs1 xs2 xs3 xs4 xs5
abbrev runC (c : Dev nD) (t : Fin cfg0.N) (hc0 : ¬cond0_0 (grid0.coords t)) (hc1 : cond0_1 (grid0.coords t)) (xs0 xs1 xs2 xs3 xs4 xs5 : Vec F S512x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc0 hc1 (iblk m c 0 t) (iblk m c 1 t) (iblk m c 2 t) (iblk m c 3 t) (iblk m c 4 t) (iblk m c 5 t) (iblk m c 6 t) (iblk m c 7 t) (iblk m c 8 t) xs0 xs1 xs2 xs3 xs4 xs5

/-- A list of stored pieces read back as one column. -/
abbrev colOf (L : List (View.Piece (Elt F) S512x1 .f32)) : Vec F S512x1 .f32 := VC.read (Elt F) (VC.writes (Elt F) VC.junk L)

/-- The pieces the first-tile run stores into column L9 cover it. -/
theorem coverA_L9 (c : Dev nD) (t : Fin cfg0.N) (hc0 : cond0_0 (grid0.coords t)) (hc1 : ¬cond0_1 (grid0.coords t))  (y : S512x1.Idx) :
    ∃ pc ∈ (runA m c t hc0 hc1).1, y ∈ pc.1.set :=
  View.cover_of_tiledL _ S512x1.size (by sl_kernel_rfl) y
/-- The pieces the first-tile run stores into column LS0 cover it. -/
theorem coverA_LS0 (c : Dev nD) (t : Fin cfg0.N) (hc0 : cond0_0 (grid0.coords t)) (hc1 : ¬cond0_1 (grid0.coords t))  (y : S512x1.Idx) :
    ∃ pc ∈ (runA m c t hc0 hc1).2.1, y ∈ pc.1.set :=
  View.cover_of_tiledL _ S512x1.size (by sl_kernel_rfl) y
/-- The pieces the first-tile run stores into column LS1 cover it. -/
theorem coverA_LS1 (c : Dev nD) (t : Fin cfg0.N) (hc0 : cond0_0 (grid0.coords t)) (hc1 : ¬cond0_1 (grid0.coords t))  (y : S512x1.Idx) :
    ∃ pc ∈ (runA m c t hc0 hc1).2.2.1, y ∈ pc.1.set :=
  View.cover_of_tiledL _ S512x1.size (by sl_kernel_rfl) y
/-- The pieces the first-tile run stores into column LS2 cover it. -/
theorem coverA_LS2 (c : Dev nD) (t : Fin cfg0.N) (hc0 : cond0_0 (grid0.coords t)) (hc1 : ¬cond0_1 (grid0.coords t))  (y : S512x1.Idx) :
    ∃ pc ∈ (runA m c t hc0 hc1).2.2.2.1, y ∈ pc.1.set :=
  View.cover_of_tiledL _ S512x1.size (by sl_kernel_rfl) y
/-- The pieces the first-tile run stores into column LS3 cover it. -/
theorem coverA_LS3 (c : Dev nD) (t : Fin cfg0.N) (hc0 : cond0_0 (grid0.coords t)) (hc1 : ¬cond0_1 (grid0.coords t))  (y : S512x1.Idx) :
    ∃ pc ∈ (runA m c t hc0 hc1).2.2.2.2.1, y ∈ pc.1.set :=
  View.cover_of_tiledL _ S512x1.size (by sl_kernel_rfl) y
/-- The pieces the first-tile run stores into column LS4 cover it. -/
theorem coverA_LS4 (c : Dev nD) (t : Fin cfg0.N) (hc0 : cond0_0 (grid0.coords t)) (hc1 : ¬cond0_1 (grid0.coords t))  (y : S512x1.Idx) :
    ∃ pc ∈ (runA m c t hc0 hc1).2.2.2.2.2.1, y ∈ pc.1.set :=
  View.cover_of_tiledL _ S512x1.size (by sl_kernel_rfl) y
/-- The pieces the first-tile run stores into column LS5 cover it. -/
theorem coverA_LS5 (c : Dev nD) (t : Fin cfg0.N) (hc0 : cond0_0 (grid0.coords t)) (hc1 : ¬cond0_1 (grid0.coords t))  (y : S512x1.Idx) :
    ∃ pc ∈ (runA m c t hc0 hc1).2.2.2.2.2.2.1, y ∈ pc.1.set :=
  View.cover_of_tiledL _ S512x1.size (by sl_kernel_rfl) y
/-- The pieces the middle-tile run stores into column LS0 cover it. -/
theorem coverB_LS0 (c : Dev nD) (t : Fin cfg0.N) (hc0 : ¬cond0_0 (grid0.coords t)) (hc1 : ¬cond0_1 (grid0.coords t)) (xs0 xs1 xs2 xs3 xs4 xs5 : Vec F S512x1 .f32) (y : S512x1.Idx) :
    ∃ pc ∈ (runB m c t hc0 hc1 xs0 xs1 xs2 xs3 xs4 xs5).1, y ∈ pc.1.set :=
  View.cover_of_tiledL _ S512x1.size (by sl_kernel_rfl) y
/-- The pieces the middle-tile run stores into column LS1 cover it. -/
theorem coverB_LS1 (c : Dev nD) (t : Fin cfg0.N) (hc0 : ¬cond0_0 (grid0.coords t)) (hc1 : ¬cond0_1 (grid0.coords t)) (xs0 xs1 xs2 xs3 xs4 xs5 : Vec F S512x1 .f32) (y : S512x1.Idx) :
    ∃ pc ∈ (runB m c t hc0 hc1 xs0 xs1 xs2 xs3 xs4 xs5).2.1, y ∈ pc.1.set :=
  View.cover_of_tiledL _ S512x1.size (by sl_kernel_rfl) y
/-- The pieces the last-tile run stores into column L10 cover it. -/
theorem coverC_L10 (c : Dev nD) (t : Fin cfg0.N) (hc0 : ¬cond0_0 (grid0.coords t)) (hc1 : cond0_1 (grid0.coords t)) (xs0 xs1 xs2 xs3 xs4 xs5 : Vec F S512x1 .f32) (y : S512x1.Idx) :
    ∃ pc ∈ (runC m c t hc0 hc1 xs0 xs1 xs2 xs3 xs4 xs5).1, y ∈ pc.1.set :=
  View.cover_of_tiledL _ S512x1.size (by sl_kernel_rfl) y
/-- The pieces the last-tile run stores into column L11 cover it. -/
theorem coverC_L11 (c : Dev nD) (t : Fin cfg0.N) (hc0 : ¬cond0_0 (grid0.coords t)) (hc1 : cond0_1 (grid0.coords t)) (xs0 xs1 xs2 xs3 xs4 xs5 : Vec F S512x1 .f32) (y : S512x1.Idx) :
    ∃ pc ∈ (runC m c t hc0 hc1 xs0 xs1 xs2 xs3 xs4 xs5).2.1, y ∈ pc.1.set :=
  View.cover_of_tiledL _ S512x1.size (by sl_kernel_rfl) y
/-- The pieces the last-tile run stores into column LS0 cover it. -/
theorem coverC_LS0 (c : Dev nD) (t : Fin cfg0.N) (hc0 : ¬cond0_0 (grid0.coords t)) (hc1 : cond0_1 (grid0.coords t)) (xs0 xs1 xs2 xs3 xs4 xs5 : Vec F S512x1 .f32) (y : S512x1.Idx) :
    ∃ pc ∈ (runC m c t hc0 hc1 xs0 xs1 xs2 xs3 xs4 xs5).2.2.1, y ∈ pc.1.set :=
  View.cover_of_tiledL _ S512x1.size (by sl_kernel_rfl) y
/-- The pieces the last-tile run stores into column LS1 cover it. -/
theorem coverC_LS1 (c : Dev nD) (t : Fin cfg0.N) (hc0 : ¬cond0_0 (grid0.coords t)) (hc1 : cond0_1 (grid0.coords t)) (xs0 xs1 xs2 xs3 xs4 xs5 : Vec F S512x1 .f32) (y : S512x1.Idx) :
    ∃ pc ∈ (runC m c t hc0 hc1 xs0 xs1 xs2 xs3 xs4 xs5).2.2.2.1, y ∈ pc.1.set :=
  View.cover_of_tiledL _ S512x1.size (by sl_kernel_rfl) y

/-- The columns after a first-tile point. (The two result columns are not consulted there: a placeholder.) -/
def colsA (c : Dev nD) (t : Fin cfg0.N) (hc0 : cond0_0 (grid0.coords t)) (hc1 : ¬cond0_1 (grid0.coords t)) : Cols F :=
  { o9 := colOf (runA m c t hc0 hc1).1, o10 := colOf (runA m c t hc0 hc1).1, o11 := colOf (runA m c t hc0 hc1).1,
      s0 := colOf (runA m c t hc0 hc1).2.1, s1 := colOf (runA m c t hc0 hc1).2.2.1, s2 := colOf (runA m c t hc0 hc1).2.2.2.1,
      s3 := colOf (runA m c t hc0 hc1).2.2.2.2.1, s4 := colOf (runA m c t hc0 hc1).2.2.2.2.2.1, s5 := colOf (runA m c t hc0 hc1).2.2.2.2.2.2.1 }
/-- The columns after a middle-tile point, from what the point before left (`p`). -/
def colsB (c : Dev nD) (t : Fin cfg0.N) (hc0 : ¬cond0_0 (grid0.coords t)) (hc1 : ¬cond0_1 (grid0.coords t)) (p : Cols F) : Cols F :=
  { o9 := p.o9, o10 := p.o10, o11 := p.o11,
    s0 := colOf (runB m c t hc0 hc1 p.s0 p.s1 p.s2 p.s3 p.s4 p.s5).1, s1 := colOf (runB m c t hc0 hc1 p.s0 p.s1 p.s2 p.s3 p.s4 p.s5).2.1,
    s2 := p.s2, s3 := p.s3, s4 := p.s4, s5 := p.s5 }
/-- The columns after a last-tile point, from what the point before left. -/
def colsC (c : Dev nD) (t : Fin cfg0.N) (hc0 : ¬cond0_0 (grid0.coords t)) (hc1 : cond0_1 (grid0.coords t)) (p : Cols F) : Cols F :=
  { o9 := p.o9, o10 := colOf (runC m c t hc0 hc1 p.s0 p.s1 p.s2 p.s3 p.s4 p.s5).1, o11 := colOf (runC m c t hc0 hc1 p.s0 p.s1 p.s2 p.s3 p.s4 p.s5).2.1,
    s0 := colOf (runC m c t hc0 hc1 p.s0 p.s1 p.s2 p.s3 p.s4 p.s5).2.2.1, s1 := colOf (runC m c t hc0 hc1 p.s0 p.s1 p.s2 p.s3 p.s4 p.s5).2.2.2.1,
    s2 := p.s2, s3 := p.s3, s4 := p.s4, s5 := p.s5 }

/-! ## What the columns hold after each point -/

/-- By recursion on the point: the case its column coordinate selects, over what the point before left. -/
def colsAt (c : Dev nD) : (n : ℕ) → n < cfg0.N → Cols F
  | 0, hn => colsA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 8 = 0 then
      if h1 : (n + 1) % 8 = 7 then False.elim (by omega)
      else colsA m c ⟨n + 1, hn⟩ ((hcond0_0 ⟨n + 1, hn⟩).mpr h0) (fun h => h1 ((hcond0_1 ⟨n + 1, hn⟩).mp h))
    else
      if h1 : (n + 1) % 8 = 7 then
        colsC m c ⟨n + 1, hn⟩ (fun h => h0 ((hcond0_0 ⟨n + 1, hn⟩).mp h)) ((hcond0_1 ⟨n + 1, hn⟩).mpr h1) (colsAt c n (Nat.lt_of_succ_lt hn))
      else
        colsB m c ⟨n + 1, hn⟩ (fun h => h0 ((hcond0_0 ⟨n + 1, hn⟩).mp h)) (fun h => h1 ((hcond0_1 ⟨n + 1, hn⟩).mp h)) (colsAt c n (Nat.lt_of_succ_lt hn))

theorem colsAt_A (c : Dev nD) (t : Fin cfg0.N) (h0 : t.val % 8 = 0) (h1 : ¬t.val % 8 = 7) :
    colsAt m c t.val t.isLt = colsA m c t ((hcond0_0 t).mpr h0) (fun h => h1 ((hcond0_1 t).mp h)) := by
  obtain ⟨n, hn⟩ := t
  cases n with
  | zero => exact rfl
  | succ n => exact (dif_pos h0).trans ((dif_neg h1).trans rfl)

theorem colsAt_B (c : Dev nD) (t : Fin cfg0.N) (h0 : ¬t.val % 8 = 0) (h1 : ¬t.val % 8 = 7) :
    colsAt m c t.val t.isLt = colsB m c t (fun h => h0 ((hcond0_0 t).mp h)) (fun h => h1 ((hcond0_1 t).mp h))
      (colsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem colsAt_C (c : Dev nD) (t : Fin cfg0.N) (h0 : ¬t.val % 8 = 0) (h1 : t.val % 8 = 7) :
    colsAt m c t.val t.isLt = colsC m c t (fun h => h0 ((hcond0_0 t).mp h)) ((hcond0_1 t).mpr h1)
      (colsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- Past the first tile of a row block the row-distance column is what the point before left. -/
theorem colsAt_o9 (c : Dev nD) (t : Fin cfg0.N) (h0 : ¬t.val % 8 = 0) :
    (colsAt m c t.val t.isLt).o9 = (colsAt m c (t.val - 1) (Nat.lt_of_le_of_lt (Nat.sub_le _ _) t.isLt)).o9 := by
  by_cases h1 : t.val % 8 = 7
  · rw [colsAt_C m c t h0 h1]; rfl
  · rw [colsAt_B m c t h0 h1]; rfl

/-! ## The invariant between points -/

/-- Before the first point: the six scratch columns at anything. Afterwards: each at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare (colsAt m c n hn).s0 ∗ owns (c : Thread nD τ) scM0_1 fullShare (colsAt m c n hn).s1 ∗ owns (c : Thread nD τ) scM0_2 fullShare (colsAt m c n hn).s2 ∗ owns (c : Thread nD τ) scM0_3 fullShare (colsAt m c n hn).s3 ∗ owns (c : Thread nD τ) scM0_4 fullShare (colsAt m c n hn).s4 ∗ owns (c : Thread nD τ) scM0_5 fullShare (colsAt m c n hn).s5)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare (colsAt m c n hn).s0 ∗ owns (c : Thread nD τ) scM0_1 fullShare (colsAt m c n hn).s1 ∗ owns (c : Thread nD τ) scM0_2 fullShare (colsAt m c n hn).s2 ∗ owns (c : Thread nD τ) scM0_3 fullShare (colsAt m c n hn).s3 ∗ owns (c : Thread nD τ) scM0_4 fullShare (colsAt m c n hn).s4 ∗ owns (c : Thread nD τ) scM0_5 fullShare (colsAt m c n hn).s5) := rfl

theorem PhiS_pos (c : Dev nD) (n : ℕ) (h : n ≤ cfg0.N) (hz : n ≠ 0) :
    PhiS m c n h = iprop(owns (c : Thread nD τ) scM0_0 fullShare (colsAt m c (n - 1) (by omega)).s0 ∗ owns (c : Thread nD τ) scM0_1 fullShare (colsAt m c (n - 1) (by omega)).s1 ∗ owns (c : Thread nD τ) scM0_2 fullShare (colsAt m c (n - 1) (by omega)).s2 ∗ owns (c : Thread nD τ) scM0_3 fullShare (colsAt m c (n - 1) (by omega)).s3 ∗ owns (c : Thread nD τ) scM0_4 fullShare (colsAt m c (n - 1) (by omega)).s4 ∗ owns (c : Thread nD τ) scM0_5 fullShare (colsAt m c (n - 1) (by omega)).s5) := by
  cases n with
  | zero => exact absurd rfl hz
  | succ n => rfl

/-! ## The proof data -/

/-- The arrays as the region finds them; after the body each input's buffer at its block, the three result columns at `colsAt`'s;
    the invariant `PhiS`; nothing owed. The positive array's share is dealt to windows 1 and 3, the negative array's to windows 2 and 4,
    a half each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (colsAt m c t.val t.isLt).o9
    | ⟨10, _⟩ => (colsAt m c t.val t.isLt).o10
    | ⟨11, _⟩ => (colsAt m c t.val t.isLt).o11
  Φ t := PhiS m c t.val (Nat.le_of_lt_succ t.isLt)
  q w := match w with
    | ⟨1, _⟩ => fullShare.left
    | ⟨3, _⟩ => fullShare.right
    | ⟨2, _⟩ => fullShare.left
    | ⟨4, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (colsAt m c t.val t.isLt).o9 := by dsimp only [dats]
theorem after0_10 (c : Dev nD) (t : Fin cfg0.N) : (dats m 0 c).after 10 t = (colsAt m c t.val t.isLt).o10 := by dsimp only [dats]
theorem after0_11 (c : Dev nD) (t : Fin cfg0.N) : (dats m 0 c).after 11 t = (colsAt m c t.val t.isLt).o11 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

end Cert.KernelIdeal.Fr

end
-- ==== Proof.KernelIdealBody.lean ====
/-
  The body obligation of the mining region: at every grid point, from the invariant and each window's staging buffer at what the pipeline
  hands it, the kernel body runs to the invariant at the next point and each buffer at what the proof data names.
-/
import proofs.«127039_j10264971838200_2_alg».proof.Proof.KernelIdealData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Past the first tile of a row block the row-distance window's staging buffer holds what the point before left in it: it is not
    fetched, the point before did not write it back, and where it is idle the body hands it back untouched. -/
theorem before0_9 (c : Dev nD) : ∀ (n : ℕ) (t : Fin cfg0.N), t.val = n → ¬t.val % 8 = 0 → ∀ d,
    (dats m 0 c).before 9 t d = (colsAt m c (t.val - 1) (Nat.lt_of_le_of_lt (Nat.sub_le _ _) t.isLt)).o9 := by
  intro n
  induction n using Nat.strong_induction_on with
  | _ n ih =>
    intro t htn h0 d
    have hN : t.val < 64 := lt_of_lt_of_eq t.isLt N_0
    have ht : t.val ≠ 0 := fun e => h0 (by rw [e])
    have hfl : (cfg0.win 9).flush ⟨t.val - 1, (Nat.lt_of_le_of_lt (Nat.sub_le _ _) t.isLt)⟩ = false :=
      noFlush0_9 _ (fun h => by have := (hcond0_1 _).mp h; (try dsimp only at this); omega)
    rw [(dats m 0 c).before_of_pos 9 t ht ((cfg0.win 9).fetch_out rfl t) d, hfl, if_neg Bool.false_ne_true]
    unfold Dat.left
    by_cases hp : (t.val - 1) % 8 = 0
    · rw [liveAt0_9 ⟨t.val - 1, (Nat.lt_of_le_of_lt (Nat.sub_le _ _) t.isLt)⟩ ((hcond0_0 _).mpr hp)]
      show (dats m 0 c).after 9 ⟨t.val - 1, (Nat.lt_of_le_of_lt (Nat.sub_le _ _) t.isLt)⟩ = _
      rw [after0_9]
    · rw [idleAt0_9 ⟨t.val - 1, (Nat.lt_of_le_of_lt (Nat.sub_le _ _) t.isLt)⟩ (fun h => hp ((hcond0_0 _).mp h))]
      show (dats m 0 c).before 9 ⟨t.val - 1, (Nat.lt_of_le_of_lt (Nat.sub_le _ _) t.isLt)⟩ d = _
      rw [ih (t.val - 1) (by omega) ⟨t.val - 1, (Nat.lt_of_le_of_lt (Nat.sub_le _ _) t.isLt)⟩ rfl hp d]
      exact (colsAt_o9 m c ⟨t.val - 1, (Nat.lt_of_le_of_lt (Nat.sub_le _ _) t.isLt)⟩ hp).symm

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 16000000 in
/-- The body at any point: the inputs' buffers hold their blocks; the column coordinate says which of the three runs applies; the
    invariant hands the run the scratch columns at what the point before left (at anything before the first point) and takes them back
    at this point's contents; an idle result column goes back as it was found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  have hN : t.val < 64 := lt_of_lt_of_eq t.isLt N_0
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [show (dats m 0 c).leavesExact 9 t = owns (c : Thread nD τ) (ms0_9 t) fullShare ((dats m 0 c).after 9 t) from by
      unfold Dat.leavesExact; rw [liveAt0_9 t hc0], after0_9]
    rw [Dat.leavesExact_idle (dats m 0 c) 10 t (idleAt0_10 t hc1) (noFlush0_10 t hc1)]
    rw [Dat.leavesExact_idle (dats m 0 c) 11 t (idleAt0_11 t hc1) (noFlush0_11 t hc1)]
    rw [colsAt_A m c t h0 h1]
    unfold colsA; (try dsimp only)
    by_cases hz : t.val = 0
    · rw [PhiS_castSucc m c t, PhiS_zero m c _ _ hz, rest0_eq]
      iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA m c t hc0 hc1).2.2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, ⟨%e9, H9⟩, H10, H11, ⟨%es0, HS0⟩, ⟨%es1, HS1⟩, ⟨%es2, HS2⟩, ⟨%es3, HS3⟩, ⟨%es4, HS4⟩, ⟨%es5, HS5⟩⟩
      isplitl [HS0 HS1 HS2 HS3 HS4 HS5]
      · isplitl [HS0]
        · unfold owns; iexists _; isplitr
          swap; · iexact HS0
          ipureintro; exact View.read_writes_of_cover _ _ _ _ _ (coverA_LS0 m c t hc0 hc1)
        isplitl [HS1]
        · unfold owns; iexists _; isplitr
          swap; · iexact HS1
          ipureintro; exact View.read_writes_of_cover _ _ _ _ _ (coverA_LS1 m c t hc0 hc1)
        isplitl [HS2]
        · unfold owns; iexists _; isplitr
          swap; · iexact HS2
          ipureintro; exact View.read_writes_of_cover _ _ _ _ _ (coverA_LS2 m c t hc0 hc1)
        isplitl [HS3]
        · unfold owns; iexists _; isplitr
          swap; · iexact HS3
          ipureintro; exact View.read_writes_of_cover _ _ _ _ _ (coverA_LS3 m c t hc0 hc1)
        isplitl [HS4]
        · unfold owns; iexists _; isplitr
          swap; · iexact HS4
          ipureintro; exact View.read_writes_of_cover _ _ _ _ _ (coverA_LS4 m c t hc0 hc1)
        unfold owns; iexists _; isplitr
        swap; · iexact HS5
        ipureintro; exact View.read_writes_of_cover _ _ _ _ _ (coverA_LS5 m c t hc0 hc1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverA_L9 m c t hc0 hc1)
      isplitl [H10]; · iexists _; iexact H10
      iexists _; iexact H11
    · rw [PhiS_castSucc m c t, PhiS_pos m c _ _ hz]
      iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA m c t hc0 hc1).2.2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iintro ⟨H0, H1, H2, H3, H4, H5, H6, H7, H8, ⟨%e9, H9⟩, H10, H11, ⟨%es0, HS0⟩, ⟨%es1, HS1⟩, ⟨%es2, HS2⟩, ⟨%es3, HS3⟩, ⟨%es4, HS4⟩, ⟨%es5, HS5⟩⟩
      isplitl [HS0 HS1 HS2 HS3 HS4 HS5]
      · isplitl [HS0]
        · unfold owns; iexists _; isplitr
          swap; · iexact HS0
          ipureintro; exact View.read_writes_of_cover _ _ _ _ _ (coverA_LS0 m c t hc0 hc1)
        isplitl [HS1]
        · unfold owns; iexists _; isplitr
          swap; · iexact HS1
          ipureintro; exact View.read_writes_of_cover _ _ _ _ _ (coverA_LS1 m c t hc0 hc1)
        isplitl [HS2]
        · unfold owns; iexists _; isplitr
          swap; · iexact HS2
          ipureintro; exact View.read_writes_of_cover _ _ _ _ _ (coverA_LS2 m c t hc0 hc1)
        isplitl [HS3]
        · unfold owns; iexists _; isplitr
          swap; · iexact HS3
          ipureintro; exact View.read_writes_of_cover _ _ _ _ _ (coverA_LS3 m c t hc0 hc1)
        isplitl [HS4]
        · unfold owns; iexists _; isplitr
          swap; · iexact HS4
          ipureintro; exact View.read_writes_of_cover _ _ _ _ _ (coverA_LS4 m c t hc0 hc1)
        unfold owns; iexists _; isplitr
        swap; · iexact HS5
        ipureintro; exact View.read_writes_of_cover _ _ _ _ _ (coverA_LS5 m c t hc0 hc1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverA_L9 m c t hc0 hc1)
      isplitl [H10]; · iexists _; iexact H10
      iexists _; iexact H11
  · have hz : t.val ≠ 0 := fun e => h0 (by rw [e])
    have hc0 : ¬cond0_0 (grid0.coords t) := fun h => h0 ((hcond0_0 t).mp h)
    rw [PhiS_castSucc m c t, PhiS_pos m c _ _ hz]
    by_cases h1 : t.val % 8 = 7
    · have hc1 : cond0_1 (grid0.coords t) := (hcond0_1 t).mpr h1
      simp only [before0_9 m c t.val t rfl h0]
      rw [show (dats m 0 c).leavesExact 9 t = owns (c : Thread nD τ) (ms0_9 t) fullShare ((dats m 0 c).after 9 t) from by
        unfold Dat.leavesExact; rw [idleAt0_9 t hc0, flushAt0_9 t hc1], after0_9]
      rw [show (dats m 0 c).leavesExact 10 t = owns (c : Thread nD τ) (ms0_10 t) fullShare ((dats m 0 c).after 10 t) from by
        unfold Dat.leavesExact; rw [liveAt0_10 t hc1], after0_10]
      rw [show (dats m 0 c).leavesExact 11 t = owns (c : Thread nD τ) (ms0_11 t) fullShare ((dats m 0 c).after 11 t) from by
        unfold Dat.leavesExact; rw [liveAt0_11 t hc1], after0_11]
      rw [colsAt_C m c t h0 h1]
      unfold colsC; (try dsimp only)
      iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, ⟨%e10, H10⟩, ⟨%e11, H11⟩, ⟨%es0, HS0⟩, ⟨%es1, HS1⟩, HS2, HS3, HS4, HS5⟩
      isplitl [HS0 HS1 HS2 HS3 HS4 HS5]
      · isplitl [HS0]
        · unfold owns; iexists _; isplitr
          swap; · iexact HS0
          ipureintro; exact View.read_writes_of_cover _ _ _ _ _ (coverC_LS0 m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5)
        isplitl [HS1]
        · unfold owns; iexists _; isplitr
          swap; · iexact HS1
          ipureintro; exact View.read_writes_of_cover _ _ _ _ _ (coverC_LS1 m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5)
        isplitl [HS2]; · iexact HS2
        isplitl [HS3]; · iexact HS3
        isplitl [HS4]; · iexact HS4
        iexact HS5
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (coverC_L10 m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5)
      unfold owns; iexists _; isplitr
      swap; · iexact H11
      ipureintro; exact View.read_writes_of_cover _ _ _ _ _ (coverC_L11 m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5)
    · have hc1 : ¬cond0_1 (grid0.coords t) := fun h => h1 ((hcond0_1 t).mp h)
      rw [Dat.leavesExact_idle (dats m 0 c) 9 t (idleAt0_9 t hc0) (noFlush0_9 t hc1)]
      rw [Dat.leavesExact_idle (dats m 0 c) 10 t (idleAt0_10 t hc1) (noFlush0_10 t hc1)]
      rw [Dat.leavesExact_idle (dats m 0 c) 11 t (idleAt0_11 t hc1) (noFlush0_11 t hc1)]
      rw [colsAt_B m c t h0 h1]
      unfold colsB; (try dsimp only)
      iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5).2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, ⟨%es0, HS0⟩, ⟨%es1, HS1⟩, HS2, HS3, HS4, HS5⟩
      isplitl [HS0 HS1 HS2 HS3 HS4 HS5]
      · isplitl [HS0]
        · unfold owns; iexists _; isplitr
          swap; · iexact HS0
          ipureintro; exact View.read_writes_of_cover _ _ _ _ _ (coverB_LS0 m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5)
        isplitl [HS1]
        · unfold owns; iexists _; isplitr
          swap; · iexact HS1
          ipureintro; exact View.read_writes_of_cover _ _ _ _ _ (coverB_LS1 m c t hc0 hc1 (colsAt m c (t.val - 1) (Nat.lt_of_le_of_lt (Nat.sub_le _ _) t.isLt)).s0 (colsAt m c (t.val - 1) (Nat.lt_of_le_of_lt (Nat.sub_le _ _) t.isLt)).s1 (colsAt m c (t.val - 1) (Nat.lt_of_le_of_lt (Nat.sub_le _ _) t.isLt)).s2 (colsAt m c (t.val - 1) (Nat.lt_of_le_of_lt (Nat.sub_le _ _) t.isLt)).s3 (colsAt m c (t.val - 1) (Nat.lt_of_le_of_lt (Nat.sub_le _ _) t.isLt)).s4 (colsAt m c (t.val - 1) (Nat.lt_of_le_of_lt (Nat.sub_le _ _) t.isLt)).s5)
        isplitl [HS2]; · iexact HS2
        isplitl [HS3]; · iexact HS3
        isplitl [HS4]; · iexact HS4
        iexact HS5
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is the scoped rest: the six scratch columns at anything. -/
theorem Phi_zero (c : Dev nD) :
    (dats m 0 c).Φ 0 = Pipeline.scopedRest (Ix := Unit) (Name := ℕ) (U := UR sig nD τ) (Lvl := ℕ) (Val := Elt F) spec0 c := rfl

/-- After the last point it gives the scoped rest back: the columns' named contents are forgotten. -/
theorem Phi_last (c : Dev nD) :
    (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), rest0_eq]
  iintro ⟨HS0, HS1, HS2, HS3, HS4, HS5⟩
  isplitl [HS0]; · iexists _; iexact HS0
  isplitl [HS1]; · iexists _; iexact HS1
  isplitl [HS2]; · iexists _; iexact HS2
  isplitl [HS3]; · iexists _; iexact HS3
  isplitl [HS4]; · iexists _; iexact HS4
  iexists _; iexact HS5

end Cert.KernelIdeal.Fr

end
-- ==== Proof.KernelIdealShares.lean ====
/-
  The arrays' shares, dealt at the region's entry and gathered at its exit.
  The region is handed ten distinct arrays whole: the three argument arrays, the four transposed row-sum vectors and the three result
  columns. Twelve windows lie on them: the positive array carries its row-tile window and its column-tile window, and so does the
  negative array. At entry each of those two arrays' full share is split into its left and right halves, one per window on it; at exit the
  halves are joined again. The valuation the region leaves differs from the one it found at the three result columns only.
-/
import proofs.«127039_j10264971838200_2_alg».proof.Proof.KernelIdealData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays, each a whole buffer, as points-tos of the buffers behind them at the windows' shares. -/
theorem arrays_eq' (c : Dev nD) (Fa : (w : Fin cfg0.W) → Buf (Elt F) ((cfg0.win w).arr.view.loc (c : Thread nD τ))) :
    (dats m 0 c).arrays Fa = bigSep Finset.univ fun w => (((c : Thread nD τ).loc (Pipeline.arrRef spec0 w)) ↦{(dats m 0 c).share w} Fa w : sProp 𝕄) := by
  unfold Dat.arrays
  exact bigSep_congr fun w _ => by rw [(arr_whole0 w).set_eq_univ]

/-- The same, window by window. -/
theorem arrays_chain (c : Dev nD) (Fa : (w : Fin cfg0.W) → Buf (Elt F) ((cfg0.win w).arr.view.loc (c : Thread nD τ))) :
    (dats m 0 c).arrays Fa = iprop((((c : Thread nD τ).loc main_arg0) ↦{fullShare} Fa 0) ∗ (((c : Thread nD τ).loc main_arg1) ↦{fullShare.left} Fa 1) ∗ (((c : Thread nD τ).loc main_arg2) ↦{fullShare.left} Fa 2) ∗ (((c : Thread nD τ).loc main_arg1) ↦{fullShare.right} Fa 3) ∗ (((c : Thread nD τ).loc main_arg2) ↦{fullShare.right} Fa 4) ∗ (((c : Thread nD τ).loc main_v2) ↦{fullShare} Fa 5) ∗ (((c : Thread nD τ).loc main_v6) ↦{fullShare} Fa 6) ∗ (((c : Thread nD τ).loc main_v9) ↦{fullShare} Fa 7) ∗ (((c : Thread nD τ).loc main_v13) ↦{fullShare} Fa 8) ∗ (((c : Thread nD τ).loc main_v14_0) ↦{fullShare} Fa 9) ∗ (((c : Thread nD τ).loc main_v14_1) ↦{fullShare} Fa 10) ∗ (((c : Thread nD τ).loc main_v14_2) ↦{fullShare} Fa 11)) := by
  rw [arrays_eq', bigSep_W0]; rfl

/-- The ten distinct buffers behind the windows' arrays, one by one. -/
theorem arrBufs_chain (c : Dev nD) (Vb : (b : Ref sig .tc) → Buf (Elt F) ((c : Thread nD τ).loc b)) :
    (Pipeline.arrBufs (Ix := Unit) (Name := ℕ) (U := UR sig nD τ) (Lvl := ℕ) spec0 c Vb : sProp 𝕄)
      = iprop((((c : Thread nD τ).loc main_arg0) ↦{fullShare} Vb main_arg0) ∗ (((c : Thread nD τ).loc main_arg1) ↦{fullShare} Vb main_arg1) ∗ (((c : Thread nD τ).loc main_arg2) ↦{fullShare} Vb main_arg2) ∗ (((c : Thread nD τ).loc main_v2) ↦{fullShare} Vb main_v2) ∗ (((c : Thread nD τ).loc main_v6) ↦{fullShare} Vb main_v6) ∗ (((c : Thread nD τ).loc main_v9) ↦{fullShare} Vb main_v9) ∗ (((c : Thread nD τ).loc main_v13) ↦{fullShare} Vb main_v13) ∗ (((c : Thread nD τ).loc main_v14_0) ↦{fullShare} Vb main_v14_0) ∗ (((c : Thread nD τ).loc main_v14_1) ↦{fullShare} Vb main_v14_1) ∗ (((c : Thread nD τ).loc main_v14_2) ↦{fullShare} Vb main_v14_2)) := by
  unfold Pipeline.arrBufs
  rw [bigSep_eq_bigSepL_of_eq [main_arg0, main_arg1, main_arg2, main_v2, main_v6, main_v9, main_v13, main_v14_0, main_v14_1, main_v14_2] (by decide) (by decide)]
  rfl

/-- At entry each window's array holds what the region finds. -/
theorem arrAt_zero (c : Dev nD) : ((dats m 0 c).arrAt · 0) = fun w => V m c (Pipeline.arrRef spec0 w) :=
  funext fun w => (show (dats m 0 c).arrAt w 0 = (dats m 0 c).A w from rfl).trans (A_eq m c w)

/-- ENTRY: the ten buffers at the region-entry contents are the twelve windows' arrays, the two shared arrays' shares halved. -/
theorem arrays_in (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrAt_zero, arrBufs_chain, arrays_chain]
  iintro ⟨H0, H1, H2, H5, H6, H7, H8, H9, H10, H11⟩
  ihave H1s := (pointsTo_share (PosShare.mem_left_op_right fullShare)).1 $$ H1
  icases H1s with ⟨H1l, H1r⟩
  ihave H2s := (pointsTo_share (PosShare.mem_left_op_right fullShare)).1 $$ H2
  icases H2s with ⟨H2l, H2r⟩
  isplitl [H0]; · iexact H0
  isplitl [H1l]; · iexact H1l
  isplitl [H2l]; · iexact H2l
  isplitl [H1r]; · iexact H1r
  isplitl [H2r]; · iexact H2r
  isplitl [H5]; · iexact H5
  isplitl [H6]; · iexact H6
  isplitl [H7]; · iexact H7
  isplitl [H8]; · iexact H8
  isplitl [H9]; · iexact H9
  isplitl [H10]; · iexact H10
  iexact H11

/-! ## The valuation the region leaves -/

/-- The region-entry valuation with the three result columns at what the pipeline's write-backs leave. -/
def Wr (c : Dev nD) : Valuation τ sig (Elt F) :=
  Function.update (Function.update (Function.update (V0 m c) (Proc.devRef .tc main_v14_0) ((dats m 0 c).arrAt 9 cfg0.N))
    (Proc.devRef .tc main_v14_1) ((dats m 0 c).arrAt 10 cfg0.N)) (Proc.devRef .tc main_v14_2) ((dats m 0 c).arrAt 11 cfg0.N)

theorem Wr_v14_2 (c : Dev nD) : Wr m c (Proc.devRef .tc main_v14_2) = (dats m 0 c).arrAt 11 cfg0.N := Function.update_self ..
theorem Wr_v14_1 (c : Dev nD) : Wr m c (Proc.devRef .tc main_v14_1) = (dats m 0 c).arrAt 10 cfg0.N :=
  (Function.update_of_ne (by decide) ..).trans (Function.update_self ..)
theorem Wr_v14_0 (c : Dev nD) : Wr m c (Proc.devRef .tc main_v14_0) = (dats m 0 c).arrAt 9 cfg0.N :=
  (Function.update_of_ne (by decide) ..).trans ((Function.update_of_ne (by decide) ..).trans (Function.update_self ..))
/-- Off the three result columns it is the region-entry valuation. -/
theorem Wr_of_ne (c : Dev nD) (b : DevRef τ sig) (h0 : b ≠ Proc.devRef .tc main_v14_0) (h1 : b ≠ Proc.devRef .tc main_v14_1) (h2 : b ≠ Proc.devRef .tc main_v14_2) :
    Wr m c b = V0 m c b :=
  (Function.update_of_ne h2 ..).trans ((Function.update_of_ne h1 ..).trans (Function.update_of_ne h0 ..))

theorem arrAtN_0 (c : Dev nD) : (dats m 0 c).arrAt 0 cfg0.N = V m c main_arg0 := ((dats m 0 c).arrAt_in 0 rfl _).trans (A_eq m c 0)
theorem arrAtN_1 (c : Dev nD) : (dats m 0 c).arrAt 1 cfg0.N = V m c main_arg1 := ((dats m 0 c).arrAt_in 1 rfl _).trans (A_eq m c 1)
theorem arrAtN_2 (c : Dev nD) : (dats m 0 c).arrAt 2 cfg0.N = V m c main_arg2 := ((dats m 0 c).arrAt_in 2 rfl _).trans (A_eq m c 2)
theorem arrAtN_3 (c : Dev nD) : (dats m 0 c).arrAt 3 cfg0.N = V m c main_arg1 := ((dats m 0 c).arrAt_in 3 rfl _).trans (A_eq m c 3)
theorem arrAtN_4 (c : Dev nD) : (dats m 0 c).arrAt 4 cfg0.N = V m c main_arg2 := ((dats m 0 c).arrAt_in 4 rfl _).trans (A_eq m c 4)
theorem arrAtN_5 (c : Dev nD) : (dats m 0 c).arrAt 5 cfg0.N = V m c main_v2 := ((dats m 0 c).arrAt_in 5 rfl _).trans (A_eq m c 5)
theorem arrAtN_6 (c : Dev nD) : (dats m 0 c).arrAt 6 cfg0.N = V m c main_v6 := ((dats m 0 c).arrAt_in 6 rfl _).trans (A_eq m c 6)
theorem arrAtN_7 (c : Dev nD) : (dats m 0 c).arrAt 7 cfg0.N = V m c main_v9 := ((dats m 0 c).arrAt_in 7 rfl _).trans (A_eq m c 7)
theorem arrAtN_8 (c : Dev nD) : (dats m 0 c).arrAt 8 cfg0.N = V m c main_v13 := ((dats m 0 c).arrAt_in 8 rfl _).trans (A_eq m c 8)

/-- EXIT: the twelve windows' arrays at their final contents are the ten buffers at the valuation the region leaves, the halves joined. -/
theorem arrays_out (c : Dev nD) :
    (dats m 0 c).arrays ((dats m 0 c).arrAt · cfg0.N)
      ⊢ (Pipeline.arrBufs (Ix := Unit) (Name := ℕ) (U := UR sig nD τ) (Lvl := ℕ) spec0 c (fun b => Wr m c (Proc.devRef .tc b)) : sProp 𝕄) := by
  rw [arrBufs_chain, arrays_chain]
  simp only [arrAtN_0, arrAtN_1, arrAtN_2, arrAtN_3, arrAtN_4, arrAtN_5, arrAtN_6, arrAtN_7, arrAtN_8, Wr_v14_0, Wr_v14_1, Wr_v14_2,
    Wr_of_ne m c (Proc.devRef .tc main_arg0) (by decide) (by decide) (by decide), Wr_of_ne m c (Proc.devRef .tc main_arg1) (by decide) (by decide) (by decide),
    Wr_of_ne m c (Proc.devRef .tc main_arg2) (by decide) (by decide) (by decide), Wr_of_ne m c (Proc.devRef .tc main_v2) (by decide) (by decide) (by decide),
    Wr_of_ne m c (Proc.devRef .tc main_v6) (by decide) (by decide) (by decide), Wr_of_ne m c (Proc.devRef .tc main_v9) (by decide) (by decide) (by decide),
    Wr_of_ne m c (Proc.devRef .tc main_v13) (by decide) (by decide) (by decide)]
  iintro ⟨H0, H1l, H2l, H1r, H2r, H5, H6, H7, H8, H9, H10, H11⟩
  isplitl [H0]; · iexact H0
  isplitl [H1l H1r]
  · iapply (pointsTo_share (PosShare.mem_left_op_right fullShare)).2
    isplitl [H1l]; · iexact H1l
    iexact H1r
  isplitl [H2l H2r]
  · iapply (pointsTo_share (PosShare.mem_left_op_right fullShare)).2
    isplitl [H2l]; · iexact H2l
    iexact H2r
  isplitl [H5]; · iexact H5
  isplitl [H6]; · iexact H6
  isplitl [H7]; · iexact H7
  isplitl [H8]; · iexact H8
  isplitl [H9]; · iexact H9
  isplitl [H10]; · iexact H10
  iexact H11

/-- The buffers that are no window's array are untouched by the region. -/
theorem rest_out (c : Dev nD) :
    (Pipeline.unscopedRest (Ix := Unit) (Name := ℕ) (U := UR sig nD τ) (Lvl := ℕ) spec0 c (fun b => Wr m c (Proc.devRef .tc b)) : sProp 𝕄)
      = Pipeline.unscopedRest spec0 c (V m c) := by
  unfold Pipeline.unscopedRest
  refine bigSep_congr fun b hb => ?_
  have hb' := (Finset.mem_sdiff.mp hb).2
  dsimp only
  rw [Wr_of_ne m c (Proc.devRef .tc b)
    (fun e => hb' (Finset.mem_image.mpr ⟨9, Finset.mem_univ _, (Proc.devRef_injective (τ := τ) _ e).symm⟩))
    (fun e => hb' (Finset.mem_image.mpr ⟨10, Finset.mem_univ _, (Proc.devRef_injective (τ := τ) _ e).symm⟩))
    (fun e => hb' (Finset.mem_image.mpr ⟨11, Finset.mem_univ _, (Proc.devRef_injective (τ := τ) _ e).symm⟩))]

end Cert.KernelIdeal.Fr

end
-- ==== Proof.KernelIdealLaunch.lean ====
/-
  The launch: @main is the host's row sums and transposes, the mining region, and three stretches of host operations (the two means and
  the margins; the clip; the final mean). Each host stretch runs over the unscoped buffers held whole at a valuation; the region is entered
  by dealing the ten arrays to the twelve windows and left by gathering them. Every weakly fair execution terminates, and the final memory
  holds every unscoped buffer at the last stretch's valuation.
-/
import proofs.«127039_j10264971838200_2_alg».proof.Proof.KernelIdealBody
import proofs.«127039_j10264971838200_2_alg».proof.Proof.KernelIdealShares

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)
abbrev EP : Emb (UR sig nD τ) (MT nD τ sig Unit (Elt F) ℕ (UR sig nD τ) ℕ) := emb₁

/-- Core `c`'s buffers at launch. -/
abbrev W₀ (c : Dev nD) : Valuation τ sig (Elt F) := fun b => m (c, b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The valuations after each host stretch that follows the region. -/
abbrev W1 (c : Dev nD) : Valuation τ sig (Elt F) := StableHlo.after hostOps1 (Wr m c)
abbrev W2 (c : Dev nD) : Valuation τ sig (Elt F) := StableHlo.after hostOps1_1 (W1 m c)
abbrev W3 (c : Dev nD) : Valuation τ sig (Elt F) := StableHlo.after hostOps1_2 (W2 m c)

def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (List.forall_iff_forall_mem.mp hostOps0_fresh) (W₀ m) R
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (List.forall_iff_forall_mem.mp hostOps1_fresh) (Wr m) R
def seg2 : Pipeline.HostSeg (Name := ℕ) (U := UR sig nD τ) (pcfgs (F := F)) defs₀ 𝒱₀ L lv :=
  Pipeline.HostSeg.ofOps _ _ _ _ _ (Pipeline.ucRefs τ sig) hostOps1_1 (fun op h => Pipeline.sub_ucRefs op ((List.forall_iff_forall_mem.mp hostOps1_1_sub) op h))
    (List.forall_iff_forall_mem.mp hostOps1_1_fresh) (W1 m) R
def seg3 : Pipeline.HostSeg (Name := ℕ) (U := UR sig nD τ) (pcfgs (F := F)) defs₀ 𝒱₀ L lv :=
  Pipeline.HostSeg.ofOps _ _ _ _ _ (Pipeline.ucRefs τ sig) hostOps1_2 (fun op h => Pipeline.sub_ucRefs op ((List.forall_iff_forall_mem.mp hostOps1_2_sub) op h))
    (List.forall_iff_forall_mem.mp hostOps1_2_fresh) (W2 m) R

set_option backward.isDefEq.respectTransparency.types false in
/-- THE REGION, entered from every unscoped buffer at the valuation the first host stretch leaves, left with them at `Wr`. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (W₀ m c)) ∗ R c)
  post c := iprop(StableHlo.held (c : Thread nD τ) (Pipeline.ucRefs τ sig) (Wr m c) ∗ R c)
  X _ := BI.emp
  Y _ := BI.emp
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (W₀ m c)) = unscopedBufs c (V m c) from (Pipeline.unscopedBufs_held c _).symm,
      Pipeline.ownSems0_none, Pipeline.unscopedBufs_split₀ cfgs 0 winFacts₀0.arr_unscoped c (V m c)]
    iintro ⟨⟨⟨Hab, Hrest⟩, HO⟩, -, -⟩
    imodintro
    isplitl [Hab]; · iapply (arrays_in m c); iexact Hab
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [Phi_zero]
    iintro ⟨-, -, Hr⟩; iexact Hr
  hout c := by
    rw [Pipeline.ownSems0_none]
    refine (Phi_last m c).trans ?_
    iintro Hr
    isplitr; · iempintro
    isplitr; · iempintro
    iexact Hr
  hexit c := by
    rw [show StableHlo.held (c : Thread nD τ) (Pipeline.ucRefs τ sig) (Wr m c) = unscopedBufs c (fun b => Wr m c (Proc.devRef .tc b)) from (Pipeline.unscopedBufs_held c _).symm,
      Pipeline.unscopedBufs_split₀ cfgs 0 winFacts₀0.arr_unscoped c (fun b => Wr m c (Proc.devRef .tc b)), rest_out]
    iintro ⟨Ha, HO, -, Hrest⟩
    imodintro
    isplitr [HO]
    · isplitl [Ha]; · iapply (arrays_out m c); iexact Ha
      iexact Hrest
    · unfold Pipeline.Dat.owesAt Pipeline.owesWithin
      icases HO with ⟨%W, -, HO⟩; iexists W; iexact HO

/-- @main as the list of the five. -/
abbrev segs : List (Pipeline.Seg (pcfgs (F := F)) adm (dats m) () defs₀ 𝒱₀ L lv) :=
  [.host (seg0 m), .region (reg0 m), .host (seg1 m), .host (seg2 m), .host (seg3 m)]

/-- The launch element: the pipeline library's at the staging cells. -/
def u₀ : UR sig nD τ := initOf (Pipeline.cells (Pipeline.pin (pcfgs (F := F)) adm) cellOf_inj) (Pipeline.launchToks (Pipeline.pin (pcfgs (F := F)) adm) cellOf_inj)

/-- The physical post: every unscoped buffer at the last stretch's valuation. -/
def QC : PUnit × MemSt nD τ sig (Elt F) → Prop := fun r =>
  ∀ c : Dev nD, ∀ b ∈ Pipeline.ucRefs τ sig, r.2.mem ((c : Dev nD), b) = W3 m c b

set_option backward.isDefEq.respectTransparency.types false in
/-- At the compiled mesh, from any memory with zero counters: every weakly fair execution of @main terminates, nothing faulting, and
    every final state has each unscoped buffer at the valuation the last host stretch leaves. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [show main (F := F) c = Pipeline.Seg.run (segs m) from by rw [main_chain, Pipeline.Seg.run_eq_chain]; rfl])
    (by simp only [Pipeline.Seg.pipes_host, Pipeline.Seg.pipes_region, Pipeline.Seg.pipes_nil]; decide) (O₀ := 0) (hL := fun _ _ => rfl) (G := fun _ => iprop(emp)) (u₀ := u₀ (F := F))
    (hu₀ := by
      unfold u₀
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W₀ m c) ∗ R c))
    (Tₙ := fun c => StableHlo.held (c : Thread nD τ) (Pipeline.ucRefs τ sig) (W3 m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W₀ m c) from Pipeline.unscopedBufs_held c (W₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = W3 m c b)
    (hfin := fun c s' => by
      unfold StableHlo.held
      iintro ⟨Hh, HSI⟩
      ihave Hr := (pointsTo_read_all (Pipeline.ucRefs τ sig) (fun b => ((c : Dev nD), b)) (W3 m c) s') $$ [Hh HSI]
      · isplitl [Hh] <;> iassumption
      icases Hr with ⟨%h, HSI⟩
      imodintro
      isplitr; · ipureintro; exact h
      iexact HSI)
    (hQ := fun _ h => h)

end Cert.KernelIdeal.Fr

end
-- ==== Proof.KernelIdealFrameOf.lean ====
/-
  The frame: no host operation writes an argument array and the region's three written arrays are its results, so every argument array
  ends as it was launched.
-/
import proofs.«127039_j10264971838200_2_alg».proof.Proof.KernelIdealLaunch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation of this stretch writes an argument array. -/
theorem not_written_hostOps0 (b : Ref sig .tc) (hb : b = main_arg0 ∨ b = main_arg1 ∨ b = main_arg2) :
    ∀ op ∈ (hostOps0 : List (HloOp τ sig (Elt F))), Proc.devRef .tc b ∉ op.writes := by
  intro op hop
  simp only [hostOps0, List.mem_cons, List.mem_nil_iff, or_false] at hop
  rcases hb with rfl | rfl | rfl <;> rcases hop with rfl | rfl | rfl | rfl | rfl | rfl | rfl | rfl | rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;>
    exact StableHlo.devRef_ne_of_ne (by decide)

/-- No operation of this stretch writes an argument array. -/
theorem not_written_hostOps1 (b : Ref sig .tc) (hb : b = main_arg0 ∨ b = main_arg1 ∨ b = main_arg2) :
    ∀ op ∈ (hostOps1 : List (HloOp τ sig (Elt F))), Proc.devRef .tc b ∉ op.writes := by
  intro op hop
  simp only [hostOps1, List.mem_cons, List.mem_nil_iff, or_false] at hop
  rcases hb with rfl | rfl | rfl <;> rcases hop with rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;>
    exact StableHlo.devRef_ne_of_ne (by decide)

/-- No operation of this stretch writes an argument array. -/
theorem not_written_hostOps1_1 (b : Ref sig .tc) (hb : b = main_arg0 ∨ b = main_arg1 ∨ b = main_arg2) :
    ∀ op ∈ (hostOps1_1 : List (HloOp τ sig (Elt F))), Proc.devRef .tc b ∉ op.writes := by
  intro op hop
  simp only [hostOps1_1, List.mem_cons, List.mem_nil_iff, or_false] at hop
  rcases hb with rfl | rfl | rfl <;> rcases hop with rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;>
    exact StableHlo.devRef_ne_of_ne (by decide)

/-- No operation of this stretch writes an argument array. -/
theorem not_written_hostOps1_2 (b : Ref sig .tc) (hb : b = main_arg0 ∨ b = main_arg1 ∨ b = main_arg2) :
    ∀ op ∈ (hostOps1_2 : List (HloOp τ sig (Elt F))), Proc.devRef .tc b ∉ op.writes := by
  intro op hop
  simp only [hostOps1_2, List.mem_cons, List.mem_nil_iff, or_false] at hop
  rcases hb with rfl | rfl | rfl <;> rcases hop with rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;>
    exact StableHlo.devRef_ne_of_ne (by decide)

/-- An argument array's buffer holds its launch contents in the last valuation. -/
theorem W3_arg (c : Dev nD) (b : Ref sig .tc) (hb : b = main_arg0 ∨ b = main_arg1 ∨ b = main_arg2) :
    W3 m c (Proc.devRef .tc b) = m ((c : Thread nD τ).loc b) := by
  have h3 := StableHlo.after_of_forall_not_mem (b := Proc.devRef .tc b) hostOps1_2 (W2 m c) (not_written_hostOps1_2 b hb)
  have h2 := StableHlo.after_of_forall_not_mem (b := Proc.devRef .tc b) hostOps1_1 (W1 m c) (not_written_hostOps1_1 b hb)
  have h1 := StableHlo.after_of_forall_not_mem (b := Proc.devRef .tc b) hostOps1 (Wr m c) (not_written_hostOps1 b hb)
  have hr : Wr m c (Proc.devRef .tc b) = V0 m c (Proc.devRef .tc b) := by
    rcases hb with rfl | rfl | rfl <;> exact Wr_of_ne m c _ (by decide) (by decide) (by decide)
  have h0 := StableHlo.after_of_forall_not_mem (b := Proc.devRef .tc b) hostOps0 (W₀ m c) (not_written_hostOps0 b hb)
  exact h3.trans (h2.trans (h1.trans (hr.trans h0)))

theorem ucRefs_arg0 : (Proc.devRef .tc main_arg0 : DevRef τ sig) ∈ Pipeline.ucRefs τ sig := by decide
theorem ucRefs_arg1 : (Proc.devRef .tc main_arg1 : DevRef τ sig) ∈ Pipeline.ucRefs τ sig := by decide
theorem ucRefs_arg2 : (Proc.devRef .tc main_arg2 : DevRef τ sig) ∈ Pipeline.ucRefs τ sig := by decide
theorem ucRefs_v30 : (Proc.devRef .tc main_v30 : DevRef τ sig) ∈ Pipeline.ucRefs τ sig := by decide

/-- THE FRAME: every weakly fair execution of @main terminates, nothing faulting, with the three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ ucRefs_arg0).trans (W3_arg m c main_arg0 (.inl rfl)),
     (h c _ ucRefs_arg1).trans (W3_arg m c main_arg1 (.inr (.inl rfl))),
     (h c _ ucRefs_arg2).trans (W3_arg m c main_arg2 (.inr (.inr rfl)))⟩) (run_main m ρ)

end Cert.KernelIdeal.Fr

end
-- ==== Proof.MineTile0.lean ====
/-
  Row (or column) number 512·i + r of 4096, for a tile number i and a position r inside the tile. Stated with a remainder so that it is a
  function of any natural number i; for i < 8 the remainder changes nothing.
-/
import Mathlib.Data.Fin.Basic
import Mathlib.Tactic

namespace Cert.Mine

def tile (i : ℕ) (r : Fin 512) : Fin 4096 := ⟨(512 * i + r.val) % 4096, Nat.mod_lt _ (by decide)⟩

theorem tile_val (i : ℕ) (hi : i < 8) (r : Fin 512) : (tile i r).val = 512 * i + r.val := by
  have := r.isLt
  show (512 * i + r.val) % 4096 = _
  omega

end Cert.Mine
-- ==== Proof.KernelIdealBlocks.lean ====
/-
  Each window's block at a grid point, read at an index, is its array at the block's offset: at point t = 8·i + j the anchor, positive and
  negative row tiles and the three result columns are row block i, the positive and negative column tiles are row block j, and the four
  row-sum vectors' tiles are column block j.
-/
import proofs.«127039_j10264971838200_2_alg».proof.Proof.KernelIdealData
import proofs.«127039_j10264971838200_2_alg».proof.Proof.MineTile0
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx
open Cert.Mine (tile)

theorem hN64 (t : Fin cfg0.N) : t.val < 64 := lt_of_lt_of_eq t.isLt N_0
theorem div8_lt (t : Fin cfg0.N) : t.val / 8 < 8 := by have : t.val < 64 := lt_of_lt_of_eq t.isLt N_0; omega
theorem mod8_lt (t : Fin cfg0.N) : t.val % 8 < 8 := Nat.mod_lt _ (by decide)

/-- The printed index maps, decided over the grid. -/
theorem idx_facts : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_9.index t (0 : Fin 2) = t.val / 8 ∧ win0_9.index t (1 : Fin 2) = 0
    ∧ win0_10.index t (0 : Fin 2) = t.val / 8 ∧ win0_10.index t (1 : Fin 2) = 0
    ∧ win0_11.index t (0 : Fin 2) = t.val / 8 ∧ win0_11.index t (1 : Fin 2) = 0
    ∧ win0_3.index t (0 : Fin 2) = t.val % 8 ∧ win0_3.index t (1 : Fin 2) = 0
    ∧ win0_4.index t (0 : Fin 2) = t.val % 8 ∧ win0_4.index t (1 : Fin 2) = 0
    ∧ win0_5.index t (0 : Fin 2) = 0 ∧ win0_5.index t (1 : Fin 2) = t.val % 8
    ∧ win0_6.index t (0 : Fin 2) = 0 ∧ win0_6.index t (1 : Fin 2) = t.val % 8
    ∧ win0_7.index t (0 : Fin 2) = 0 ∧ win0_7.index t (1 : Fin 2) = t.val % 8
    ∧ win0_8.index t (0 : Fin 2) = 0 ∧ win0_8.index t (1 : Fin 2) = t.val % 8 :=
  (by decide +kernel : ∀ t : Fin grid0.N, _)

/-- Window 0's block is rows 512·i … of its array. -/
theorem iblk0_apply (c : Dev nD) (t : Fin cfg0.N) (r : Fin 512) (k : Fin 1024) :
    iblk m c 0 t (ix2 r k) = V m c main_arg0 (ix2 (tile (t.val / 8) r) k) := by
  have hf := idx_facts t
  have hN := hN64 t
  have hr := r.isLt
  show V m c main_arg0 (((cfg0.win 0).blk t).view.emb (ix2 r k)) = _
  refine congrArg (V m c main_arg0) (funext fun a => Fin.ext ?_)
  match a with
  | ⟨0, _⟩ => show win0_0.index t (0 : Fin 2) * 512 + 1 * r.val = (512 * (t.val / 8) + r.val) % 4096; omega
  | ⟨1, _⟩ => show win0_0.index t (1 : Fin 2) * 1024 + 1 * k.val = k.val; omega

/-- Window 1's block is rows 512·i … of its array. -/
theorem iblk1_apply (c : Dev nD) (t : Fin cfg0.N) (r : Fin 512) (k : Fin 1024) :
    iblk m c 1 t (ix2 r k) = V m c main_arg1 (ix2 (tile (t.val / 8) r) k) := by
  have hf := idx_facts t
  have hN := hN64 t
  have hr := r.isLt
  show V m c main_arg1 (((cfg0.win 1).blk t).view.emb (ix2 r k)) = _
  refine congrArg (V m c main_arg1) (funext fun a => Fin.ext ?_)
  match a with
  | ⟨0, _⟩ => show win0_1.index t (0 : Fin 2) * 512 + 1 * r.val = (512 * (t.val / 8) + r.val) % 4096; omega
  | ⟨1, _⟩ => show win0_1.index t (1 : Fin 2) * 1024 + 1 * k.val = k.val; omega

/-- Window 2's block is rows 512·i … of its array. -/
theorem iblk2_apply (c : Dev nD) (t : Fin cfg0.N) (r : Fin 512) (k : Fin 1024) :
    iblk m c 2 t (ix2 r k) = V m c main_arg2 (ix2 (tile (t.val / 8) r) k) := by
  have hf := idx_facts t
  have hN := hN64 t
  have hr := r.isLt
  show V m c main_arg2 (((cfg0.win 2).blk t).view.emb (ix2 r k)) = _
  refine congrArg (V m c main_arg2) (funext fun a => Fin.ext ?_)
  match a with
  | ⟨0, _⟩ => show win0_2.index t (0 : Fin 2) * 512 + 1 * r.val = (512 * (t.val / 8) + r.val) % 4096; omega
  | ⟨1, _⟩ => show win0_2.index t (1 : Fin 2) * 1024 + 1 * k.val = k.val; omega

/-- Window 3's block is rows 512·j … of its array (a column tile of the distance matrix). -/
theorem iblk3_apply (c : Dev nD) (t : Fin cfg0.N) (cc : Fin 512) (k : Fin 1024) :
    iblk m c 3 t (ix2 cc k) = V m c main_arg1 (ix2 (tile (t.val % 8) cc) k) := by
  have hf := idx_facts t
  have hN := hN64 t
  have hr := cc.isLt
  show V m c main_arg1 (((cfg0.win 3).blk t).view.emb (ix2 cc k)) = _
  refine congrArg (V m c main_arg1) (funext fun a => Fin.ext ?_)
  match a with
  | ⟨0, _⟩ => show win0_3.index t (0 : Fin 2) * 512 + 1 * cc.val = (512 * (t.val % 8) + cc.val) % 4096; omega
  | ⟨1, _⟩ => show win0_3.index t (1 : Fin 2) * 1024 + 1 * k.val = k.val; omega

/-- Window 4's block is rows 512·j … of its array (a column tile of the distance matrix). -/
theorem iblk4_apply (c : Dev nD) (t : Fin cfg0.N) (cc : Fin 512) (k : Fin 1024) :
    iblk m c 4 t (ix2 cc k) = V m c main_arg2 (ix2 (tile (t.val % 8) cc) k) := by
  have hf := idx_facts t
  have hN := hN64 t
  have hr := cc.isLt
  show V m c main_arg2 (((cfg0.win 4).blk t).view.emb (ix2 cc k)) = _
  refine congrArg (V m c main_arg2) (funext fun a => Fin.ext ?_)
  match a with
  | ⟨0, _⟩ => show win0_4.index t (0 : Fin 2) * 512 + 1 * cc.val = (512 * (t.val % 8) + cc.val) % 4096; omega
  | ⟨1, _⟩ => show win0_4.index t (1 : Fin 2) * 1024 + 1 * k.val = k.val; omega

/-- Window 5's block is columns 512·j … of its [1, 4096] array. -/
theorem iblk5_apply (c : Dev nD) (t : Fin cfg0.N) (z : Fin 1) (cc : Fin 512) :
    iblk m c 5 t (ix2 z cc) = V m c main_v2 (ix2 z (tile (t.val % 8) cc)) := by
  have hf := idx_facts t
  have hN := hN64 t
  have hr := cc.isLt
  show V m c main_v2 (((cfg0.win 5).blk t).view.emb (ix2 z cc)) = _
  refine congrArg (V m c main_v2) (funext fun a => Fin.ext ?_)
  match a with
  | ⟨0, _⟩ => show win0_5.index t (0 : Fin 2) * 1 + 1 * z.val = z.val; omega
  | ⟨1, _⟩ => show win0_5.index t (1 : Fin 2) * 512 + 1 * cc.val = (512 * (t.val % 8) + cc.val) % 4096; omega

/-- Window 6's block is columns 512·j … of its [1, 4096] array. -/
theorem iblk6_apply (c : Dev nD) (t : Fin cfg0.N) (z : Fin 1) (cc : Fin 512) :
    iblk m c 6 t (ix2 z cc) = V m c main_v6 (ix2 z (tile (t.val % 8) cc)) := by
  have hf := idx_facts t
  have hN := hN64 t
  have hr := cc.isLt
  show V m c main_v6 (((cfg0.win 6).blk t).view.emb (ix2 z cc)) = _
  refine congrArg (V m c main_v6) (funext fun a => Fin.ext ?_)
  match a with
  | ⟨0, _⟩ => show win0_6.index t (0 : Fin 2) * 1 + 1 * z.val = z.val; omega
  | ⟨1, _⟩ => show win0_6.index t (1 : Fin 2) * 512 + 1 * cc.val = (512 * (t.val % 8) + cc.val) % 4096; omega

/-- Window 7's block is columns 512·j … of its [1, 4096] array. -/
theorem iblk7_apply (c : Dev nD) (t : Fin cfg0.N) (z : Fin 1) (cc : Fin 512) :
    iblk m c 7 t (ix2 z cc) = V m c main_v9 (ix2 z (tile (t.val % 8) cc)) := by
  have hf := idx_facts t
  have hN := hN64 t
  have hr := cc.isLt
  show V m c main_v9 (((cfg0.win 7).blk t).view.emb (ix2 z cc)) = _
  refine congrArg (V m c main_v9) (funext fun a => Fin.ext ?_)
  match a with
  | ⟨0, _⟩ => show win0_7.index t (0 : Fin 2) * 1 + 1 * z.val = z.val; omega
  | ⟨1, _⟩ => show win0_7.index t (1 : Fin 2) * 512 + 1 * cc.val = (512 * (t.val % 8) + cc.val) % 4096; omega

/-- Window 8's block is columns 512·j … of its [1, 4096] array. -/
theorem iblk8_apply (c : Dev nD) (t : Fin cfg0.N) (z : Fin 1) (cc : Fin 512) :
    iblk m c 8 t (ix2 z cc) = V m c main_v13 (ix2 z (tile (t.val % 8) cc)) := by
  have hf := idx_facts t
  have hN := hN64 t
  have hr := cc.isLt
  show V m c main_v13 (((cfg0.win 8).blk t).view.emb (ix2 z cc)) = _
  refine congrArg (V m c main_v13) (funext fun a => Fin.ext ?_)
  match a with
  | ⟨0, _⟩ => show win0_8.index t (0 : Fin 2) * 1 + 1 * z.val = z.val; omega
  | ⟨1, _⟩ => show win0_8.index t (1 : Fin 2) * 512 + 1 * cc.val = (512 * (t.val % 8) + cc.val) % 4096; omega

end Cert.KernelIdeal.Fr

end
-- ==== Proof.MineSpec.lean ====
/-
  The mathematics both programs compute, over the extended reals, index by index.

  For rows x, y of length 1024 and the three literals ε = f32(1e-6), 2ε' = f32(2e-6), δ = f32(1.024e-9) (each its exact binary
  value), two squared distances are formed: the direct one  Σ_k (x_k − y_k + ε)²  and the expanded one
  Σ x² + Σ y² − 2·Σ x·y + 2ε'·(Σ x − Σ y) + δ.

  One program mines in SQUARED space: for anchor row i it takes the largest expanded squared distance to a negative row that lies below the
  direct squared distance to its own positive row (and the smallest one to a positive row that lies above the direct squared distance to its own negative row), and only
  then takes the root of the positive part, with 0 when nothing qualified.  The other takes roots first and mines the roots.
  Both then form the same mean of clipped margins.
-/
import Idealize.ShloMosaic.PureOps.Ideal
import Idealize.ShloMosaic.Lib.ValueIdx

noncomputable section

namespace Cert.Mine

open Idealize.ShloMosaic

/-- A row of 1024 extended reals, and a matrix of 4096 such rows. -/
abbrev Row := Fin 1024 → EReal
abbrev Mat := Fin 4096 → Row

/-- A [4096, 1024] array read as a matrix of rows. -/
def mat (x : (⟨2, ![4096, 1024]⟩ : Shape).Idx → EReal) : Mat := fun i k => x (ValueIdx.ix2 i k)

/-- The literals, at their exact binary values. -/
def eps : EReal := Ideal.ofBits .f32 0x358637BD#32
def twoEps : EReal := Ideal.ofBits .f32 0x360637BD#32
def dEps2 : EReal := Ideal.ofBits .f32 0x308CBCCC#32
def two : EReal := Ideal.ofBits .f32 0x40000000#32
def half : EReal := Ideal.ofBits .f32 0x3F000000#32
def one : EReal := Ideal.ofBits .f32 0x3F800000#32
def nRows : EReal := Ideal.ofBits .f32 0x45800000#32

/-- The direct squared distance of the shifted difference. -/
def rowSq (x y : Row) : EReal := ∑ k, (x k - y k + eps) * (x k - y k + eps)

/-- The expanded squared distance. -/
def expSq (x y : Row) : EReal :=
  (∑ k, x k * x k) + (∑ k, y k * y k) - two * (∑ k, x k * y k) + twoEps * ((∑ k, x k) - (∑ k, y k)) + dEps2

/-- The root of the positive part. -/
def root (x : EReal) : EReal := Ideal.sqrt (max x 0)

/-! ## Mining in squared space -/

def dapK (a p : Mat) (i : Fin 4096) : EReal := Ideal.sqrt (max (rowSq (a i) (p i)) 0)

def accNeg (a p n : Mat) (i : Fin 4096) : EReal :=
  Finset.univ.sup fun j : Fin 4096 => if expSq (a i) (n j) < rowSq (a i) (p i) then expSq (a i) (n j) else ⊥

def hardNegK (a p n : Mat) (i : Fin 4096) : EReal :=
  if accNeg a p n i = ⊥ then 0 else root (accNeg a p n i)

def accPos (a p n : Mat) (i : Fin 4096) : EReal :=
  Finset.univ.inf fun j : Fin 4096 => if rowSq (a i) (n i) < expSq (a i) (p j) then expSq (a i) (p j) else ⊤

def hardPosK (a p n : Mat) (i : Fin 4096) : EReal :=
  if accPos a p n i = ⊤ then 0 else root (accPos a p n i)

/-! ## Mining the roots -/

def dapR (a p : Mat) (i : Fin 4096) : EReal := Ideal.sqrt (rowSq (a i) (p i))

def hardNegR (a p n : Mat) (i : Fin 4096) : EReal :=
  if ∃ j : Fin 4096, root (expSq (a i) (n j)) < dapR a p i then
    Finset.univ.sup fun j : Fin 4096 => if root (expSq (a i) (n j)) < dapR a p i then root (expSq (a i) (n j)) else ⊥
  else 0

def hardPosR (a p n : Mat) (i : Fin 4096) : EReal :=
  if ∃ j : Fin 4096, Ideal.sqrt (rowSq (a i) (n i)) < root (expSq (a i) (p j)) then
    Finset.univ.inf fun j : Fin 4096 => if Ideal.sqrt (rowSq (a i) (n i)) < root (expSq (a i) (p j)) then root (expSq (a i) (p j)) else ⊤
  else 0

/-! ## The mean of clipped margins, common to both -/

def loss (dap hn hp : Fin 4096 → EReal) : EReal :=
  Ideal.div (∑ i, max 0 (dap i - half * Ideal.div (∑ i, hp i) nRows - half * Ideal.div (∑ i, hn i) nRows + one)) nRows

def lossK (a p n : Mat) : EReal := loss (dapK a p) (hardNegK a p n) (hardPosK a p n)
def lossR (a p n : Mat) : EReal := loss (dapR a p) (hardNegR a p n) (hardPosR a p n)

end Cert.Mine

end
-- ==== Proof.KernelIdealHost.lean ====
/-
  The host operations before the region, read at an index over the extended reals.

  For each of the two candidate matrices y (4096 rows of length 1024) the program forms the row sums Σ_k y_qk and the row sums of squares
  Σ_k y_qk², each as a reduce-add from the constant zero over the second axis, kept as a [4096, 1] column and then laid out as a [1, 4096]
  row; the three argument matrices themselves reach the region untouched.  The constant zero a sum starts from is the additive identity, and
  the broadcast to a column and the transpose to a row move entries without changing them, so entry q of each row is the plain finite sum
  over row q.
-/
import proofs.«127039_j10264971838200_2_alg».proof.Proof.KernelIdealRuns
import proofs.«127039_j10264971838200_2_alg».proof.Proof.MineSpec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open scoped BigOperators

/-! ## A transposed row sum read at an index -/

/-- A row sum, kept as a column, then laid as a row: reduce-add from the zero constant over the second axis of a [4096, 1024] array,
    broadcast to [4096, 1], transposed to [1, 4096], read at column `q`, is the sum of row `q`. -/
theorem rowSumT (x : FVec Ideal S4096x1024 .f32) (h1 : S4096x1024.ReducesTo [1] S4096) (h0 : 0 < S_.numel)
    (hb : S4096.BroadcastsInDim S4096x1 (![0] : Fin 1 → Fin S4096x1.rank)) (ht : S4096x1.Transposes [1, 0] S1x4096)
    (z : Fin 1) (q : Fin 4096) :
    transpose S1x4096 [1, 0] (broadcastInDim S4096x1 ![0] hb (Host.reduceAdd x (constant (F := Ideal) S_ .f32 0x00000000#32) h1 h0)) ht (ix2 z q)
      = ∑ k : Fin 1024, x (ix2 q k) := by
  refine (transpose_apply [1, 0] _ ht (ix2 z q) (ix2 q z) ?_).trans ?_
  · intro b; match b with
    | ⟨0, _⟩ => rfl
    | ⟨1, _⟩ => rfl
  refine (broadcastInDim_apply ![0] hb _ (ix2 q z) (ix1 q) ?_).trans ?_
  · intro a; match a with
    | ⟨0, _⟩ => rfl
  have hr : S4096x1024.Reduces [1] S4096 := by decide
  refine (hostReduceAdd_apply x _ h1 h0 (ix1 q)).trans ?_
  refine (Ideal.hostReduceAdd_single h1 hr x _ (ix1 q)).trans ?_
  rw [constant_apply, Ideal.ofBits_zero_f32, zero_add]
  refine Finset.sum_congr rfl fun k _ => congrArg x ?_
  funext a; match a with
    | ⟨0, _⟩ => rfl
    | ⟨1, _⟩ => rfl

/-! ## The buffers the region finds -/

variable (m : (ℓ : Loc nD τ sig) → Buf (Elt Ideal) ℓ)

/-- No host operation before the region writes `main_arg0`: the region finds the launch contents there. -/
theorem V_arg0 (c : Dev nD) : V m c main_arg0 = m ((c : Thread nD τ).loc main_arg0) := by
  show StableHlo.after hostOps0 (fun b => m (c, b)) (Proc.devRef .tc main_arg0) = _
  after_results

/-- No host operation before the region writes `main_arg1`: the region finds the launch contents there. -/
theorem V_arg1 (c : Dev nD) : V m c main_arg1 = m ((c : Thread nD τ).loc main_arg1) := by
  show StableHlo.after hostOps0 (fun b => m (c, b)) (Proc.devRef .tc main_arg1) = _
  after_results

/-- No host operation before the region writes `main_arg2`: the region finds the launch contents there. -/
theorem V_arg2 (c : Dev nD) : V m c main_arg2 = m ((c : Thread nD τ).loc main_arg2) := by
  show StableHlo.after hostOps0 (fun b => m (c, b)) (Proc.devRef .tc main_arg2) = _
  after_results

/-- Entry `q` of the row the region finds in `main_v2` is the sum of row `q` of `main_arg1`. -/
theorem V_v2 (c : Dev nD) (z : Fin 1) (q : Fin 4096) :
    V m c main_v2 (ix2 z q) = ∑ k : Fin 1024, Cert.Mine.mat (m ((c : Thread nD τ).loc main_arg1)) q k := by
  have e : (V m c main_v2 : S1x4096.Idx → EReal)
      = transpose S1x4096 [1, 0] (broadcastInDim S4096x1 ![0] bcast_S4096_S4096x1_0
          (Host.reduceAdd (m ((c : Thread nD τ).loc main_arg1) : FVec Ideal S4096x1024 .f32)
            (constant (F := Ideal) S_ .f32 0x00000000#32) reducesTo_S4096x1024_S4096_d1 h_S_))
          transposes_S4096x1_S1x4096_1_0 := by
    show StableHlo.after hostOps0 (fun b => m (c, b)) (Proc.devRef .tc main_v2) = _
    after_results
  exact (congrFun e _).trans ((rowSumT _ _ _ _ _ z q).trans (Finset.sum_congr rfl fun k _ => rfl))

/-- Entry `q` of the row the region finds in `main_v6` is the sum of squares of row `q` of `main_arg1`. -/
theorem V_v6 (c : Dev nD) (z : Fin 1) (q : Fin 4096) :
    V m c main_v6 (ix2 z q) = ∑ k : Fin 1024, Cert.Mine.mat (m ((c : Thread nD τ).loc main_arg1)) q k * Cert.Mine.mat (m ((c : Thread nD τ).loc main_arg1)) q k := by
  have e : (V m c main_v6 : S1x4096.Idx → EReal)
      = transpose S1x4096 [1, 0] (broadcastInDim S4096x1 ![0] bcast_S4096_S4096x1_0
          (Host.reduceAdd (mulf (m ((c : Thread nD τ).loc main_arg1) : FVec Ideal S4096x1024 .f32) (m ((c : Thread nD τ).loc main_arg1) : FVec Ideal S4096x1024 .f32))
            (constant (F := Ideal) S_ .f32 0x00000000#32) reducesTo_S4096x1024_S4096_d1 h_S_))
          transposes_S4096x1_S1x4096_1_0 := by
    show StableHlo.after hostOps0 (fun b => m (c, b)) (Proc.devRef .tc main_v6) = _
    after_results
  exact (congrFun e _).trans ((rowSumT _ _ _ _ _ z q).trans (Finset.sum_congr rfl fun k _ => rfl))

/-- Entry `q` of the row the region finds in `main_v9` is the sum of row `q` of `main_arg2`. -/
theorem V_v9 (c : Dev nD) (z : Fin 1) (q : Fin 4096) :
    V m c main_v9 (ix2 z q) = ∑ k : Fin 1024, Cert.Mine.mat (m ((c : Thread nD τ).loc main_arg2)) q k := by
  have e : (V m c main_v9 : S1x4096.Idx → EReal)
      = transpose S1x4096 [1, 0] (broadcastInDim S4096x1 ![0] bcast_S4096_S4096x1_0
          (Host.reduceAdd (m ((c : Thread nD τ).loc main_arg2) : FVec Ideal S4096x1024 .f32)
            (constant (F := Ideal) S_ .f32 0x00000000#32) reducesTo_S4096x1024_S4096_d1 h_S_))
          transposes_S4096x1_S1x4096_1_0 := by
    show StableHlo.after hostOps0 (fun b => m (c, b)) (Proc.devRef .tc main_v9) = _
    after_results
  exact (congrFun e _).trans ((rowSumT _ _ _ _ _ z q).trans (Finset.sum_congr rfl fun k _ => rfl))

/-- Entry `q` of the row the region finds in `main_v13` is the sum of squares of row `q` of `main_arg2`. -/
theorem V_v13 (c : Dev nD) (z : Fin 1) (q : Fin 4096) :
    V m c main_v13 (ix2 z q) = ∑ k : Fin 1024, Cert.Mine.mat (m ((c : Thread nD τ).loc main_arg2)) q k * Cert.Mine.mat (m ((c : Thread nD τ).loc main_arg2)) q k := by
  have e : (V m c main_v13 : S1x4096.Idx → EReal)
      = transpose S1x4096 [1, 0] (broadcastInDim S4096x1 ![0] bcast_S4096_S4096x1_0
          (Host.reduceAdd (mulf (m ((c : Thread nD τ).loc main_arg2) : FVec Ideal S4096x1024 .f32) (m ((c : Thread nD τ).loc main_arg2) : FVec Ideal S4096x1024 .f32))
            (constant (F := Ideal) S_ .f32 0x00000000#32) reducesTo_S4096x1024_S4096_d1 h_S_))
          transposes_S4096x1_S1x4096_1_0 := by
    show StableHlo.after hostOps0 (fun b => m (c, b)) (Proc.devRef .tc main_v13) = _
    after_results
  exact (congrFun e _).trans ((rowSumT _ _ _ _ _ z q).trans (Finset.sum_congr rfl fun k _ => rfl))

end Cert.KernelIdeal.Fr

end
-- ==== Proof.KernelIdealPay0.lean ====
/-
  Layout and reduction operations of a keepdims row statistic, read at an index: a length-a vector cast to an a × 1 column,
  an a × 1 column broadcast along rows to a × b, and the sum (maximum, minimum) over the second axis of an a × b matrix.
-/
import proofs.«127039_j10264971838200_2_alg».proof.Proof.Gen.KernelIdeal.Skeleton
import proofs.«127039_j10264971838200_2_alg».proof.Proof.MineSpec
import Idealize.ShloMosaic.Lib.ValueIdx
import Idealize.ShloMosaic.Lib.Pipeline.Value
import Idealize.ShloMosaic.Lib.ValueLayout
import Idealize.ShloMosaic.PureOps.Ideal.Laws

noncomputable section

namespace Cert.Mine.Pay

open Idealize.ShloMosaic Idealize.ShloMosaic.ValueIdx

variable {α : Type}

/-- A length-a vector cast to an a × 1 column reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column broadcast to a × b reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row r with column k inserted is (r, k). -/
theorem lift_ix1 {a b : ℕ} (h : (⟨2, ![a, b]⟩ : Shape).Reduces [1] ⟨1, ![a]⟩) (r : Fin a) (k : Fin b) :
    h.lift (ix1 r) k = ix2 r k := by
  funext c
  apply Fin.ext
  show h.liftVal (ix1 r) k.val c = (ix2 r k c).val
  unfold Shape.Reduces.liftVal
  match c with
  | ⟨0, _⟩ => rfl
  | ⟨1, _⟩ => rfl

/-- The sum over the second axis, at row r, is the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_ix1 h r k)

end Cert.Mine.Pay

end
-- ==== Proof.KernelIdealPay1.lean ====
/-
  The kernel's row statistics read at an index: the direct squared distance of a row pair (a sum over the 1024 columns of the
  squared shifted difference), its root, the row's sum of squares and plain sum, the two accumulators' initial values, and the
  final roots of the mined squared distances.
-/
import proofs.«127039_j10264971838200_2_alg».proof.Proof.KernelIdealPay0

noncomputable section

namespace Cert.Mine.Pay

open Idealize.ShloMosaic Idealize.ShloMosaic.ValueIdx
open Cert.KernelIdeal Cert.KernelIdeal.Gen

/-! ## A: the direct squared distance and its root -/

theorem pay4_apply (a p : Vec Ideal S512x1024 .f32) (r : Fin 512) (z : Fin 1) :
    k0_pay4 (F := Ideal) a p (ix2 r z)
      = ∑ k : Fin 1024, (a (ix2 r k) - p (ix2 r k) + eps) * (a (ix2 r k) - p (ix2 r k) + eps) := by
  unfold k0_pay4
  refine (shapeCast_a_a1_apply _ _ r z).trans ?_
  refine (rowSum_apply _ _ _ _ _ r).trans ?_
  rfl

theorem pay5_eq (a p : Vec Ideal S512x1024 .f32) : k0_pay5 (F := Ideal) a p = k0_pay4 (F := Ideal) a p := by
  unfold k0_pay5
  exact shapeCast_self _ _

theorem pay6_apply (a p : Vec Ideal S512x1024 .f32) (r : Fin 512) (z : Fin 1) :
    k0_pay6 (F := Ideal) a p (ix2 r z) = Ideal.sqrt (max (k0_pay4 (F := Ideal) a p (ix2 r z)) 0) := by
  unfold k0_pay6
  show Ideal.sqrt (max (k0_pay4 (F := Ideal) a p (ix2 r z)) (Ideal.ofBits .f32 0x00000000#32)) = _
  rw [Ideal.ofBits_zero_f32]

theorem pay7_apply (a n : Vec Ideal S512x1024 .f32) (r : Fin 512) (z : Fin 1) :
    k0_pay7 (F := Ideal) a n (ix2 r z)
      = ∑ k : Fin 1024, (a (ix2 r k) - n (ix2 r k) + eps) * (a (ix2 r k) - n (ix2 r k) + eps) := by
  unfold k0_pay7
  rw [shapeCast_self]
  refine (shapeCast_a_a1_apply _ _ r z).trans ?_
  refine (rowSum_apply _ _ _ _ _ r).trans ?_
  rfl

end Cert.Mine.Pay

end
-- ==== Proof.KernelIdealPay2.lean ====
/-
  More row statistics read at an index: a row's sum of squares and plain sum, the initial values of the two mining accumulators
  (−∞ for the running maximum, +∞ for the running minimum), and the final roots: 0 where the accumulator still holds its initial
  value, otherwise the root of the positive part of the mined squared distance.
-/
import proofs.«127039_j10264971838200_2_alg».proof.Proof.KernelIdealPay0

noncomputable section

namespace Cert.Mine.Pay

open Idealize.ShloMosaic Idealize.ShloMosaic.ValueIdx
open Cert.KernelIdeal Cert.KernelIdeal.Gen

/-! ## B: sums of a row, and the accumulators' initial values -/

theorem pay8_apply (a : Vec Ideal S512x1024 .f32) (r : Fin 512) (z : Fin 1) :
    k0_pay8 (F := Ideal) a (ix2 r z) = ∑ k : Fin 1024, a (ix2 r k) * a (ix2 r k) := by
  unfold k0_pay8
  rw [shapeCast_self]
  refine (shapeCast_a_a1_apply _ _ r z).trans ?_
  refine (rowSum_apply _ _ _ _ _ r).trans ?_
  rfl

theorem pay10_pay9_apply (a : Vec Ideal S512x1024 .f32) (r : Fin 512) (z : Fin 1) :
    k0_pay10 (F := Ideal) (k0_pay9 (F := Ideal) a) (ix2 r z) = ∑ k : Fin 1024, a (ix2 r k) := by
  unfold k0_pay10 k0_pay9
  rw [shapeCast_self]
  refine (shapeCast_a_a1_apply _ _ r z).trans ?_
  exact rowSum_apply _ _ _ _ _ r

theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]

theorem pay11_apply (r : Fin 512) (z : Fin 1) : k0_pay11 (F := Ideal) (ix2 r z) = ⊥ := by
  unfold k0_pay11
  rw [shapeCast_self]
  exact ofBits_negInf

theorem pay12_apply (r : Fin 512) (z : Fin 1) : k0_pay12 (F := Ideal) (ix2 r z) = ⊤ := by
  unfold k0_pay12
  rw [shapeCast_self]
  exact ofBits_posInf

/-! ## F: the final roots -/

/-- The ordered-equal comparison of two extended reals is 1 exactly when they are equal. -/
theorem cmp_oeq_eq_one (x y : EReal) : Ideal.cmp .oeq x y = 1#1 ↔ x = y := by
  unfold Ideal.cmp
  by_cases h : x = y <;> simp [h]

/-- A select on the ordered-equal comparison is the `if` on equality. -/
theorem select_cmp_oeq {α : Type} (x y : EReal) (A B : α) :
    Scalar.select (Ideal.cmp .oeq x y) A B = if x = y then A else B := by
  unfold Scalar.select
  by_cases h : x = y
  · exact (if_pos (show Ideal.cmp .oeq x y = 1 from (cmp_oeq_eq_one x y).mpr h)).trans (if_pos h).symm
  · exact (if_neg (show ¬ Ideal.cmp .oeq x y = 1 from fun hc => h ((cmp_oeq_eq_one x y).mp hc))).trans (if_neg h).symm

theorem pay2_apply (v78 v81 : Vec Ideal S512x1 .f32) (r : Fin 512) (z : Fin 1) :
    k0_pay2 (F := Ideal) v78 v81 (ix2 r z)
      = if v78 (ix2 r z) = ⊥ then 0 else Ideal.sqrt (max (v81 (ix2 r z)) 0) := by
  unfold k0_pay2
  show Scalar.select (Ideal.cmp .oeq (v78 (ix2 r z)) (Ideal.ofBits .f32 0xFF800000#32)) (Ideal.ofBits .f32 0x00000000#32)
      (Ideal.sqrt (max (v81 (ix2 r z)) (Ideal.ofBits .f32 0x00000000#32))) = _
  rw [ofBits_negInf, Ideal.ofBits_zero_f32]
  exact select_cmp_oeq _ _ _ _

theorem pay3_apply (v88 v91 : Vec Ideal S512x1 .f32) (r : Fin 512) (z : Fin 1) :
    k0_pay3 (F := Ideal) v88 v91 (ix2 r z)
      = if v88 (ix2 r z) = ⊤ then 0 else Ideal.sqrt (max (v91 (ix2 r z)) 0) := by
  unfold k0_pay3
  show Scalar.select (Ideal.cmp .oeq (v88 (ix2 r z)) (Ideal.ofBits .f32 0x7F800000#32)) (Ideal.ofBits .f32 0x00000000#32)
      (Ideal.sqrt (max (v91 (ix2 r z)) (Ideal.ofBits .f32 0x00000000#32))) = _
  rw [ofBits_posInf, Ideal.ofBits_zero_f32]
  exact select_cmp_oeq _ _ _ _

end Cert.Mine.Pay

end
-- ==== Proof.KernelIdealPay3.lean ====
/-
  The running maximum read at an index: the maximum over the second axis of a 512 × 512 matrix, folded from −∞, is the
  supremum of the row's entries; the block's update takes the larger of it and the accumulator's old value.
-/
import proofs.«127039_j10264971838200_2_alg».proof.Proof.KernelIdealPay2

noncomputable section

namespace Cert.Mine.Pay

open Idealize.ShloMosaic Idealize.ShloMosaic.ValueIdx
open Cert.KernelIdeal Cert.KernelIdeal.Gen

/-- The maximum over the second axis, at row r, is the fold of max over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  have e : (src ∘ h.lift (ix1 r)) = fun k : Fin b => src (ix2 r k) := funext fun k => congrArg src (lift_ix1 h r k)
  exact congrArg (fun f => (Finset.univ : Finset (Fin b)).fold max (Ideal.ofBits φ acc) f) e

/-- The minimum over the second axis, at row r, is the fold of min over the row's entries from the accumulator's value. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  refine (multiReduction_minimumf_eq_fold src acc h hφ hacc (ix1 r)).trans ?_
  refine (h.fold_filter_drop_single _ _ src (ix1 r)).trans ?_
  have e : (src ∘ h.lift (ix1 r)) = fun k : Fin b => src (ix2 r k) := funext fun k => congrArg src (lift_ix1 h r k)
  exact congrArg (fun f => (Finset.univ : Finset (Fin b)).fold min (Ideal.ofBits φ acc) f) e

/-! ## D: the running maximum's update -/

theorem pay15_apply (v32 : FVec Ideal S512x512 .f32) (v33 : Vec Ideal S512x1 .f32) (r : Fin 512) (z : Fin 1) :
    k0_pay15 (F := Ideal) v32 v33 (ix2 r z)
      = max (v33 (ix2 r z)) (Finset.univ.sup fun cc : Fin 512 => v32 (ix2 r cc)) := by
  unfold k0_pay15
  rw [shapeCast_self]
  show max (v33 (ix2 r z)) (shapeCast S512x1 _ _ (ix2 r z)) = _
  refine congrArg (max (v33 (ix2 r z))) ?_
  refine (shapeCast_a_a1_apply _ _ r z).trans ?_
  refine (rowMax_apply _ _ _ _ _ r).trans ?_
  rw [ofBits_negInf]
  rfl

end Cert.Mine.Pay

end
-- ==== Proof.KernelIdealPay4.lean ====
/-
  The expanded squared distances of a block of rows against a block of candidate rows, read at an index: the matrix product that
  contracts the 1024 columns of both operands gives the inner product of row r with candidate row c; the row statistics enter by a
  column broadcast (the anchor's) and a row broadcast (the candidate's); entries not below the anchor's threshold are replaced by −∞.
-/
import proofs.«127039_j10264971838200_2_alg».proof.Proof.KernelIdealPay3

noncomputable section

namespace Cert.Mine.Pay

open Idealize.ShloMosaic Idealize.ShloMosaic.ValueIdx
open Cert.KernelIdeal Cert.KernelIdeal.Gen

/-- The product's dimension numbers: both operands contract their second axis. -/
abbrev dotRC : DotDims S512x1024 S512x1024 S512x512 := dot_S512x1024_S512x1024_S512x512_1_1_0_0_n_n

theorem dotRC_lhs0 (i : S512x512.Idx) (q : dotRC.contr.Idx) : (dotRC.lhsIdx i q 0).val = (i 0).val := by
  unfold DotDims.lhsIdx
  rw [dif_neg (show ¬(0 : Fin S512x1024.rank) ∈ dotRC.lhsBatch by decide),
    dif_pos (show (0 : Fin S512x1024.rank) ∈ dotRC.lhsNonContracting by decide)]
  rfl

theorem dotRC_rhs0 (i : S512x512.Idx) (q : dotRC.contr.Idx) : (dotRC.rhsIdx i q 0).val = (i 1).val := by
  unfold DotDims.rhsIdx
  rw [dif_neg (show ¬(0 : Fin S512x1024.rank) ∈ dotRC.rhsBatch by decide),
    dif_pos (show (0 : Fin S512x1024.rank) ∈ dotRC.rhsNonContracting by decide)]
  rfl

/-- The product into the zero accumulator, at (r, c), is the inner product of the left operand's row r and the right operand's row c. -/
theorem matmul_rc_apply {φ₁ φ₂ : FTy} (lhs : FVec Ideal S512x1024 φ₁) (rhs : FVec Ideal S512x1024 φ₂) (r c : Fin 512) :
    matmul dotRC none lhs rhs (constant (F := Ideal) S512x512 .f32 0x00000000#32) (ix2 r c)
      = ∑ k : Fin 1024, lhs (ix2 r k) * rhs (ix2 c k) := by
  refine (Ideal.matmul_constant_zero_apply dotRC none lhs rhs (ix2 r c)).trans ?_
  rw [← Equiv.sum_comp (contrEquiv1 dotRC 1024 rfl rfl).symm]
  refine Finset.sum_congr rfl fun k _ => ?_
  have hk := contrEquiv1_symm_val dotRC 1024 rfl rfl k
  have el : dotRC.lhsIdx (ix2 r c) ((contrEquiv1 dotRC 1024 rfl rfl).symm k) = ix2 r k := funext fun a => Fin.ext (by
    match a with
    | ⟨0, _⟩ => exact dotRC_lhs0 _ _
    | ⟨1, _⟩ => exact (dotRC.lhsIdx_val_of_single rfl _ _).trans hk)
  have er : dotRC.rhsIdx (ix2 r c) ((contrEquiv1 dotRC 1024 rfl rfl).symm k) = ix2 c k := funext fun a => Fin.ext (by
    match a with
    | ⟨0, _⟩ => exact dotRC_rhs0 _ _
    | ⟨1, _⟩ => exact (dotRC.rhsIdx_val_of_single rfl _ _).trans hk)
  rw [el, er]

/-- The ordered less-than comparison of two extended reals is 1 exactly when the first is strictly below the second. -/
theorem cmp_olt_eq_one (x y : EReal) : Ideal.cmp .olt x y = 1#1 ↔ x < y := by
  unfold Ideal.cmp
  by_cases h : x < y <;> simp [h]

/-- A select on the ordered less-than comparison is the `if` on the strict order. -/
theorem select_cmp_olt {α : Type} (x y : EReal) (A B : α) :
    Scalar.select (Ideal.cmp .olt x y) A B = if x < y then A else B := by
  unfold Scalar.select
  by_cases h : x < y
  · exact (if_pos (show Ideal.cmp .olt x y = 1 from (cmp_olt_eq_one x y).mpr h)).trans (if_pos h).symm
  · exact (if_neg (show ¬ Ideal.cmp .olt x y = 1 from fun hc => h ((cmp_olt_eq_one x y).mp hc))).trans (if_neg h).symm

/-- The ordered greater-than comparison is 1 exactly when the second is strictly below the first. -/
theorem cmp_ogt_eq_one (x y : EReal) : Ideal.cmp .ogt x y = 1#1 ↔ y < x := by
  unfold Ideal.cmp
  by_cases h : y < x <;> simp [h]

/-- A select on the ordered greater-than comparison is the `if` on the strict order, reversed. -/
theorem select_cmp_ogt {α : Type} (x y : EReal) (A B : α) :
    Scalar.select (Ideal.cmp .ogt x y) A B = if y < x then A else B := by
  unfold Scalar.select
  by_cases h : y < x
  · exact (if_pos (show Ideal.cmp .ogt x y = 1 from (cmp_ogt_eq_one x y).mpr h)).trans (if_pos h).symm
  · exact (if_neg (show ¬ Ideal.cmp .ogt x y = 1 from fun hc => h ((cmp_ogt_eq_one x y).mp hc))).trans (if_neg h).symm

/-! ## C: the masked expanded squared distances against the negatives -/

theorem pay14_apply (v3 v5 : Vec Ideal S512x1024 .f32) (v8 : Vec Ideal S512x1 .f32) (v9 : Vec Ideal S1x512 .f32)
    (v17 : Vec Ideal S512x1 .f32) (v18 : Vec Ideal S1x512 .f32) (v28 : Vec Ideal S512x1 .f32) (r cc : Fin 512) :
    k0_pay14 (F := Ideal) v3 v5 v8 v9 v17 v18 v28 (ix2 r cc)
      = (let s := v8 (ix2 r (0 : Fin 1)) + v9 (ix2 (0 : Fin 1) cc) - two * (∑ k : Fin 1024, v3 (ix2 r k) * v5 (ix2 cc k))
            + twoEps * (v17 (ix2 r (0 : Fin 1)) - v18 (ix2 (0 : Fin 1) cc)) + dEps2
         if s < v28 (ix2 r (0 : Fin 1)) then s else ⊥) := by
  unfold k0_pay14 k0_pay13
  simp only [select_apply, cmpf_apply, addf_apply, subf_apply, mulf_apply, broadcast_apply, shapeCast_self]
  rw [broadcastTo_a1_ab_apply v8, broadcastTo_a1_ab_apply v17, broadcastTo_a1_ab_apply v28,
    broadcastTo_1b_ab_apply v9, broadcastTo_1b_ab_apply v18]
  rw [show matmul dot_S512x1024_S512x1024_S512x512_1_1_0_0_n_n none (truncf .bf16 v3 bitsLt_bf16_f32) (truncf .bf16 v5 bitsLt_bf16_f32)
        (constant (F := Ideal) S512x512 .f32 0x00000000#32) (ix2 r cc) = ∑ k : Fin 1024, v3 (ix2 r k) * v5 (ix2 cc k)
      from matmul_rc_apply _ _ r cc]
  refine (select_cmp_olt _ _ _ _).trans ?_
  rw [show (Scalar.ofBits .f32 0xFF800000#32 : Ideal .f32) = ⊥ from ofBits_negInf]
  rfl

end Cert.Mine.Pay

end
-- ==== Proof.KernelIdealPay5.lean ====
/-
  The running minimum read at an index: the expanded squared distances against a block of positive candidates, with the entries not
  above the anchor's threshold replaced by +∞, and their minimum over the block's 512 candidates; the block's update takes the smaller
  of it and the accumulator's old value.
-/
import proofs.«127039_j10264971838200_2_alg».proof.Proof.KernelIdealPay4

noncomputable section

namespace Cert.Mine.Pay

open Idealize.ShloMosaic Idealize.ShloMosaic.ValueIdx
open Cert.KernelIdeal Cert.KernelIdeal.Gen

/-! ## E: the masked expanded squared distances against the positives, and their row minimum -/

theorem pay16_apply (v4 : FVec Ideal S512x1024 .bf16) (v40 : Vec Ideal S512x1024 .f32) (v43 : Vec Ideal S512x1 .f32)
    (v44 : Vec Ideal S1x512 .f32) (v52 : Vec Ideal S512x1 .f32) (v53 : Vec Ideal S1x512 .f32) (v63 : Vec Ideal S512x1 .f32)
    (r : Fin 512) :
    k0_pay16 (F := Ideal) v4 v40 v43 v44 v52 v53 v63 (ix1 r)
      = Finset.univ.inf fun cc : Fin 512 =>
          (let s := v43 (ix2 r (0 : Fin 1)) + v44 (ix2 (0 : Fin 1) cc) - two * (∑ k : Fin 1024, v4 (ix2 r k) * v40 (ix2 cc k))
              + twoEps * (v52 (ix2 r (0 : Fin 1)) - v53 (ix2 (0 : Fin 1) cc)) + dEps2
           if v63 (ix2 r (0 : Fin 1)) < s then s else ⊤) := by
  unfold k0_pay16
  refine (rowMin_apply _ _ _ _ _ r).trans ?_
  rw [ofBits_posInf]
  show Finset.univ.inf (fun cc : Fin 512 => _) = _
  refine Finset.inf_congr rfl fun cc _ => ?_
  simp only [select_apply, cmpf_apply, addf_apply, subf_apply, mulf_apply, broadcast_apply, shapeCast_self]
  rw [broadcastTo_a1_ab_apply v43, broadcastTo_a1_ab_apply v52, broadcastTo_a1_ab_apply v63,
    broadcastTo_1b_ab_apply v44, broadcastTo_1b_ab_apply v53]
  rw [show matmul dot_S512x1024_S512x1024_S512x512_1_1_0_0_n_n none v4 (truncf .bf16 v40 bitsLt_bf16_f32)
        (constant (F := Ideal) S512x512 .f32 0x00000000#32) (ix2 r cc) = ∑ k : Fin 1024, v4 (ix2 r k) * v40 (ix2 cc k)
      from matmul_rc_apply _ _ r cc]
  refine (select_cmp_ogt _ _ _ _).trans ?_
  rw [show (Scalar.ofBits .f32 0x7F800000#32 : Ideal .f32) = ⊤ from ofBits_posInf]
  rfl

/-- The narrowing of the format is the identity on extended reals. -/
theorem pay13_apply (v3 : Vec Ideal S512x1024 .f32) (r : Fin 512) (k : Fin 1024) :
    k0_pay13 (F := Ideal) v3 (ix2 r k) = v3 (ix2 r k) := rfl

theorem pay13_apply' (v3 : Vec Ideal S512x1024 .f32) (i : S512x1024.Idx) : k0_pay13 (F := Ideal) v3 i = v3 i := rfl

theorem pay1_apply (v68 : Vec Ideal S512x1 .f32) (v69 : FVec Ideal S512 .f32) (r : Fin 512) (z : Fin 1) :
    k0_pay1 (F := Ideal) v68 v69 (ix2 r z) = min (v68 (ix2 r z)) (v69 (ix1 r)) := by
  unfold k0_pay1
  rw [shapeCast_self]
  show min (v68 (ix2 r z)) (shapeCast S512x1 v69 _ (ix2 r z)) = _
  exact congrArg (min (v68 (ix2 r z))) (shapeCast_a_a1_apply _ _ r z)

/-! ## Indices of a column and of a row -/

/-- Every index of a 512 × 1 column is (r, 0) for its row r. -/
theorem col_idx (j : S512x1.Idx) : ∃ r : Fin 512, j = ix2 r (0 : Fin 1) := by
  refine ⟨j 0, ?_⟩
  funext a
  match a with
  | ⟨0, _⟩ => rfl
  | ⟨1, _⟩ =>
    have h : (j 1).val < 1 := (j 1).isLt
    exact Fin.ext (show (j 1).val = 0 by omega)

/-- Every index of a 1 × 512 row is (0, c) for its column c. -/
theorem row_idx (j : S1x512.Idx) : ∃ c : Fin 512, j = ix2 (0 : Fin 1) c := by
  refine ⟨j 1, ?_⟩
  funext a
  match a with
  | ⟨0, _⟩ =>
    have h : (j 0).val < 1 := (j 0).isLt
    exact Fin.ext (show (j 0).val = 0 by omega)
  | ⟨1, _⟩ => rfl

end Cert.Mine.Pay

end
-- ==== Proof.KernelIdealPay.lean ====
/-
  The kernel's payloads read at an index, at the extended reals: row sums of squares and of shifted squared differences, their roots,
  the masked expanded squared distances of a row block against a candidate block, and the running maximum and minimum over candidates.
-/
import proofs.«127039_j10264971838200_2_alg».proof.Proof.KernelIdealPay0
import proofs.«127039_j10264971838200_2_alg».proof.Proof.KernelIdealPay1
import proofs.«127039_j10264971838200_2_alg».proof.Proof.KernelIdealPay2
import proofs.«127039_j10264971838200_2_alg».proof.Proof.KernelIdealPay3
import proofs.«127039_j10264971838200_2_alg».proof.Proof.KernelIdealPay4
import proofs.«127039_j10264971838200_2_alg».proof.Proof.KernelIdealPay5
-- ==== Proof.KernelIdealTile.lean ====
/-
  One column tile's contribution, in the specification's words. At grid point t = 8·i + j, for row R = 512·i + r of the anchors and
  column Q = 512·j + cc: the tile's entry (r, cc) of the expanded squared distance is expSq (a R) (n Q) (resp. (p Q)) — the row statistics
  come from the scratch columns, the column statistics from the host's transposed row sums, the cross term from the matrix product — and
  the masked maximum (minimum) over the tile's columns is folded into the running extremum.
-/
import proofs.«127039_j10264971838200_2_alg».proof.Proof.KernelIdealBlocks
import proofs.«127039_j10264971838200_2_alg».proof.Proof.KernelIdealHost
import proofs.«127039_j10264971838200_2_alg».proof.Proof.KernelIdealPay
import proofs.«127039_j10264971838200_2_alg».proof.Proof.MineSpec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx
open Cert.Mine Cert.Mine.Pay

/-- The three argument arrays as matrices of rows. -/
abbrev aM (c : Dev nD) : Mat := mat (m ((c : Thread nD τ).loc main_arg0))
abbrev pM (c : Dev nD) : Mat := mat (m ((c : Thread nD τ).loc main_arg1))
abbrev nM (c : Dev nD) : Mat := mat (m ((c : Thread nD τ).loc main_arg2))

/-- A candidate negative: the expanded squared distance where it lies below the direct one to the own positive, else −∞. -/
def fN (c : Dev nD) (R q : Fin 4096) : EReal :=
  if expSq (aM m c R) (nM m c q) < rowSq (aM m c R) (pM m c R) then expSq (aM m c R) (nM m c q) else ⊥
/-- A candidate positive: the expanded squared distance where it lies above the direct one to the own negative, else +∞. -/
def fP (c : Dev nD) (R q : Fin 4096) : EReal :=
  if rowSq (aM m c R) (nM m c R) < expSq (aM m c R) (pM m c q) then expSq (aM m c R) (pM m c q) else ⊤

/-! ## The input blocks in the specification's words -/

theorem b0 (c : Dev nD) (t : Fin cfg0.N) (r : Fin 512) (k : Fin 1024) : iblk m c 0 t (ix2 r k) = aM m c (tile (t.val / 8) r) k := by
  rw [iblk0_apply, V_arg0]; rfl
theorem b1 (c : Dev nD) (t : Fin cfg0.N) (r : Fin 512) (k : Fin 1024) : iblk m c 1 t (ix2 r k) = pM m c (tile (t.val / 8) r) k := by
  rw [iblk1_apply, V_arg1]; rfl
theorem b2 (c : Dev nD) (t : Fin cfg0.N) (r : Fin 512) (k : Fin 1024) : iblk m c 2 t (ix2 r k) = nM m c (tile (t.val / 8) r) k := by
  rw [iblk2_apply, V_arg2]; rfl
theorem b3 (c : Dev nD) (t : Fin cfg0.N) (cc : Fin 512) (k : Fin 1024) : iblk m c 3 t (ix2 cc k) = pM m c (tile (t.val % 8) cc) k := by
  rw [iblk3_apply, V_arg1]; rfl
theorem b4 (c : Dev nD) (t : Fin cfg0.N) (cc : Fin 512) (k : Fin 1024) : iblk m c 4 t (ix2 cc k) = nM m c (tile (t.val % 8) cc) k := by
  rw [iblk4_apply, V_arg2]; rfl
theorem b5 (c : Dev nD) (t : Fin cfg0.N) (cc : Fin 512) : iblk m c 5 t (ix2 (0 : Fin 1) cc) = ∑ k, pM m c (tile (t.val % 8) cc) k := by
  rw [iblk5_apply, V_v2]
theorem b6 (c : Dev nD) (t : Fin cfg0.N) (cc : Fin 512) : iblk m c 6 t (ix2 (0 : Fin 1) cc) = ∑ k, pM m c (tile (t.val % 8) cc) k * pM m c (tile (t.val % 8) cc) k := by
  rw [iblk6_apply, V_v6]
theorem b7 (c : Dev nD) (t : Fin cfg0.N) (cc : Fin 512) : iblk m c 7 t (ix2 (0 : Fin 1) cc) = ∑ k, nM m c (tile (t.val % 8) cc) k := by
  rw [iblk7_apply, V_v9]
theorem b8 (c : Dev nD) (t : Fin cfg0.N) (cc : Fin 512) : iblk m c 8 t (ix2 (0 : Fin 1) cc) = ∑ k, nM m c (tile (t.val % 8) cc) k * nM m c (tile (t.val % 8) cc) k := by
  rw [iblk8_apply, V_v13]

/-! ## One tile folded into the running extrema -/

/-- The negatives' tile: the running maximum becomes the larger of itself and the tile's masked maximum. -/
theorem tileN_apply (c : Dev nD) (t : Fin cfg0.N) (sa ra dap acc : Vec Ideal S512x1 .f32) (r : Fin 512)
    (hsa : sa (ix2 r (0 : Fin 1)) = ∑ k, aM m c (tile (t.val / 8) r) k * aM m c (tile (t.val / 8) r) k)
    (hra : ra (ix2 r (0 : Fin 1)) = ∑ k, aM m c (tile (t.val / 8) r) k)
    (hdap : dap (ix2 r (0 : Fin 1)) = rowSq (aM m c (tile (t.val / 8) r)) (pM m c (tile (t.val / 8) r))) :
    k0_pay15 (F := Ideal) (k0_pay14 (F := Ideal) (iblk m c 0 t) (iblk m c 4 t) sa (iblk m c 8 t) ra (iblk m c 7 t) dap) acc (ix2 r (0 : Fin 1))
      = max (acc (ix2 r (0 : Fin 1))) (Finset.univ.sup fun cc : Fin 512 => fN m c (tile (t.val / 8) r) (tile (t.val % 8) cc)) := by
  rw [pay15_apply]
  refine congrArg (max (acc (ix2 r (0 : Fin 1)))) (Finset.sup_congr rfl fun cc _ => ?_)
  rw [pay14_apply]
  simp only [b0, b4, b7, b8, hsa, hra, hdap]
  rfl

/-- The positives' tile: the running minimum becomes the smaller of itself and the tile's masked minimum. -/
theorem tileP_apply (c : Dev nD) (t : Fin cfg0.N) (sa ra dan acc : Vec Ideal S512x1 .f32) (r : Fin 512)
    (hsa : sa (ix2 r (0 : Fin 1)) = ∑ k, aM m c (tile (t.val / 8) r) k * aM m c (tile (t.val / 8) r) k)
    (hra : ra (ix2 r (0 : Fin 1)) = ∑ k, aM m c (tile (t.val / 8) r) k)
    (hdan : dan (ix2 r (0 : Fin 1)) = rowSq (aM m c (tile (t.val / 8) r)) (nM m c (tile (t.val / 8) r))) :
    k0_pay1 (F := Ideal) acc (k0_pay16 (F := Ideal) (k0_pay13 (F := Ideal) (iblk m c 0 t)) (iblk m c 3 t) sa (iblk m c 6 t) ra (iblk m c 5 t) dan) (ix2 r (0 : Fin 1))
      = min (acc (ix2 r (0 : Fin 1))) (Finset.univ.inf fun cc : Fin 512 => fP m c (tile (t.val / 8) r) (tile (t.val % 8) cc)) := by
  rw [pay1_apply, pay16_apply]
  refine congrArg (min (acc (ix2 r (0 : Fin 1)))) (Finset.inf_congr rfl fun cc _ => ?_)
  simp only [pay13_apply, b0, b3, b5, b6, hsa, hra, hdan]
  rfl

end Cert.KernelIdeal.Fr

end
-- ==== Proof.KernelIdealPieces.lean ====
/-
  What each stored column holds after a run, as the body's arithmetic of the point's input blocks and of the scratch columns the point
  before left: the run's found pieces read back.
-/
import proofs.«127039_j10264971838200_2_alg».proof.Proof.KernelIdealData
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by funext a; fin_cases a <;> rfl

/-- A whole-column load of what one whole-column store left reads the stored value. -/
theorem readCov0 (v : View sig .tc .vmem S512x1 .f32) (inb : ∀ a, (![0, 0] : Fin 2 → Nat) a + S512x1.size a ≤ S512x1.size a) (w : S512x1.Idx → Elt F .f32) :
    v.readCov [(⟨Rect.unit ![0, 0] S512x1.size inb, w⟩ : View.Piece (Elt F) S512x1 .f32)] (Rect.unit ![0, 0] S512x1.size inb).toLoadRect = w :=
  View.readCov_unit_zero v hz2 inb w

theorem colA_L9 (c : Dev nD) (t : Fin cfg0.N) (hc0 : cond0_0 (grid0.coords t)) (hc1 : ¬cond0_1 (grid0.coords t))  :
    colOf (runA m c t hc0 hc1).1 = k0_pay6 (iblk m c 0 t) (iblk m c 1 t) := by
  unfold colOf
  rw [View.read_writes_eq_canon _ _ _ (coverA_L9 m c t hc0 hc1)]
  unfold runA kernelRun0_A
  dsimp only
  sl_unfold_words
  rw [View.canon_unit_zero hz2]
  try simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, (Memref.isWhole_whole cc0_scratch4).read_unread, (Memref.isWhole_whole cc0_scratch5).read_unread, readCov0, View.ld_unit_zero (S := S512x1024) hz2, View.ld_unit_zero (S := S512x1) hz2, View.ld_unit_zero (S := S1x512) hz2]
  try (repeat rw [View.readCov_unit_zero _ hz2])

theorem colA_LS0 (c : Dev nD) (t : Fin cfg0.N) (hc0 : cond0_0 (grid0.coords t)) (hc1 : ¬cond0_1 (grid0.coords t))  :
    colOf (runA m c t hc0 hc1).2.1 = k0_pay15 (k0_pay14 (iblk m c 0 t) (iblk m c 4 t) (k0_pay8 (iblk m c 0 t)) (iblk m c 8 t) (k0_pay10 (k0_pay9 (iblk m c 0 t))) (iblk m c 7 t) (k0_pay5 (iblk m c 0 t) (iblk m c 1 t))) (k0_pay11 (F := F)) := by
  unfold colOf
  rw [View.read_writes_eq_canon _ _ _ (coverA_LS0 m c t hc0 hc1)]
  unfold runA kernelRun0_A
  dsimp only
  sl_unfold_words
  rw [View.canon_cons_unit_zero hz2]
  try simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, (Memref.isWhole_whole cc0_scratch4).read_unread, (Memref.isWhole_whole cc0_scratch5).read_unread, readCov0, View.ld_unit_zero (S := S512x1024) hz2, View.ld_unit_zero (S := S512x1) hz2, View.ld_unit_zero (S := S1x512) hz2]
  try (repeat rw [View.readCov_unit_zero _ hz2])

theorem colA_LS1 (c : Dev nD) (t : Fin cfg0.N) (hc0 : cond0_0 (grid0.coords t)) (hc1 : ¬cond0_1 (grid0.coords t))  :
    colOf (runA m c t hc0 hc1).2.2.1 = k0_pay1 (k0_pay12 (F := F)) (k0_pay16 (k0_pay13 (iblk m c 0 t)) (iblk m c 3 t) (k0_pay8 (iblk m c 0 t)) (iblk m c 6 t) (k0_pay10 (k0_pay9 (iblk m c 0 t))) (iblk m c 5 t) (k0_pay7 (iblk m c 0 t) (iblk m c 2 t))) := by
  unfold colOf
  rw [View.read_writes_eq_canon _ _ _ (coverA_LS1 m c t hc0 hc1)]
  unfold runA kernelRun0_A
  dsimp only
  sl_unfold_words
  rw [View.canon_cons_unit_zero hz2]
  try simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, (Memref.isWhole_whole cc0_scratch4).read_unread, (Memref.isWhole_whole cc0_scratch5).read_unread, readCov0, View.ld_unit_zero (S := S512x1024) hz2, View.ld_unit_zero (S := S512x1) hz2, View.ld_unit_zero (S := S1x512) hz2]
  try (repeat rw [View.readCov_unit_zero _ hz2])

theorem colA_LS2 (c : Dev nD) (t : Fin cfg0.N) (hc0 : cond0_0 (grid0.coords t)) (hc1 : ¬cond0_1 (grid0.coords t))  :
    colOf (runA m c t hc0 hc1).2.2.2.1 = k0_pay5 (iblk m c 0 t) (iblk m c 1 t) := by
  unfold colOf
  rw [View.read_writes_eq_canon _ _ _ (coverA_LS2 m c t hc0 hc1)]
  unfold runA kernelRun0_A
  dsimp only
  sl_unfold_words
  rw [View.canon_unit_zero hz2]
  try simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, (Memref.isWhole_whole cc0_scratch4).read_unread, (Memref.isWhole_whole cc0_scratch5).read_unread, readCov0, View.ld_unit_zero (S := S512x1024) hz2, View.ld_unit_zero (S := S512x1) hz2, View.ld_unit_zero (S := S1x512) hz2]
  try (repeat rw [View.readCov_unit_zero _ hz2])

theorem colA_LS3 (c : Dev nD) (t : Fin cfg0.N) (hc0 : cond0_0 (grid0.coords t)) (hc1 : ¬cond0_1 (grid0.coords t))  :
    colOf (runA m c t hc0 hc1).2.2.2.2.1 = k0_pay7 (iblk m c 0 t) (iblk m c 2 t) := by
  unfold colOf
  rw [View.read_writes_eq_canon _ _ _ (coverA_LS3 m c t hc0 hc1)]
  unfold runA kernelRun0_A
  dsimp only
  sl_unfold_words
  rw [View.canon_unit_zero hz2]
  try simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, (Memref.isWhole_whole cc0_scratch4).read_unread, (Memref.isWhole_whole cc0_scratch5).read_unread, readCov0, View.ld_unit_zero (S := S512x1024) hz2, View.ld_unit_zero (S := S512x1) hz2, View.ld_unit_zero (S := S1x512) hz2]
  try (repeat rw [View.readCov_unit_zero _ hz2])

theorem colA_LS4 (c : Dev nD) (t : Fin cfg0.N) (hc0 : cond0_0 (grid0.coords t)) (hc1 : ¬cond0_1 (grid0.coords t))  :
    colOf (runA m c t hc0 hc1).2.2.2.2.2.1 = k0_pay8 (iblk m c 0 t) := by
  unfold colOf
  rw [View.read_writes_eq_canon _ _ _ (coverA_LS4 m c t hc0 hc1)]
  unfold runA kernelRun0_A
  dsimp only
  sl_unfold_words
  rw [View.canon_unit_zero hz2]
  try simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, (Memref.isWhole_whole cc0_scratch4).read_unread, (Memref.isWhole_whole cc0_scratch5).read_unread, readCov0, View.ld_unit_zero (S := S512x1024) hz2, View.ld_unit_zero (S := S512x1) hz2, View.ld_unit_zero (S := S1x512) hz2]
  try (repeat rw [View.readCov_unit_zero _ hz2])

theorem colA_LS5 (c : Dev nD) (t : Fin cfg0.N) (hc0 : cond0_0 (grid0.coords t)) (hc1 : ¬cond0_1 (grid0.coords t))  :
    colOf (runA m c t hc0 hc1).2.2.2.2.2.2.1 = k0_pay10 (k0_pay9 (iblk m c 0 t)) := by
  unfold colOf
  rw [View.read_writes_eq_canon _ _ _ (coverA_LS5 m c t hc0 hc1)]
  unfold runA kernelRun0_A
  dsimp only
  sl_unfold_words
  rw [View.canon_unit_zero hz2]
  try simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, (Memref.isWhole_whole cc0_scratch4).read_unread, (Memref.isWhole_whole cc0_scratch5).read_unread, readCov0, View.ld_unit_zero (S := S512x1024) hz2, View.ld_unit_zero (S := S512x1) hz2, View.ld_unit_zero (S := S1x512) hz2]
  try (repeat rw [View.readCov_unit_zero _ hz2])

theorem colB_LS0 (c : Dev nD) (t : Fin cfg0.N) (hc0 : ¬cond0_0 (grid0.coords t)) (hc1 : ¬cond0_1 (grid0.coords t)) (xs0 xs1 xs2 xs3 xs4 xs5 : Vec F S512x1 .f32) :
    colOf (runB m c t hc0 hc1 xs0 xs1 xs2 xs3 xs4 xs5).1 = k0_pay15 (k0_pay14 (iblk m c 0 t) (iblk m c 4 t) xs4 (iblk m c 8 t) xs5 (iblk m c 7 t) xs2) xs0 := by
  unfold colOf
  rw [View.read_writes_eq_canon _ _ _ (coverB_LS0 m c t hc0 hc1 xs0 xs1 xs2 xs3 xs4 xs5)]
  unfold runB kernelRun0_B
  dsimp only
  sl_unfold_words
  rw [View.canon_unit_zero hz2]
  try simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, (Memref.isWhole_whole cc0_scratch4).read_unread, (Memref.isWhole_whole cc0_scratch5).read_unread, readCov0, View.ld_unit_zero (S := S512x1024) hz2, View.ld_unit_zero (S := S512x1) hz2, View.ld_unit_zero (S := S1x512) hz2]
  try (repeat rw [View.readCov_unit_zero _ hz2])

theorem colB_LS1 (c : Dev nD) (t : Fin cfg0.N) (hc0 : ¬cond0_0 (grid0.coords t)) (hc1 : ¬cond0_1 (grid0.coords t)) (xs0 xs1 xs2 xs3 xs4 xs5 : Vec F S512x1 .f32) :
    colOf (runB m c t hc0 hc1 xs0 xs1 xs2 xs3 xs4 xs5).2.1 = k0_pay1 xs1 (k0_pay16 (k0_pay13 (iblk m c 0 t)) (iblk m c 3 t) xs4 (iblk m c 6 t) xs5 (iblk m c 5 t) xs3) := by
  unfold colOf
  rw [View.read_writes_eq_canon _ _ _ (coverB_LS1 m c t hc0 hc1 xs0 xs1 xs2 xs3 xs4 xs5)]
  unfold runB kernelRun0_B
  dsimp only
  sl_unfold_words
  rw [View.canon_unit_zero hz2]
  try simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, (Memref.isWhole_whole cc0_scratch4).read_unread, (Memref.isWhole_whole cc0_scratch5).read_unread, readCov0, View.ld_unit_zero (S := S512x1024) hz2, View.ld_unit_zero (S := S512x1) hz2, View.ld_unit_zero (S := S1x512) hz2]
  try (repeat rw [View.readCov_unit_zero _ hz2])

theorem colC_LS0 (c : Dev nD) (t : Fin cfg0.N) (hc0 : ¬cond0_0 (grid0.coords t)) (hc1 : cond0_1 (grid0.coords t)) (xs0 xs1 xs2 xs3 xs4 xs5 : Vec F S512x1 .f32) :
    colOf (runC m c t hc0 hc1 xs0 xs1 xs2 xs3 xs4 xs5).2.2.1 = k0_pay15 (k0_pay14 (iblk m c 0 t) (iblk m c 4 t) xs4 (iblk m c 8 t) xs5 (iblk m c 7 t) xs2) xs0 := by
  unfold colOf
  rw [View.read_writes_eq_canon _ _ _ (coverC_LS0 m c t hc0 hc1 xs0 xs1 xs2 xs3 xs4 xs5)]
  unfold runC kernelRun0_C
  dsimp only
  sl_unfold_words
  rw [View.canon_unit_zero hz2]
  try simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, (Memref.isWhole_whole cc0_scratch4).read_unread, (Memref.isWhole_whole cc0_scratch5).read_unread, readCov0, View.ld_unit_zero (S := S512x1024) hz2, View.ld_unit_zero (S := S512x1) hz2, View.ld_unit_zero (S := S1x512) hz2]
  try (repeat rw [View.readCov_unit_zero _ hz2])

theorem colC_LS1 (c : Dev nD) (t : Fin cfg0.N) (hc0 : ¬cond0_0 (grid0.coords t)) (hc1 : cond0_1 (grid0.coords t)) (xs0 xs1 xs2 xs3 xs4 xs5 : Vec F S512x1 .f32) :
    colOf (runC m c t hc0 hc1 xs0 xs1 xs2 xs3 xs4 xs5).2.2.2.1 = k0_pay1 xs1 (k0_pay16 (k0_pay13 (iblk m c 0 t)) (iblk m c 3 t) xs4 (iblk m c 6 t) xs5 (iblk m c 5 t) xs3) := by
  unfold colOf
  rw [View.read_writes_eq_canon _ _ _ (coverC_LS1 m c t hc0 hc1 xs0 xs1 xs2 xs3 xs4 xs5)]
  unfold runC kernelRun0_C
  dsimp only
  sl_unfold_words
  rw [View.canon_unit_zero hz2]
  try simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, (Memref.isWhole_whole cc0_scratch4).read_unread, (Memref.isWhole_whole cc0_scratch5).read_unread, readCov0, View.ld_unit_zero (S := S512x1024) hz2, View.ld_unit_zero (S := S512x1) hz2, View.ld_unit_zero (S := S1x512) hz2]
  try (repeat rw [View.readCov_unit_zero _ hz2])

theorem colC_L10 (c : Dev nD) (t : Fin cfg0.N) (hc0 : ¬cond0_0 (grid0.coords t)) (hc1 : cond0_1 (grid0.coords t)) (xs0 xs1 xs2 xs3 xs4 xs5 : Vec F S512x1 .f32) :
    colOf (runC m c t hc0 hc1 xs0 xs1 xs2 xs3 xs4 xs5).1 = k0_pay2 (k0_pay15 (k0_pay14 (iblk m c 0 t) (iblk m c 4 t) xs4 (iblk m c 8 t) xs5 (iblk m c 7 t) xs2) xs0) (k0_pay15 (k0_pay14 (iblk m c 0 t) (iblk m c 4 t) xs4 (iblk m c 8 t) xs5 (iblk m c 7 t) xs2) xs0) := by
  unfold colOf
  rw [View.read_writes_eq_canon _ _ _ (coverC_L10 m c t hc0 hc1 xs0 xs1 xs2 xs3 xs4 xs5)]
  unfold runC kernelRun0_C
  dsimp only
  sl_unfold_words
  rw [View.canon_unit_zero hz2]
  try simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, (Memref.isWhole_whole cc0_scratch4).read_unread, (Memref.isWhole_whole cc0_scratch5).read_unread, readCov0, View.ld_unit_zero (S := S512x1024) hz2, View.ld_unit_zero (S := S512x1) hz2, View.ld_unit_zero (S := S1x512) hz2]
  try (repeat rw [View.readCov_unit_zero _ hz2])

theorem colC_L11 (c : Dev nD) (t : Fin cfg0.N) (hc0 : ¬cond0_0 (grid0.coords t)) (hc1 : cond0_1 (grid0.coords t)) (xs0 xs1 xs2 xs3 xs4 xs5 : Vec F S512x1 .f32) :
    colOf (runC m c t hc0 hc1 xs0 xs1 xs2 xs3 xs4 xs5).2.1 = k0_pay3 (k0_pay1 xs1 (k0_pay16 (k0_pay13 (iblk m c 0 t)) (iblk m c 3 t) xs4 (iblk m c 6 t) xs5 (iblk m c 5 t) xs3)) (k0_pay1 xs1 (k0_pay16 (k0_pay13 (iblk m c 0 t)) (iblk m c 3 t) xs4 (iblk m c 6 t) xs5 (iblk m c 5 t) xs3)) := by
  unfold colOf
  rw [View.read_writes_eq_canon _ _ _ (coverC_L11 m c t hc0 hc1 xs0 xs1 xs2 xs3 xs4 xs5)]
  unfold runC kernelRun0_C
  dsimp only
  sl_unfold_words
  rw [View.canon_unit_zero hz2]
  try simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, (Memref.isWhole_whole cc0_scratch4).read_unread, (Memref.isWhole_whole cc0_scratch5).read_unread, readCov0, View.ld_unit_zero (S := S512x1024) hz2, View.ld_unit_zero (S := S512x1) hz2, View.ld_unit_zero (S := S1x512) hz2]
  try (repeat rw [View.readCov_unit_zero _ hz2])

end Cert.KernelIdeal.Fr

end
-- ==== Proof.KernelIdealCols.lean ====
/-
  The nine columns after a point, field by field: which run's stored pieces, or which column of the point before, each one is.
-/
import proofs.«127039_j10264971838200_2_alg».proof.Proof.KernelIdealData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem colsA_o9 (c : Dev nD) (t : Fin cfg0.N) (hc0 : cond0_0 (grid0.coords t)) (hc1 : ¬cond0_1 (grid0.coords t)) : (colsA m c t hc0 hc1).o9 = colOf (runA m c t hc0 hc1).1 := by unfold colsA; rfl
theorem colsA_s0 (c : Dev nD) (t : Fin cfg0.N) (hc0 : cond0_0 (grid0.coords t)) (hc1 : ¬cond0_1 (grid0.coords t)) : (colsA m c t hc0 hc1).s0 = colOf (runA m c t hc0 hc1).2.1 := by unfold colsA; rfl
theorem colsA_s1 (c : Dev nD) (t : Fin cfg0.N) (hc0 : cond0_0 (grid0.coords t)) (hc1 : ¬cond0_1 (grid0.coords t)) : (colsA m c t hc0 hc1).s1 = colOf (runA m c t hc0 hc1).2.2.1 := by unfold colsA; rfl
theorem colsA_s2 (c : Dev nD) (t : Fin cfg0.N) (hc0 : cond0_0 (grid0.coords t)) (hc1 : ¬cond0_1 (grid0.coords t)) : (colsA m c t hc0 hc1).s2 = colOf (runA m c t hc0 hc1).2.2.2.1 := by unfold colsA; rfl
theorem colsA_s3 (c : Dev nD) (t : Fin cfg0.N) (hc0 : cond0_0 (grid0.coords t)) (hc1 : ¬cond0_1 (grid0.coords t)) : (colsA m c t hc0 hc1).s3 = colOf (runA m c t hc0 hc1).2.2.2.2.1 := by unfold colsA; rfl
theorem colsA_s4 (c : Dev nD) (t : Fin cfg0.N) (hc0 : cond0_0 (grid0.coords t)) (hc1 : ¬cond0_1 (grid0.coords t)) : (colsA m c t hc0 hc1).s4 = colOf (runA m c t hc0 hc1).2.2.2.2.2.1 := by unfold colsA; rfl
theorem colsA_s5 (c : Dev nD) (t : Fin cfg0.N) (hc0 : cond0_0 (grid0.coords t)) (hc1 : ¬cond0_1 (grid0.coords t)) : (colsA m c t hc0 hc1).s5 = colOf (runA m c t hc0 hc1).2.2.2.2.2.2.1 := by unfold colsA; rfl
theorem colsB_o9 (c : Dev nD) (t : Fin cfg0.N) (hc0 : ¬cond0_0 (grid0.coords t)) (hc1 : ¬cond0_1 (grid0.coords t)) (p : Cols F) : (colsB m c t hc0 hc1 p).o9 = p.o9 := by unfold colsB; rfl
theorem colsB_o10 (c : Dev nD) (t : Fin cfg0.N) (hc0 : ¬cond0_0 (grid0.coords t)) (hc1 : ¬cond0_1 (grid0.coords t)) (p : Cols F) : (colsB m c t hc0 hc1 p).o10 = p.o10 := by unfold colsB; rfl
theorem colsB_o11 (c : Dev nD) (t : Fin cfg0.N) (hc0 : ¬cond0_0 (grid0.coords t)) (hc1 : ¬cond0_1 (grid0.coords t)) (p : Cols F) : (colsB m c t hc0 hc1 p).o11 = p.o11 := by unfold colsB; rfl
theorem colsB_s2 (c : Dev nD) (t : Fin cfg0.N) (hc0 : ¬cond0_0 (grid0.coords t)) (hc1 : ¬cond0_1 (grid0.coords t)) (p : Cols F) : (colsB m c t hc0 hc1 p).s2 = p.s2 := by unfold colsB; rfl
theorem colsB_s3 (c : Dev nD) (t : Fin cfg0.N) (hc0 : ¬cond0_0 (grid0.coords t)) (hc1 : ¬cond0_1 (grid0.coords t)) (p : Cols F) : (colsB m c t hc0 hc1 p).s3 = p.s3 := by unfold colsB; rfl
theorem colsB_s4 (c : Dev nD) (t : Fin cfg0.N) (hc0 : ¬cond0_0 (grid0.coords t)) (hc1 : ¬cond0_1 (grid0.coords t)) (p : Cols F) : (colsB m c t hc0 hc1 p).s4 = p.s4 := by unfold colsB; rfl
theorem colsB_s5 (c : Dev nD) (t : Fin cfg0.N) (hc0 : ¬cond0_0 (grid0.coords t)) (hc1 : ¬cond0_1 (grid0.coords t)) (p : Cols F) : (colsB m c t hc0 hc1 p).s5 = p.s5 := by unfold colsB; rfl
theorem colsB_s0 (c : Dev nD) (t : Fin cfg0.N) (hc0 : ¬cond0_0 (grid0.coords t)) (hc1 : ¬cond0_1 (grid0.coords t)) (p : Cols F) : (colsB m c t hc0 hc1 p).s0 = colOf (runB m c t hc0 hc1 p.s0 p.s1 p.s2 p.s3 p.s4 p.s5).1 := by unfold colsB; rfl
theorem colsB_s1 (c : Dev nD) (t : Fin cfg0.N) (hc0 : ¬cond0_0 (grid0.coords t)) (hc1 : ¬cond0_1 (grid0.coords t)) (p : Cols F) : (colsB m c t hc0 hc1 p).s1 = colOf (runB m c t hc0 hc1 p.s0 p.s1 p.s2 p.s3 p.s4 p.s5).2.1 := by unfold colsB; rfl
theorem colsC_o9 (c : Dev nD) (t : Fin cfg0.N) (hc0 : ¬cond0_0 (grid0.coords t)) (hc1 : cond0_1 (grid0.coords t)) (p : Cols F) : (colsC m c t hc0 hc1 p).o9 = p.o9 := by unfold colsC; rfl
theorem colsC_s2 (c : Dev nD) (t : Fin cfg0.N) (hc0 : ¬cond0_0 (grid0.coords t)) (hc1 : cond0_1 (grid0.coords t)) (p : Cols F) : (colsC m c t hc0 hc1 p).s2 = p.s2 := by unfold colsC; rfl
theorem colsC_s3 (c : Dev nD) (t : Fin cfg0.N) (hc0 : ¬cond0_0 (grid0.coords t)) (hc1 : cond0_1 (grid0.coords t)) (p : Cols F) : (colsC m c t hc0 hc1 p).s3 = p.s3 := by unfold colsC; rfl
theorem colsC_s4 (c : Dev nD) (t : Fin cfg0.N) (hc0 : ¬cond0_0 (grid0.coords t)) (hc1 : cond0_1 (grid0.coords t)) (p : Cols F) : (colsC m c t hc0 hc1 p).s4 = p.s4 := by unfold colsC; rfl
theorem colsC_s5 (c : Dev nD) (t : Fin cfg0.N) (hc0 : ¬cond0_0 (grid0.coords t)) (hc1 : cond0_1 (grid0.coords t)) (p : Cols F) : (colsC m c t hc0 hc1 p).s5 = p.s5 := by unfold colsC; rfl
theorem colsC_o10 (c : Dev nD) (t : Fin cfg0.N) (hc0 : ¬cond0_0 (grid0.coords t)) (hc1 : cond0_1 (grid0.coords t)) (p : Cols F) : (colsC m c t hc0 hc1 p).o10 = colOf (runC m c t hc0 hc1 p.s0 p.s1 p.s2 p.s3 p.s4 p.s5).1 := by unfold colsC; rfl
theorem colsC_o11 (c : Dev nD) (t : Fin cfg0.N) (hc0 : ¬cond0_0 (grid0.coords t)) (hc1 : cond0_1 (grid0.coords t)) (p : Cols F) : (colsC m c t hc0 hc1 p).o11 = colOf (runC m c t hc0 hc1 p.s0 p.s1 p.s2 p.s3 p.s4 p.s5).2.1 := by unfold colsC; rfl
theorem colsC_s0 (c : Dev nD) (t : Fin cfg0.N) (hc0 : ¬cond0_0 (grid0.coords t)) (hc1 : cond0_1 (grid0.coords t)) (p : Cols F) : (colsC m c t hc0 hc1 p).s0 = colOf (runC m c t hc0 hc1 p.s0 p.s1 p.s2 p.s3 p.s4 p.s5).2.2.1 := by unfold colsC; rfl
theorem colsC_s1 (c : Dev nD) (t : Fin cfg0.N) (hc0 : ¬cond0_0 (grid0.coords t)) (hc1 : cond0_1 (grid0.coords t)) (p : Cols F) : (colsC m c t hc0 hc1 p).s1 = colOf (runC m c t hc0 hc1 p.s0 p.s1 p.s2 p.s3 p.s4 p.s5).2.2.2.1 := by unfold colsC; rfl

end Cert.KernelIdeal.Fr

end
-- ==== Proof.MineTiles.lean ====
/-
  Growing column prefixes.  The 4096 columns are swept in 8 tiles of 512; a running maximum (from ⊥) and a running minimum (from ⊤)
  are kept.  The columns below 512·(j+2) are those below 512·(j+1) together with tile j+1, so the supremum over the longer prefix is
  the larger of the supremum over the shorter one and the supremum over the tile; the first prefix is tile 0 and the last is everything.
-/
import Mathlib.Data.Finset.Lattice.Fold
import proofs.«127039_j10264971838200_2_alg».proof.Proof.MineSpec
import proofs.«127039_j10264971838200_2_alg».proof.Proof.MineTile0

noncomputable section

namespace Cert.Mine

/-- The columns of the tiles 0 … j. -/
def prefixTo (j : ℕ) : Finset (Fin 4096) := Finset.univ.filter fun q : Fin 4096 => q.val < 512 * (j + 1)

/-- The supremum of g over the tiles 0 … j. -/
def supTo (g : Fin 4096 → EReal) (j : ℕ) : EReal := (Finset.univ.filter fun q : Fin 4096 => q.val < 512 * (j + 1)).sup g

/-- The infimum of g over the tiles 0 … j. -/
def infTo (g : Fin 4096 → EReal) (j : ℕ) : EReal := (Finset.univ.filter fun q : Fin 4096 => q.val < 512 * (j + 1)).inf g

theorem prefixTo_zero : prefixTo 0 = Finset.univ.image (tile 0) := by
  ext q
  simp only [prefixTo, Finset.mem_filter, Finset.mem_univ, true_and, Finset.mem_image]
  constructor
  · intro h
    refine ⟨⟨q.val, by omega⟩, ?_⟩
    apply Fin.ext
    rw [tile_val 0 (by decide)]
    show 512 * 0 + q.val = q.val
    omega
  · rintro ⟨c, rfl⟩
    rw [tile_val 0 (by decide)]
    have := c.isLt
    omega

theorem prefixTo_succ (j : ℕ) (hj : j + 1 < 8) : prefixTo (j + 1) = prefixTo j ∪ Finset.univ.image (tile (j + 1)) := by
  ext q
  simp only [prefixTo, Finset.mem_filter, Finset.mem_univ, true_and, Finset.mem_union, Finset.mem_image]
  constructor
  · intro h
    by_cases h1 : q.val < 512 * (j + 1)
    · exact Or.inl h1
    · right
      refine ⟨⟨q.val - 512 * (j + 1), by omega⟩, ?_⟩
      apply Fin.ext
      rw [tile_val _ hj]
      show 512 * (j + 1) + (q.val - 512 * (j + 1)) = q.val
      omega
  · rintro (h | ⟨c, rfl⟩)
    · omega
    · rw [tile_val _ hj]
      have := c.isLt
      omega

theorem prefixTo_last : prefixTo 7 = Finset.univ := by
  ext q
  simp only [prefixTo, Finset.mem_filter, Finset.mem_univ, true_and, iff_true]
  have := q.isLt
  omega

variable (g : Fin 4096 → EReal)

theorem supTo_zero' : supTo g 0 = Finset.univ.sup fun cc : Fin 512 => g (tile 0 cc) := by
  show (prefixTo 0).sup g = _
  rw [prefixTo_zero, Finset.sup_image]
  rfl

theorem supTo_zero : supTo g 0 = max ⊥ (Finset.univ.sup fun cc : Fin 512 => g (tile 0 cc)) := by
  rw [supTo_zero', max_eq_right bot_le]

theorem supTo_succ (j : ℕ) (hj : j + 1 < 8) :
    supTo g (j + 1) = max (supTo g j) (Finset.univ.sup fun cc : Fin 512 => g (tile (j + 1) cc)) := by
  show (prefixTo (j + 1)).sup g = max ((prefixTo j).sup g) _
  rw [prefixTo_succ j hj, Finset.sup_union, Finset.sup_image]
  rfl

theorem supTo_last : supTo g 7 = Finset.univ.sup g := by
  show (prefixTo 7).sup g = _
  rw [prefixTo_last]

theorem infTo_zero' : infTo g 0 = Finset.univ.inf fun cc : Fin 512 => g (tile 0 cc) := by
  show (prefixTo 0).inf g = _
  rw [prefixTo_zero, Finset.inf_image]
  rfl

theorem infTo_zero : infTo g 0 = min ⊤ (Finset.univ.inf fun cc : Fin 512 => g (tile 0 cc)) := by
  rw [infTo_zero', min_eq_right le_top]

theorem infTo_succ (j : ℕ) (hj : j + 1 < 8) :
    infTo g (j + 1) = min (infTo g j) (Finset.univ.inf fun cc : Fin 512 => g (tile (j + 1) cc)) := by
  show (prefixTo (j + 1)).inf g = min ((prefixTo j).inf g) _
  rw [prefixTo_succ j hj, Finset.inf_union, Finset.inf_image]
  rfl

theorem infTo_last : infTo g 7 = Finset.univ.inf g := by
  show (prefixTo 7).inf g = _
  rw [prefixTo_last]

end Cert.Mine

end
-- ==== Proof.KernelIdealInv.lean ====
/-
  What the nine columns mean after every grid point. At point t = 8·i + j, for row R = 512·i + r: the four row statistics are the direct
  squared distances to the own positive and negative and the sums of squares and of entries of the anchor row; the running maximum is the
  largest candidate negative among the first 512·(j+1) columns, the running minimum the smallest candidate positive among them; the
  row-distance column is the root of the direct squared distance; and at the last tile the two result columns are the mined values.
-/
import proofs.«127039_j10264971838200_2_alg».proof.Proof.KernelIdealTile
import proofs.«127039_j10264971838200_2_alg».proof.Proof.KernelIdealPieces
import proofs.«127039_j10264971838200_2_alg».proof.Proof.KernelIdealCols
import proofs.«127039_j10264971838200_2_alg».proof.Proof.MineTiles

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx
open Cert.Mine Cert.Mine.Pay

structure Inv (c : Dev nD) (t : Fin cfg0.N) (x : Cols Ideal) : Prop where
  s2 : ∀ r : Fin 512, x.s2 (ix2 r (0 : Fin 1)) = rowSq (aM m c (tile (t.val / 8) r)) (pM m c (tile (t.val / 8) r))
  s3 : ∀ r : Fin 512, x.s3 (ix2 r (0 : Fin 1)) = rowSq (aM m c (tile (t.val / 8) r)) (nM m c (tile (t.val / 8) r))
  s4 : ∀ r : Fin 512, x.s4 (ix2 r (0 : Fin 1)) = ∑ k, aM m c (tile (t.val / 8) r) k * aM m c (tile (t.val / 8) r) k
  s5 : ∀ r : Fin 512, x.s5 (ix2 r (0 : Fin 1)) = ∑ k, aM m c (tile (t.val / 8) r) k
  s0 : ∀ r : Fin 512, x.s0 (ix2 r (0 : Fin 1)) = supTo (fN m c (tile (t.val / 8) r)) (t.val % 8)
  s1 : ∀ r : Fin 512, x.s1 (ix2 r (0 : Fin 1)) = infTo (fP m c (tile (t.val / 8) r)) (t.val % 8)
  o9 : ∀ r : Fin 512, x.o9 (ix2 r (0 : Fin 1)) = dapK (aM m c) (pM m c) (tile (t.val / 8) r)
  o10 : t.val % 8 = 7 → ∀ r : Fin 512, x.o10 (ix2 r (0 : Fin 1)) = hardNegK (aM m c) (pM m c) (nM m c) (tile (t.val / 8) r)
  o11 : t.val % 8 = 7 → ∀ r : Fin 512, x.o11 (ix2 r (0 : Fin 1)) = hardPosK (aM m c) (pM m c) (nM m c) (tile (t.val / 8) r)

/-- The row statistics the first tile stores. -/
theorem stat_sa (c : Dev nD) (t : Fin cfg0.N) (r : Fin 512) :
    k0_pay8 (F := Ideal) (iblk m c 0 t) (ix2 r (0 : Fin 1)) = ∑ k, aM m c (tile (t.val / 8) r) k * aM m c (tile (t.val / 8) r) k := by
  rw [pay8_apply]; simp only [b0]
theorem stat_ra (c : Dev nD) (t : Fin cfg0.N) (r : Fin 512) :
    k0_pay10 (F := Ideal) (k0_pay9 (F := Ideal) (iblk m c 0 t)) (ix2 r (0 : Fin 1)) = ∑ k, aM m c (tile (t.val / 8) r) k := by
  rw [pay10_pay9_apply]; simp only [b0]
theorem stat_dap (c : Dev nD) (t : Fin cfg0.N) (r : Fin 512) :
    k0_pay5 (F := Ideal) (iblk m c 0 t) (iblk m c 1 t) (ix2 r (0 : Fin 1)) = rowSq (aM m c (tile (t.val / 8) r)) (pM m c (tile (t.val / 8) r)) := by
  rw [pay5_eq, pay4_apply]; simp only [b0, b1]; rfl
theorem stat_dan (c : Dev nD) (t : Fin cfg0.N) (r : Fin 512) :
    k0_pay7 (F := Ideal) (iblk m c 0 t) (iblk m c 2 t) (ix2 r (0 : Fin 1)) = rowSq (aM m c (tile (t.val / 8) r)) (nM m c (tile (t.val / 8) r)) := by
  rw [pay7_apply]; simp only [b0, b2]; rfl

/-- After a first-tile point. -/
theorem inv_A (c : Dev nD) (t : Fin cfg0.N) (h0 : t.val % 8 = 0) (hc0 : cond0_0 (grid0.coords t)) (hc1 : ¬cond0_1 (grid0.coords t)) :
    Inv m c t (colsA m c t hc0 hc1) := by
  refine ⟨fun r => ?_, fun r => ?_, fun r => ?_, fun r => ?_, fun r => ?_, fun r => ?_, fun r => ?_, fun h => absurd h (by omega), fun h => absurd h (by omega)⟩
  · rw [colsA_s2, colA_LS2]; exact stat_dap m c t r
  · rw [colsA_s3, colA_LS3]; exact stat_dan m c t r
  · rw [colsA_s4, colA_LS4]; exact stat_sa m c t r
  · rw [colsA_s5, colA_LS5]; exact stat_ra m c t r
  · rw [colsA_s0, colA_LS0, tileN_apply m c t _ _ _ _ r (stat_sa m c t r) (stat_ra m c t r) (stat_dap m c t r), pay11_apply, h0, supTo_zero]
  · rw [colsA_s1, colA_LS1, tileP_apply m c t _ _ _ _ r (stat_sa m c t r) (stat_ra m c t r) (stat_dan m c t r), pay12_apply, h0, infTo_zero]
  · rw [colsA_o9, colA_L9, pay6_apply, pay4_apply]; simp only [b0, b1]; rfl

/-- What a later tile does to the two running extrema, given the point before. -/
theorem step_s0 (c : Dev nD) (t : Fin cfg0.N) (h0 : ¬t.val % 8 = 0) (p : Cols Ideal)
    (ih : Inv m c ⟨t.val - 1, Nat.lt_of_le_of_lt (Nat.sub_le _ _) t.isLt⟩ p) (r : Fin 512) :
    k0_pay15 (F := Ideal) (k0_pay14 (F := Ideal) (iblk m c 0 t) (iblk m c 4 t) p.s4 (iblk m c 8 t) p.s5 (iblk m c 7 t) p.s2) p.s0 (ix2 r (0 : Fin 1))
      = supTo (fN m c (tile (t.val / 8) r)) (t.val % 8) := by
  have hN : t.val < 64 := hN64 t
  have e8 : (t.val - 1) / 8 = t.val / 8 := by omega
  obtain ⟨j, hj1, hj2⟩ : ∃ j, (t.val - 1) % 8 = j ∧ t.val % 8 = j + 1 := ⟨_, rfl, by omega⟩
  have i4 := ih.s4 r; have i5 := ih.s5 r; have i2 := ih.s2 r; have i0 := ih.s0 r
  simp only [e8, hj1] at i4 i5 i2 i0
  rw [tileN_apply m c t _ _ _ _ r i4 i5 i2, i0, hj2, supTo_succ _ j (by omega)]

theorem step_s1 (c : Dev nD) (t : Fin cfg0.N) (h0 : ¬t.val % 8 = 0) (p : Cols Ideal)
    (ih : Inv m c ⟨t.val - 1, Nat.lt_of_le_of_lt (Nat.sub_le _ _) t.isLt⟩ p) (r : Fin 512) :
    k0_pay1 (F := Ideal) p.s1 (k0_pay16 (F := Ideal) (k0_pay13 (F := Ideal) (iblk m c 0 t)) (iblk m c 3 t) p.s4 (iblk m c 6 t) p.s5 (iblk m c 5 t) p.s3) (ix2 r (0 : Fin 1))
      = infTo (fP m c (tile (t.val / 8) r)) (t.val % 8) := by
  have hN : t.val < 64 := hN64 t
  have e8 : (t.val - 1) / 8 = t.val / 8 := by omega
  obtain ⟨j, hj1, hj2⟩ : ∃ j, (t.val - 1) % 8 = j ∧ t.val % 8 = j + 1 := ⟨_, rfl, by omega⟩
  have i4 := ih.s4 r; have i5 := ih.s5 r; have i3 := ih.s3 r; have i1 := ih.s1 r
  simp only [e8, hj1] at i4 i5 i3 i1
  rw [tileP_apply m c t _ _ _ _ r i4 i5 i3, i1, hj2, infTo_succ _ j (by omega)]

/-- The statistics carried unchanged past the first tile. -/
theorem carried (c : Dev nD) (t : Fin cfg0.N) (h0 : ¬t.val % 8 = 0) (p : Cols Ideal)
    (ih : Inv m c ⟨t.val - 1, Nat.lt_of_le_of_lt (Nat.sub_le _ _) t.isLt⟩ p) (r : Fin 512) :
    p.s2 (ix2 r (0 : Fin 1)) = rowSq (aM m c (tile (t.val / 8) r)) (pM m c (tile (t.val / 8) r)) ∧ p.s3 (ix2 r (0 : Fin 1)) = rowSq (aM m c (tile (t.val / 8) r)) (nM m c (tile (t.val / 8) r))
    ∧ p.s4 (ix2 r (0 : Fin 1)) = (∑ k, aM m c (tile (t.val / 8) r) k * aM m c (tile (t.val / 8) r) k) ∧ p.s5 (ix2 r (0 : Fin 1)) = (∑ k, aM m c (tile (t.val / 8) r) k)
    ∧ p.o9 (ix2 r (0 : Fin 1)) = dapK (aM m c) (pM m c) (tile (t.val / 8) r) := by
  have hN : t.val < 64 := hN64 t
  have e8 : (t.val - 1) / 8 = t.val / 8 := by omega
  have i2 := ih.s2 r; have i3 := ih.s3 r; have i4 := ih.s4 r; have i5 := ih.s5 r; have i9 := ih.o9 r
  simp only [e8] at i2 i3 i4 i5 i9
  exact ⟨i2, i3, i4, i5, i9⟩

/-- After a middle-tile point. -/
theorem inv_B (c : Dev nD) (t : Fin cfg0.N) (h0 : ¬t.val % 8 = 0) (h1 : ¬t.val % 8 = 7) (hc0 : ¬cond0_0 (grid0.coords t)) (hc1 : ¬cond0_1 (grid0.coords t))
    (p : Cols Ideal) (ih : Inv m c ⟨t.val - 1, Nat.lt_of_le_of_lt (Nat.sub_le _ _) t.isLt⟩ p) : Inv m c t (colsB m c t hc0 hc1 p) := by
  refine ⟨fun r => by rw [colsB_s2]; exact (carried m c t h0 p ih r).1, fun r => by rw [colsB_s3]; exact (carried m c t h0 p ih r).2.1,
    fun r => by rw [colsB_s4]; exact (carried m c t h0 p ih r).2.2.1, fun r => by rw [colsB_s5]; exact (carried m c t h0 p ih r).2.2.2.1,
    fun r => ?_, fun r => ?_, fun r => by rw [colsB_o9]; exact (carried m c t h0 p ih r).2.2.2.2, fun h => absurd h h1, fun h => absurd h h1⟩
  · rw [colsB_s0, colB_LS0]; exact step_s0 m c t h0 p ih r
  · rw [colsB_s1, colB_LS1]; exact step_s1 m c t h0 p ih r

/-- After a last-tile point. -/
theorem inv_C (c : Dev nD) (t : Fin cfg0.N) (h0 : ¬t.val % 8 = 0) (h1 : t.val % 8 = 7) (hc0 : ¬cond0_0 (grid0.coords t)) (hc1 : cond0_1 (grid0.coords t))
    (p : Cols Ideal) (ih : Inv m c ⟨t.val - 1, Nat.lt_of_le_of_lt (Nat.sub_le _ _) t.isLt⟩ p) : Inv m c t (colsC m c t hc0 hc1 p) := by
  refine ⟨fun r => by rw [colsC_s2]; exact (carried m c t h0 p ih r).1, fun r => by rw [colsC_s3]; exact (carried m c t h0 p ih r).2.1,
    fun r => by rw [colsC_s4]; exact (carried m c t h0 p ih r).2.2.1, fun r => by rw [colsC_s5]; exact (carried m c t h0 p ih r).2.2.2.1,
    fun r => ?_, fun r => ?_, fun r => by rw [colsC_o9]; exact (carried m c t h0 p ih r).2.2.2.2, fun _ r => ?_, fun _ r => ?_⟩
  · rw [colsC_s0, colC_LS0]; exact step_s0 m c t h0 p ih r
  · rw [colsC_s1, colC_LS1]; exact step_s1 m c t h0 p ih r
  · rw [colsC_o10, colC_L10, pay2_apply, step_s0 m c t h0 p ih r, h1, supTo_last]
    rfl
  · rw [colsC_o11, colC_L11, pay3_apply, step_s1 m c t h0 p ih r, h1, infTo_last]
    rfl

/-- THE INVARIANT holds after every point. -/
theorem inv_all (c : Dev nD) : ∀ (n : ℕ) (t : Fin cfg0.N), t.val = n → Inv m c t (colsAt m c t.val t.isLt) := by
  intro n
  induction n with
  | zero =>
    intro t ht
    have h0 : t.val % 8 = 0 := by omega
    rw [colsAt_A m c t h0 (by omega)]
    exact inv_A m c t h0 _ _
  | succ n ih =>
    intro t ht
    by_cases h0 : t.val % 8 = 0
    · rw [colsAt_A m c t h0 (by omega)]
      exact inv_A m c t h0 _ _
    · have ihp := ih ⟨t.val - 1, Nat.lt_of_le_of_lt (Nat.sub_le _ _) t.isLt⟩ (by show t.val - 1 = n; omega)
      by_cases h1 : t.val % 8 = 7
      · rw [colsAt_C m c t h0 h1]
        exact inv_C m c t h0 h1 _ _ _ ihp
      · rw [colsAt_B m c t h0 h1]
        exact inv_B m c t h0 h1 _ _ _ ihp

end Cert.KernelIdeal.Fr

end
-- ==== Proof.KernelIdealTail.lean ====
/-
  The host operations after the region, read at their one index over the extended reals.

  The program turns the region's three [4096, 1] result columns d, s, t into one number: with μ_s = (Σ_i s_i) / 4096 and
  μ_t = (Σ_i t_i) / 4096 it returns (Σ_i max 0 (d_i − ½·μ_t − ½·μ_s + 1)) / 4096, the mean of the margins clipped at zero from below; the
  third column's halved mean is subtracted first, the second column's second.  A sum over both axes of a column whose second axis has
  extent one is the sum over its 4096 entries, the reshape of a column to a vector and the broadcast of a scalar change no entry, and the
  constant zero a sum starts from is the additive identity, so the number is the specification's mean of clipped margins of the columns' entries.
-/
import proofs.«127039_j10264971838200_2_alg».proof.Proof.KernelIdealRuns
import proofs.«127039_j10264971838200_2_alg».proof.Proof.MineSpec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open scoped BigOperators

/-! ## Pure readings -/

/-- A sum over the indices of a vector is the sum over its one coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ : Fin n ≃ (⟨1, ![n]⟩ : Shape).Idx) f).symm

/-- The total of a [4096, 1] column: reduce-add from the zero constant over both axes is the sum of its 4096 entries. -/
theorem colTotal (d : FVec Ideal S4096x1 .f32) (hR : S4096x1.ReducesTo [0, 1] S_) (h0 : 0 < S_.numel) (j : S_.Idx) :
    Host.reduceAdd d (constant (F := Ideal) S_ .f32 0x00000000#32) hR h0 j = ∑ i : Fin 4096, d (ix2 i (0 : Fin 1)) := by
  refine (hostReduceAdd_apply d _ hR h0 j).trans ?_
  refine (Ideal.hostReduceAdd_total hR (fun b => b.elim0) d _ j).trans ?_
  rw [constant_apply, Ideal.ofBits_zero_f32, zero_add, sum_idx2]
  exact Finset.sum_congr rfl fun a _ => Fin.sum_univ_one _

/-- The total of a length-4096 vector. -/
theorem vecTotal (v : FVec Ideal S4096 .f32) (hR : S4096.ReducesTo [0] S_) (h0 : 0 < S_.numel) (j : S_.Idx) :
    Host.reduceAdd v (constant (F := Ideal) S_ .f32 0x00000000#32) hR h0 j = ∑ i : Fin 4096, v (ix1 i) := by
  refine (hostReduceAdd_apply v _ hR h0 j).trans ?_
  refine (Ideal.hostReduceAdd_total hR (fun b => b.elim0) v _ j).trans ?_
  rw [constant_apply, Ideal.ofBits_zero_f32, zero_add, sum_idx1]

/-- A [4096, 1] column reshaped to a vector keeps its entries. -/
theorem reshapeCol (d : FVec Ideal S4096x1 .f32) (hC : S4096x1.ShapeCasts S4096) (i : Fin 4096) :
    shapeCast S4096 d hC (ix1 i) = d (ix2 i (0 : Fin 1)) := by
  refine shapeCast_apply d hC (ix1 i) (ix2 i (0 : Fin 1)) ?_
  rw [Shape.rowMajor_val_two, Shape.rowMajor_val_one]
  show i.val * 1 + 0 = i.val
  omega

/-- The host operations after the region, as one function of the region's three result columns: the two column means, halved,
    are subtracted from the first column (the third column's first, the second column's second), one is added, the margin is
    clipped at zero from below, and the clipped margins are averaged. -/
def marginMean (d0 d1 d2 : FVec Ideal S4096x1 .f32) : FVec Ideal S_ .f32 :=
  Host.divf
    (Host.reduceAdd
      (maximumf
        (broadcastInDim S4096 ![] bcast_S_S4096 (constant (F := Ideal) S_ .f32 0x00000000#32))
        (addf
          (subf
            (subf
              (fun i => shapeCast S4096 d0 shapeCasts_S4096x1_S4096 i)
              (broadcastInDim S4096 ![] bcast_S_S4096
                (mulf (constant (F := Ideal) S_ .f32 0x3F000000#32)
                  (Host.divf (Host.reduceAdd d2 (constant (F := Ideal) S_ .f32 0x00000000#32) reducesTo_S4096x1_S_d0_1 h_S_)
                    (constant (F := Ideal) S_ .f32 0x45800000#32)))))
            (broadcastInDim S4096 ![] bcast_S_S4096
              (mulf (constant (F := Ideal) S_ .f32 0x3F000000#32)
                (Host.divf (Host.reduceAdd d1 (constant (F := Ideal) S_ .f32 0x00000000#32) reducesTo_S4096x1_S_d0_1 h_S_)
                  (constant (F := Ideal) S_ .f32 0x45800000#32)))))
          (broadcastInDim S4096 ![] bcast_S_S4096 (constant (F := Ideal) S_ .f32 0x3F800000#32))))
      (constant (F := Ideal) S_ .f32 0x00000000#32) reducesTo_S4096_S_d0 h_S_)
    (constant (F := Ideal) S_ .f32 0x45800000#32)

/-- Read at its one index, that function is the mean of clipped margins of the three columns' entries. -/
theorem marginMean_apply (d0 d1 d2 : FVec Ideal S4096x1 .f32) :
    marginMean d0 d1 d2 ix0
      = Cert.Mine.loss (fun i => d0 (ix2 i (0 : Fin 1))) (fun i => d1 (ix2 i (0 : Fin 1))) (fun i => d2 (ix2 i (0 : Fin 1))) := by
  unfold marginMean Cert.Mine.loss
  rw [hostDivf_apply, vecTotal, constant_apply]
  refine congrArg (fun s => Ideal.div s _) (Finset.sum_congr rfl fun i _ => ?_)
  rw [maximumf_apply, broadcastInDim_scalar_apply, constant_apply, Ideal.ofBits_zero_f32, addf_apply, subf_apply, subf_apply,
    broadcastInDim_scalar_apply, broadcastInDim_scalar_apply, broadcastInDim_scalar_apply, mulf_apply, mulf_apply,
    hostDivf_apply, hostDivf_apply, colTotal, colTotal, constant_apply, constant_apply, constant_apply]
  show max 0 (shapeCast S4096 d0 shapeCasts_S4096x1_S4096 (ix1 i) - _ - _ + _) = _
  rw [reshapeCol]
  rfl

/-! ## The scalar after the region -/

/-- The scalar the program returns is that function of whatever the region left in its three result buffers. -/
theorem after_tail_fn (W : Valuation τ sig (Elt Ideal)) :
    (StableHlo.after hostOps1_2 (StableHlo.after hostOps1_1 (StableHlo.after hostOps1 W)) (Proc.devRef .tc main_v30) : S_.Idx → EReal)
      = marginMean (W (Proc.devRef .tc main_v14_0)) (W (Proc.devRef .tc main_v14_1)) (W (Proc.devRef .tc main_v14_2)) := by
  after_results_simp
  generalize W (Proc.devRef .tc main_v14_0) = d0
  generalize W (Proc.devRef .tc main_v14_1) = d1
  generalize W (Proc.devRef .tc main_v14_2) = d2
  rfl

/-- The returned scalar is the mean of clipped margins of the three result columns: the first column the distances, the second
    column the one whose halved mean is subtracted second, the third the one whose halved mean is subtracted first. -/
theorem tail_eq (W : Valuation τ sig (Elt Ideal)) :
    StableHlo.after hostOps1_2 (StableHlo.after hostOps1_1 (StableHlo.after hostOps1 W)) (Proc.devRef .tc main_v30) ValueIdx.ix0
      = Cert.Mine.loss (fun i => W (Proc.devRef .tc main_v14_0) (ix2 i (0 : Fin 1)))
          (fun i => W (Proc.devRef .tc main_v14_1) (ix2 i (0 : Fin 1)))
          (fun i => W (Proc.devRef .tc main_v14_2) (ix2 i (0 : Fin 1))) :=
  (congrFun (after_tail_fn W) ix0).trans (marginMean_apply _ _ _)

end Cert.KernelIdeal.Fr

end
-- ==== Proof.KernelIdealFinal.lean ====
/-
  The three result columns after the run, and the program's result. Every last-tile point writes its row block of a result column back, and
  the eight row blocks tile the column; so each column ends holding, row by row, the specification's value, and the host's mean of clipped
  margins of the three columns is the specification's loss mined in squared space.
-/
import proofs.«127039_j10264971838200_2_alg».proof.Proof.KernelIdealInv
import proofs.«127039_j10264971838200_2_alg».proof.Proof.KernelIdealLaunch
import proofs.«127039_j10264971838200_2_alg».proof.Proof.KernelIdealTail

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx
open Cert.Mine Cert.Mine.Pay

/-- A function of the row number as a [4096, 1] column. -/
def Gcol (g : Fin 4096 → EReal) : (⟨2, ![4096, 1]⟩ : Shape).Idx → EReal := fun i => g ⟨(i 0).val, idx2_lt0 i⟩

theorem Gcol_apply (g : Fin 4096 → EReal) (q : Fin 4096) (z : Fin 1) : Gcol g (ix2 q z) = g q := rfl

/-- An index of result column 9's array is in point `t`'s block iff its row is in row block `t / 8`. -/
theorem mem_blk9 (t : Fin cfg0.N) (i : (⟨2, ![4096, 1]⟩ : Shape).Idx) :
    i ∈ ((cfg0.win 9).blk t).view.set ↔ ∀ a : Fin 2, win0_9.index t a * S512x1.size a ≤ (i a).val ∧ (i a).val < win0_9.index t a * S512x1.size a + S512x1.size a := by
  show i ∈ ((View.whole main_v14_0).slice (win0_9.rect t)).set ↔ _
  rw [View.set_slice_whole, Rect.mem_set_unit]
  exact Iff.rfl

/-- What a last-tile point writes back into result column 9 is its row block of the specification's column. -/
theorem flushed9_eq (c : Dev nD) (t : Fin cfg0.N) (hf : (cfg0.win 9).flush t = true) :
    (dats m 0 c).flushed 9 t = ((cfg0.win 9).blk t).view.read (Elt Ideal) (Gcol (dapK (aM m c) (pM m c))) := by
  have h1 : t.val % 8 = 7 := (flush0_9 t).mp hf
  have hN := hN64 t
  have hf' := idx_facts t
  show (cfg0.win 9).cut (grid0.coords t) ((dats m 0 c).after 9 t) = _
  rw [after0_9]
  funext y
  obtain ⟨r, z, rfl⟩ : ∃ (r : Fin 512) (z : Fin 1), y = ix2 r z := ⟨y 0, y 1, eq_ix2 y⟩
  obtain rfl : z = 0 := Subsingleton.elim _ _
  show (colsAt m c t.val t.isLt).o9 (ix2 r (0 : Fin 1)) = Gcol (dapK (aM m c) (pM m c)) (((cfg0.win 9).blk t).view.emb (ix2 r (0 : Fin 1)))
  rw [(inv_all m c t.val t rfl).o9 r]
  show dapK (aM m c) (pM m c) (tile (t.val / 8) r) = dapK (aM m c) (pM m c) ⟨(((cfg0.win 9).blk t).view.emb (ix2 r (0 : Fin 1)) 0).val, _⟩
  refine congrArg (dapK (aM m c) (pM m c)) (Fin.ext ?_)
  have hr := r.isLt
  show (512 * (t.val / 8) + r.val) % 4096 = win0_9.index t (0 : Fin 2) * 512 + 1 * r.val
  omega

/-- Every row of result column 9 is in some last-tile point's block. -/
theorem cover9 (i : (⟨2, ![4096, 1]⟩ : Shape).Idx) :
    ∃ t : Fin cfg0.N, (cfg0.win 9).flush t = true ∧ i ∈ ((cfg0.win 9).blk t).view.set := by
  have hi0 : (i 0).val < 4096 := (i 0).isLt
  have hi1 : (i 1).val < 1 := (i 1).isLt
  have hlt : 8 * ((i 0).val / 512) + 7 < cfg0.N := lt_of_lt_of_eq (show 8 * ((i 0).val / 512) + 7 < 64 by omega) N_0.symm
  refine ⟨⟨8 * ((i 0).val / 512) + 7, hlt⟩, (flush0_9 _).mpr (by show (8 * ((i 0).val / 512) + 7) % 8 = 7; omega), ?_⟩
  have hf' := idx_facts ⟨8 * ((i 0).val / 512) + 7, hlt⟩
  rw [mem_blk9]
  intro a
  match a with
  | ⟨0, _⟩ =>
    show win0_9.index ⟨8 * ((i 0).val / 512) + 7, hlt⟩ (0 : Fin 2) * 512 ≤ (i 0).val ∧ (i 0).val < win0_9.index ⟨8 * ((i 0).val / 512) + 7, hlt⟩ (0 : Fin 2) * 512 + 512
    have e : win0_9.index ⟨8 * ((i 0).val / 512) + 7, hlt⟩ (0 : Fin 2) = (8 * ((i 0).val / 512) + 7) / 8 := by obtain ⟨_, _, _, _, _, _, e, _, _, _, _, _, _, _, _, _, _, _, _, _, _, _, _, _⟩ := hf'; exact e
    omega
  | ⟨1, _⟩ =>
    show win0_9.index ⟨8 * ((i 0).val / 512) + 7, hlt⟩ (1 : Fin 2) * 1 ≤ (i 1).val ∧ (i 1).val < win0_9.index ⟨8 * ((i 0).val / 512) + 7, hlt⟩ (1 : Fin 2) * 1 + 1
    have e : win0_9.index ⟨8 * ((i 0).val / 512) + 7, hlt⟩ (1 : Fin 2) = 0 := by obtain ⟨_, _, _, _, _, _, _, e, _, _, _, _, _, _, _, _, _, _, _, _, _, _, _, _⟩ := hf'; exact e
    omega

/-- Result column 9 after the run. -/
theorem final9 (c : Dev nD) (q : Fin 4096) : (dats m 0 c).arrAt 9 cfg0.N (ix2 q (0 : Fin 1)) = dapK (aM m c) (pM m c) q := by
  rw [(dats m 0 c).arrAt_eq_of_cover 9 (Gcol (dapK (aM m c) (pM m c))) (fun t hf => flushed9_eq m c t hf) cover9]
  rfl

/-- An index of result column 10's array is in point `t`'s block iff its row is in row block `t / 8`. -/
theorem mem_blk10 (t : Fin cfg0.N) (i : (⟨2, ![4096, 1]⟩ : Shape).Idx) :
    i ∈ ((cfg0.win 10).blk t).view.set ↔ ∀ a : Fin 2, win0_10.index t a * S512x1.size a ≤ (i a).val ∧ (i a).val < win0_10.index t a * S512x1.size a + S512x1.size a := by
  show i ∈ ((View.whole main_v14_1).slice (win0_10.rect t)).set ↔ _
  rw [View.set_slice_whole, Rect.mem_set_unit]
  exact Iff.rfl

/-- What a last-tile point writes back into result column 10 is its row block of the specification's column. -/
theorem flushed10_eq (c : Dev nD) (t : Fin cfg0.N) (hf : (cfg0.win 10).flush t = true) :
    (dats m 0 c).flushed 10 t = ((cfg0.win 10).blk t).view.read (Elt Ideal) (Gcol (hardNegK (aM m c) (pM m c) (nM m c))) := by
  have h1 : t.val % 8 = 7 := (flush0_10 t).mp hf
  have hN := hN64 t
  have hf' := idx_facts t
  show (cfg0.win 10).cut (grid0.coords t) ((dats m 0 c).after 10 t) = _
  rw [after0_10]
  funext y
  obtain ⟨r, z, rfl⟩ : ∃ (r : Fin 512) (z : Fin 1), y = ix2 r z := ⟨y 0, y 1, eq_ix2 y⟩
  obtain rfl : z = 0 := Subsingleton.elim _ _
  show (colsAt m c t.val t.isLt).o10 (ix2 r (0 : Fin 1)) = Gcol (hardNegK (aM m c) (pM m c) (nM m c)) (((cfg0.win 10).blk t).view.emb (ix2 r (0 : Fin 1)))
  rw [(inv_all m c t.val t rfl).o10 h1 r]
  show hardNegK (aM m c) (pM m c) (nM m c) (tile (t.val / 8) r) = hardNegK (aM m c) (pM m c) (nM m c) ⟨(((cfg0.win 10).blk t).view.emb (ix2 r (0 : Fin 1)) 0).val, _⟩
  refine congrArg (hardNegK (aM m c) (pM m c) (nM m c)) (Fin.ext ?_)
  have hr := r.isLt
  show (512 * (t.val / 8) + r.val) % 4096 = win0_10.index t (0 : Fin 2) * 512 + 1 * r.val
  omega

/-- Every row of result column 10 is in some last-tile point's block. -/
theorem cover10 (i : (⟨2, ![4096, 1]⟩ : Shape).Idx) :
    ∃ t : Fin cfg0.N, (cfg0.win 10).flush t = true ∧ i ∈ ((cfg0.win 10).blk t).view.set := by
  have hi0 : (i 0).val < 4096 := (i 0).isLt
  have hi1 : (i 1).val < 1 := (i 1).isLt
  have hlt : 8 * ((i 0).val / 512) + 7 < cfg0.N := lt_of_lt_of_eq (show 8 * ((i 0).val / 512) + 7 < 64 by omega) N_0.symm
  refine ⟨⟨8 * ((i 0).val / 512) + 7, hlt⟩, (flush0_10 _).mpr (by show (8 * ((i 0).val / 512) + 7) % 8 = 7; omega), ?_⟩
  have hf' := idx_facts ⟨8 * ((i 0).val / 512) + 7, hlt⟩
  rw [mem_blk10]
  intro a
  match a with
  | ⟨0, _⟩ =>
    show win0_10.index ⟨8 * ((i 0).val / 512) + 7, hlt⟩ (0 : Fin 2) * 512 ≤ (i 0).val ∧ (i 0).val < win0_10.index ⟨8 * ((i 0).val / 512) + 7, hlt⟩ (0 : Fin 2) * 512 + 512
    have e : win0_10.index ⟨8 * ((i 0).val / 512) + 7, hlt⟩ (0 : Fin 2) = (8 * ((i 0).val / 512) + 7) / 8 := by obtain ⟨_, _, _, _, _, _, _, _, e, _, _, _, _, _, _, _, _, _, _, _, _, _, _, _⟩ := hf'; exact e
    omega
  | ⟨1, _⟩ =>
    show win0_10.index ⟨8 * ((i 0).val / 512) + 7, hlt⟩ (1 : Fin 2) * 1 ≤ (i 1).val ∧ (i 1).val < win0_10.index ⟨8 * ((i 0).val / 512) + 7, hlt⟩ (1 : Fin 2) * 1 + 1
    have e : win0_10.index ⟨8 * ((i 0).val / 512) + 7, hlt⟩ (1 : Fin 2) = 0 := by obtain ⟨_, _, _, _, _, _, _, _, _, e, _, _, _, _, _, _, _, _, _, _, _, _, _, _⟩ := hf'; exact e
    omega

/-- Result column 10 after the run. -/
theorem final10 (c : Dev nD) (q : Fin 4096) : (dats m 0 c).arrAt 10 cfg0.N (ix2 q (0 : Fin 1)) = hardNegK (aM m c) (pM m c) (nM m c) q := by
  rw [(dats m 0 c).arrAt_eq_of_cover 10 (Gcol (hardNegK (aM m c) (pM m c) (nM m c))) (fun t hf => flushed10_eq m c t hf) cover10]
  rfl

/-- An index of result column 11's array is in point `t`'s block iff its row is in row block `t / 8`. -/
theorem mem_blk11 (t : Fin cfg0.N) (i : (⟨2, ![4096, 1]⟩ : Shape).Idx) :
    i ∈ ((cfg0.win 11).blk t).view.set ↔ ∀ a : Fin 2, win0_11.index t a * S512x1.size a ≤ (i a).val ∧ (i a).val < win0_11.index t a * S512x1.size a + S512x1.size a := by
  show i ∈ ((View.whole main_v14_2).slice (win0_11.rect t)).set ↔ _
  rw [View.set_slice_whole, Rect.mem_set_unit]
  exact Iff.rfl

/-- What a last-tile point writes back into result column 11 is its row block of the specification's column. -/
theorem flushed11_eq (c : Dev nD) (t : Fin cfg0.N) (hf : (cfg0.win 11).flush t = true) :
    (dats m 0 c).flushed 11 t = ((cfg0.win 11).blk t).view.read (Elt Ideal) (Gcol (hardPosK (aM m c) (pM m c) (nM m c))) := by
  have h1 : t.val % 8 = 7 := (flush0_11 t).mp hf
  have hN := hN64 t
  have hf' := idx_facts t
  show (cfg0.win 11).cut (grid0.coords t) ((dats m 0 c).after 11 t) = _
  rw [after0_11]
  funext y
  obtain ⟨r, z, rfl⟩ : ∃ (r : Fin 512) (z : Fin 1), y = ix2 r z := ⟨y 0, y 1, eq_ix2 y⟩
  obtain rfl : z = 0 := Subsingleton.elim _ _
  show (colsAt m c t.val t.isLt).o11 (ix2 r (0 : Fin 1)) = Gcol (hardPosK (aM m c) (pM m c) (nM m c)) (((cfg0.win 11).blk t).view.emb (ix2 r (0 : Fin 1)))
  rw [(inv_all m c t.val t rfl).o11 h1 r]
  show hardPosK (aM m c) (pM m c) (nM m c) (tile (t.val / 8) r) = hardPosK (aM m c) (pM m c) (nM m c) ⟨(((cfg0.win 11).blk t).view.emb (ix2 r (0 : Fin 1)) 0).val, _⟩
  refine congrArg (hardPosK (aM m c) (pM m c) (nM m c)) (Fin.ext ?_)
  have hr := r.isLt
  show (512 * (t.val / 8) + r.val) % 4096 = win0_11.index t (0 : Fin 2) * 512 + 1 * r.val
  omega

/-- Every row of result column 11 is in some last-tile point's block. -/
theorem cover11 (i : (⟨2, ![4096, 1]⟩ : Shape).Idx) :
    ∃ t : Fin cfg0.N, (cfg0.win 11).flush t = true ∧ i ∈ ((cfg0.win 11).blk t).view.set := by
  have hi0 : (i 0).val < 4096 := (i 0).isLt
  have hi1 : (i 1).val < 1 := (i 1).isLt
  have hlt : 8 * ((i 0).val / 512) + 7 < cfg0.N := lt_of_lt_of_eq (show 8 * ((i 0).val / 512) + 7 < 64 by omega) N_0.symm
  refine ⟨⟨8 * ((i 0).val / 512) + 7, hlt⟩, (flush0_11 _).mpr (by show (8 * ((i 0).val / 512) + 7) % 8 = 7; omega), ?_⟩
  have hf' := idx_facts ⟨8 * ((i 0).val / 512) + 7, hlt⟩
  rw [mem_blk11]
  intro a
  match a with
  | ⟨0, _⟩ =>
    show win0_11.index ⟨8 * ((i 0).val / 512) + 7, hlt⟩ (0 : Fin 2) * 512 ≤ (i 0).val ∧ (i 0).val < win0_11.index ⟨8 * ((i 0).val / 512) + 7, hlt⟩ (0 : Fin 2) * 512 + 512
    have e : win0_11.index ⟨8 * ((i 0).val / 512) + 7, hlt⟩ (0 : Fin 2) = (8 * ((i 0).val / 512) + 7) / 8 := by obtain ⟨_, _, _, _, _, _, _, _, _, _, e, _, _, _, _, _, _, _, _, _, _, _, _, _⟩ := hf'; exact e
    omega
  | ⟨1, _⟩ =>
    show win0_11.index ⟨8 * ((i 0).val / 512) + 7, hlt⟩ (1 : Fin 2) * 1 ≤ (i 1).val ∧ (i 1).val < win0_11.index ⟨8 * ((i 0).val / 512) + 7, hlt⟩ (1 : Fin 2) * 1 + 1
    have e : win0_11.index ⟨8 * ((i 0).val / 512) + 7, hlt⟩ (1 : Fin 2) = 0 := by obtain ⟨_, _, _, _, _, _, _, _, _, _, _, e, _, _, _, _, _, _, _, _, _, _, _, _⟩ := hf'; exact e
    omega

/-- Result column 11 after the run. -/
theorem final11 (c : Dev nD) (q : Fin 4096) : (dats m 0 c).arrAt 11 cfg0.N (ix2 q (0 : Fin 1)) = hardPosK (aM m c) (pM m c) (nM m c) q := by
  rw [(dats m 0 c).arrAt_eq_of_cover 11 (Gcol (hardPosK (aM m c) (pM m c) (nM m c))) (fun t hf => flushed11_eq m c t hf) cover11]
  rfl

/-- THE RESULT: the last valuation's result buffer holds the loss mined in squared space. -/
theorem kernel_value (c : Dev nD) :
    W3 m c (Proc.devRef .tc main_v30) = fun _ => lossK (aM m c) (pM m c) (nM m c) := by
  funext i
  rw [eq_ix0 i]
  show StableHlo.after hostOps1_2 (StableHlo.after hostOps1_1 (StableHlo.after hostOps1 (Wr m c))) (Proc.devRef .tc main_v30) ix0 = _
  rw [tail_eq (Wr m c)]
  have e9 : (fun i : Fin 4096 => Wr m c (Proc.devRef .tc main_v14_0) (ix2 i (0 : Fin 1))) = dapK (aM m c) (pM m c) :=
    funext fun i => (congrFun (Wr_v14_0 m c) (ix2 i (0 : Fin 1))).trans (final9 m c i)
  have e10 : (fun i : Fin 4096 => Wr m c (Proc.devRef .tc main_v14_1) (ix2 i (0 : Fin 1))) = hardNegK (aM m c) (pM m c) (nM m c) :=
    funext fun i => (congrFun (Wr_v14_1 m c) (ix2 i (0 : Fin 1))).trans (final10 m c i)
  have e11 : (fun i : Fin 4096 => Wr m c (Proc.devRef .tc main_v14_2) (ix2 i (0 : Fin 1))) = hardPosK (aM m c) (pM m c) (nM m c) :=
    funext fun i => (congrFun (Wr_v14_2 m c) (ix2 i (0 : Fin 1))).trans (final11 m c i)
  rw [e9, e10, e11]
  rfl

end Cert.KernelIdeal.Fr

end
-- ==== Proof.RefDist.lean ====
/-
  The reference's distances, read at an index: the root of the direct squared distance of rows i of two arrays (a norm of the
  shifted difference), and the root of the positive part of the expanded squared distance between row i of one and row j
  of the other.
-/
import proofs.«127039_j10264971838200_2_alg».proof.Proof.RefReadP
import proofs.«127039_j10264971838200_2_alg».proof.Proof.MineSpec

noncomputable section

namespace Cert.Mine.Ref

open Idealize.ShloMosaic Idealize.ShloMosaic.ValueIdx Cert.ReferenceIdeal Cert.ReferenceIdeal.ReadP

/-- An argument array over the extended reals. -/
abbrev Arr : Type := (⟨S4096x1024, .f32⟩ : BufTy).Contents (Elt Ideal)

/-- The zero word read at any index of a scalar constant is 0. -/
theorem zero_word : Ideal.ofBits .f32 0x00000000#32 = (0 : EReal) := Ideal.ofBits_zero_f32

/-! ## Sums along a row -/

/-- Σ_k x(i,k)². -/
theorem v9_at (x : Arr) (i : Fin 4096) :
    val_main_v9 (F := Ideal) x (ix1 i) = ∑ k : Fin 1024, x (ix2 i k) * x (ix2 i k) := by
  rw [val_main_v9_apply]
  have e : ∀ k, idx_main_v9 (ix1 i) k = ix2 i k := fun k =>
    funext fun a => Fin.ext (by match a with | ⟨0, _⟩ => rfl | ⟨1, _⟩ => rfl)
  refine Eq.trans (congrArg₂ (· + ·) zero_word (Finset.sum_congr rfl fun k _ => ?_)) (zero_add _)
  rw [e k]; rfl

/-- Σ_k x(i,k). -/
theorem v22_at (x : Arr) (i : Fin 4096) :
    val_main_v22 (F := Ideal) x (ix1 i) = ∑ k : Fin 1024, x (ix2 i k) := by
  rw [val_main_v22_apply]
  have e : ∀ k, idx_main_v22 (ix1 i) k = ix2 i k := fun k =>
    funext fun a => Fin.ext (by match a with | ⟨0, _⟩ => rfl | ⟨1, _⟩ => rfl)
  refine Eq.trans (congrArg₂ (· + ·) zero_word (Finset.sum_congr rfl fun k _ => ?_)) (zero_add _)
  rw [e k]

/-- Σ_k x(i,k)·y(j,k): the product with the transpose. -/
theorem v18_at (x y : Arr) (i j : Fin 4096) :
    val_main_v18 (F := Ideal) x y (ix2 i j) = ∑ k : Fin 1024, x (ix2 i k) * y (ix2 j k) := by
  rw [val_main_v18_apply]
  refine Finset.sum_congr rfl fun k _ => ?_
  have el : lidx_main_v18 (ix2 i j) k = ix2 i k :=
    funext fun a => Fin.ext (by match a with | ⟨0, _⟩ => rfl | ⟨1, _⟩ => rfl)
  have er : idx_main_v17 (ridx_main_v18 (ix2 i j) k) = ix2 j k :=
    funext fun a => Fin.ext (by match a with | ⟨0, _⟩ => rfl | ⟨1, _⟩ => rfl)
  rw [val_main_v17_apply, el, er]

/-! ## The direct squared distance and its root -/

/-- Σ_k (x(i,k) − y(i,k) + ε)². -/
theorem call0_v1_at (x y : Arr) (i : Fin 4096) :
    val_main_call0_v1 (F := Ideal) x y (ix1 i) = rowSq (mat x i) (mat y i) := by
  rw [val_main_call0_v1_apply]
  have e : ∀ k, idx_main_call0_v1 (ix1 i) k = ix2 i k := fun k =>
    funext fun a => Fin.ext (by match a with | ⟨0, _⟩ => rfl | ⟨1, _⟩ => rfl)
  refine Eq.trans (congrArg₂ (· + ·) zero_word (Finset.sum_congr rfl fun k _ => ?_)) (zero_add _)
  rw [e k, val_main_call0_v0_apply, val_main_v2_apply, val_main_v0_apply, val_main_v1_apply, val_main_cst_apply]
  rfl

/-- The distance of row i of x to row i of y. -/
theorem v3_at (x y : Arr) (i : Fin 4096) :
    val_main_v3 (F := Ideal) x y (ix1 i) = Ideal.sqrt (rowSq (mat x i) (mat y i)) := by
  rw [val_main_v3_apply, call0_v1_at]; rfl

/-- The second call of the norm is the first, at the other pair of arrays. -/
theorem v7_eq (x y : Arr) : val_main_v7 (F := Ideal) x y = val_main_v3 (F := Ideal) x y := rfl

/-! ## The expanded squared distance and its root -/

/-- The squared norms, broadcast along rows and along columns. -/
theorem v14_at (x : Arr) (i j : Fin 4096) : val_main_v14 (F := Ideal) x (ix2 i j) = val_main_v9 (F := Ideal) x (ix1 i) :=
  (val_main_v14_apply x _).trans ((val_main_v10_apply x _).trans (congrArg (val_main_v9 (F := Ideal) x)
    (funext fun a => Fin.ext (by match a with | ⟨0, _⟩ => rfl))))
theorem v15_at (y : Arr) (i j : Fin 4096) : val_main_v15 (F := Ideal) y (ix2 i j) = val_main_v12 (F := Ideal) y (ix1 j) :=
  (val_main_v15_apply y _).trans ((val_main_v13_apply y _).trans (congrArg (val_main_v12 (F := Ideal) y)
    (funext fun a => Fin.ext (by match a with | ⟨0, _⟩ => rfl))))
theorem v12_eq (y : Arr) : val_main_v12 (F := Ideal) y = val_main_v9 (F := Ideal) y := rfl
/-- The row sums, broadcast along rows and along columns. -/
theorem v26_at (x : Arr) (i j : Fin 4096) : val_main_v26 (F := Ideal) x (ix2 i j) = val_main_v22 (F := Ideal) x (ix1 i) :=
  (val_main_v26_apply x _).trans ((val_main_v23_apply x _).trans (congrArg (val_main_v22 (F := Ideal) x)
    (funext fun a => Fin.ext (by match a with | ⟨0, _⟩ => rfl))))
theorem v27_at (y : Arr) (i j : Fin 4096) : val_main_v27 (F := Ideal) y (ix2 i j) = val_main_v24 (F := Ideal) y (ix1 j) :=
  (val_main_v27_apply y _).trans ((val_main_v25_apply y _).trans (congrArg (val_main_v24 (F := Ideal) y)
    (funext fun a => Fin.ext (by match a with | ⟨0, _⟩ => rfl))))
theorem v24_eq (y : Arr) : val_main_v24 (F := Ideal) y = val_main_v22 (F := Ideal) y := rfl

/-- ‖x_i‖² + ‖y_j‖² − 2·x_i·y_j + 2ε'·(Σx_i − Σy_j) + δ. -/
theorem v33_at (x y : Arr) (i j : Fin 4096) :
    val_main_v33 (F := Ideal) x y (ix2 i j) = expSq (mat x i) (mat y j) := by
  rw [val_main_v33_apply, val_main_v31_apply, val_main_v21_apply, val_main_v16_apply, v14_at, v15_at, v12_eq, v9_at, v9_at,
    val_main_v20_apply, val_main_v19_apply, val_main_cst_3_apply, v18_at,
    val_main_v30_apply, val_main_v29_apply, val_main_cst_6_apply, val_main_v28_apply, v26_at, v27_at, v24_eq, v22_at, v22_at,
    val_main_v32_apply, val_main_cst_7_apply]
  rfl

/-- The root of its positive part. -/
theorem v36_at (x y : Arr) (i j : Fin 4096) :
    val_main_v36 (F := Ideal) x y (ix2 i j) = root (expSq (mat x i) (mat y j)) := by
  rw [val_main_v36_apply, val_main_v35_apply, v33_at, val_main_v34_apply, val_main_cst_8_apply]
  show Ideal.sqrt (max (expSq (mat x i) (mat y j)) (Ideal.ofBits .f32 0x00000000#32)) = _
  rw [zero_word]; rfl

/-- The second distance matrix is the first, at the other pair of arrays. -/
theorem v74_eq (x y : Arr) : val_main_v74 (F := Ideal) x y = val_main_v36 (F := Ideal) x y := rfl

end Cert.Mine.Ref

end
-- ==== Proof.RefFold.lean ====
/-
  Folds over a row, read at an index: a reduction of a [4096, 4096] array over its second axis is, at row i, the fold over
  the columns j of the entries (i, j); a fold of "or" from false is an existence, a fold of max from −∞ a supremum, a fold
  of min from +∞ an infimum; a comparison's bit selects as the comparison decides.
-/
import Idealize.ShloMosaic.PureOps.Ideal.Laws
import Idealize.ShloMosaic.PureOps.Reduce
import Idealize.ShloMosaic.Lib.ValueIdx

noncomputable section

namespace Cert.Mine.Fold

open Idealize.ShloMosaic Idealize.ShloMosaic.ValueIdx

/-- The square array's shape, a row's, and the scalar's. -/
abbrev Sq : Shape := ⟨2, ![4096, 4096]⟩
abbrev Sr : Shape := ⟨1, ![4096]⟩
abbrev S0 : Shape := ⟨0, ![]⟩

/-- Row index i with column k put back is (i, k). -/
theorem lift_ix2 (h : Sq.Reduces [1] Sr) (i : Fin 4096) (k : Fin (Sq.size 1)) :
    h.lift (ix1 i) k = ix2 i (⟨k.val, k.isLt⟩ : Fin 4096) := by
  funext c; apply Fin.ext
  fin_cases c <;> rfl

/-- A reduction over the second axis, at row i, is the fold over the columns. -/
theorem reduce_row {α : Type} (f : α → α → α) [Std.Commutative f] [Std.Associative f] (x : Sq.Idx → α) (init : S0.Idx → α)
    (h' : Sq.ReducesTo [1] Sr) (hu : 0 < S0.numel) (i : Fin 4096) :
    Host.reduce f x init h' hu (ix1 i)
      = (Finset.univ : Finset (Fin 4096)).fold f (init (Shape.Idx.first hu)) (fun j => x (ix2 i j)) := by
  have h : Sq.Reduces [1] Sr := by decide
  rw [Host.reduce_eq_fold_single f x init h' h hu]
  have hf : (x ∘ h.lift (ix1 i)) = fun k : Fin 4096 => x (ix2 i k) := funext fun k => congrArg x (lift_ix2 h i k)
  exact congrArg (fun g => Finset.fold f (init (Shape.Idx.first hu)) g (Finset.univ : Finset (Fin 4096))) hf

/-- On one-bit words "or" is 1 exactly when one of the two is. -/
theorem ori_eq_one (x y : BitVec 1) : IntOp.ori x y = 1#1 ↔ x = 1#1 ∨ y = 1#1 := by
  rcases BitVec.eq_zero_or_eq_one x with rfl | rfl <;> rcases BitVec.eq_zero_or_eq_one y with rfl | rfl <;> decide

/-- A fold of "or" from 0 is 1 exactly when some entry is. -/
theorem fold_ori_eq_one {ι : Type} [DecidableEq ι] (s : Finset ι) (g : ι → BitVec 1) :
    s.fold IntOp.ori 0#1 g = 1#1 ↔ ∃ j ∈ s, g j = 1#1 := by
  induction s using Finset.induction_on with
  | empty => simp
  | insert a s ha ih =>
    rw [Finset.fold_insert ha, ori_eq_one, ih]
    constructor
    · rintro (h | ⟨j, hj, h⟩)
      · exact ⟨a, Finset.mem_insert_self a s, h⟩
      · exact ⟨j, Finset.mem_insert_of_mem hj, h⟩
    · rintro ⟨j, hj, h⟩
      rcases Finset.mem_insert.1 hj with rfl | hj
      · exact Or.inl h
      · exact Or.inr ⟨j, hj, h⟩

/-- A fold of max from −∞ is the supremum. -/
theorem fold_max_eq_sup {ι : Type} (s : Finset ι) (g : ι → EReal) :
    s.fold (FloatOps.maximumf (F := Ideal) (φ := .f32)) (⊥ : EReal) g = s.sup g := rfl

/-- A fold of min from +∞ is the infimum. -/
theorem fold_min_eq_inf {ι : Type} (s : Finset ι) (g : ι → EReal) :
    s.fold (FloatOps.minimumf (F := Ideal) (φ := .f32)) (⊤ : EReal) g = s.inf g := rfl

/-- The words of −∞ and +∞. -/
theorem ofBits_negInf : Ideal.ofBits .f32 0xFF800000#32 = (⊥ : EReal) := by simp [Ideal.ofBits, Ideal.ieee]
theorem ofBits_posInf : Ideal.ofBits .f32 0x7F800000#32 = (⊤ : EReal) := by simp [Ideal.ofBits, Ideal.ieee]

/-- A comparison's bit is 1 exactly when the comparison holds. -/
theorem cmp_olt_eq_one (x y : EReal) : Ideal.cmp .olt x y = 1#1 ↔ x < y := by
  unfold Ideal.cmp
  by_cases h : x < y <;> simp [h]
theorem cmp_ogt_eq_one (x y : EReal) : Ideal.cmp .ogt x y = 1#1 ↔ y < x := by
  unfold Ideal.cmp
  by_cases h : y < x <;> simp [h]

/-- Selecting on a comparison's bit is the conditional on the comparison. -/
theorem select_olt {α : Type} (x y : EReal) (a b : α) : Scalar.select (Ideal.cmp .olt x y) a b = if x < y then a else b := by
  unfold Scalar.select
  exact if_congr (cmp_olt_eq_one x y) rfl rfl
theorem select_ogt {α : Type} (x y : EReal) (a b : α) : Scalar.select (Ideal.cmp .ogt x y) a b = if y < x then a else b := by
  unfold Scalar.select
  exact if_congr (cmp_ogt_eq_one x y) rfl rfl

/-- A sum over a row's indices is the sum over its coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Mine.Fold

end
-- ==== Proof.RefMine.lean ====
/-
  The reference's mining, read at an index. For anchor row i: the mask of the negatives nearer than the row's own positive, whether
  any qualifies, the largest qualifying distance, and their conditional (the hardest negative); dually the smallest distance
  among the positives farther than the row's own negative (the hardest positive).
-/
import proofs.«127039_j10264971838200_2_alg».proof.Proof.RefDist
import proofs.«127039_j10264971838200_2_alg».proof.Proof.RefFold

noncomputable section

namespace Cert.Mine.Ref

open Idealize.ShloMosaic Idealize.ShloMosaic.ValueIdx Cert.ReferenceIdeal Cert.ReferenceIdeal.Gen Cert.ReferenceIdeal.ReadP Cert.Mine.Fold

/-! ## The hardest negative -/

/-- The row's own positive distance, broadcast along the row. -/
theorem v38_at (x y : Arr) (i j : Fin 4096) : val_main_v38 (F := Ideal) x y (ix2 i j) = val_main_v3 (F := Ideal) x y (ix1 i) :=
  (val_main_v38_apply x y _).trans ((val_main_v37_apply x y _).trans (congrArg (val_main_v3 (F := Ideal) x y)
    (funext fun a => Fin.ext (by match a with | ⟨0, _⟩ => rfl))))

/-- The mask: negative j is nearer to anchor i than its own positive. -/
theorem v39_at (x0 x1 x2 : Arr) (i j : Fin 4096) :
    val_main_v39 (F := Ideal) x0 x1 x2 (ix2 i j)
      = Ideal.cmp .olt (root (expSq (mat x0 i) (mat x2 j))) (dapR (mat x0) (mat x1) i) := by
  rw [val_main_v39_apply, v36_at, v38_at, v3_at]; rfl

/-- Some negative qualifies. -/
theorem v40_at (x0 x1 x2 : Arr) (i : Fin 4096) :
    val_main_v40 (F := Ideal) x0 x1 x2 (ix1 i) = 1#1
      ↔ ∃ j : Fin 4096, root (expSq (mat x0 i) (mat x2 j)) < dapR (mat x0) (mat x1) i := by
  have h := reduce_row (α := BitVec 1) (IntOp.ori (w := 1)) (val_main_v39 (F := Ideal) x0 x1 x2) (val_main_c (F := Ideal))
    reducesTo_S4096x4096_S4096_d1 h_S_ i
  have h0 : val_main_c (F := Ideal) (Shape.Idx.first h_S_) = 0#1 := rfl
  rw [h0] at h
  unfold val_main_v40
  rw [h, fold_ori_eq_one]
  simp only [Finset.mem_univ, true_and, v39_at, cmp_olt_eq_one]

/-- The qualifying distances, −∞ elsewhere. -/
theorem v41_at (x0 x1 x2 : Arr) (i j : Fin 4096) :
    val_main_v41 (F := Ideal) x0 x1 x2 (ix2 i j)
      = if root (expSq (mat x0 i) (mat x2 j)) < dapR (mat x0) (mat x1) i then root (expSq (mat x0 i) (mat x2 j)) else ⊥ := by
  rw [val_main_v41_apply, v39_at, v36_at, val_main_call2_v1_apply, val_main_call2_v0_apply, val_main_cst_9_apply, select_olt]
  exact congrArg (fun z : EReal => if root (expSq (mat x0 i) (mat x2 j)) < dapR (mat x0) (mat x1) i
    then root (expSq (mat x0 i) (mat x2 j)) else z) ofBits_negInf

/-- Their supremum along the row. -/
theorem v42_at (x0 x1 x2 : Arr) (i : Fin 4096) :
    val_main_v42 (F := Ideal) x0 x1 x2 (ix1 i)
      = Finset.univ.sup fun j : Fin 4096 =>
          if root (expSq (mat x0 i) (mat x2 j)) < dapR (mat x0) (mat x1) i then root (expSq (mat x0 i) (mat x2 j)) else ⊥ := by
  have h := reduce_row (α := EReal) (FloatOps.maximumf (F := Ideal) (φ := .f32)) (val_main_v41 (F := Ideal) x0 x1 x2)
    (val_main_cst_10 (F := Ideal)) reducesTo_S4096x4096_S4096_d1 h_S_ i
  have h0 : val_main_cst_10 (F := Ideal) (Shape.Idx.first h_S_) = (⊥ : EReal) := ofBits_negInf
  rw [h0, fold_max_eq_sup] at h
  unfold val_main_v42
  rw [h]
  exact congrArg (Finset.sup Finset.univ) (funext fun j => v41_at x0 x1 x2 i j)

/-- The hardest negative of anchor i. -/
theorem v43_at (x0 x1 x2 : Arr) (i : Fin 4096) :
    val_main_v43 (F := Ideal) x0 x1 x2 (ix1 i) = hardNegR (mat x0) (mat x1) (mat x2) i := by
  rw [val_main_v43_apply, v42_at, val_main_call3_v1_apply, val_main_call3_v0_apply, val_main_cst_11_apply]
  unfold hardNegR
  unfold Scalar.select
  by_cases h : ∃ j : Fin 4096, root (expSq (mat x0 i) (mat x2 j)) < dapR (mat x0) (mat x1) i
  · rw [if_pos h, if_pos (show val_main_v40 (F := Ideal) x0 x1 x2 (ix1 i) = 1 from (v40_at x0 x1 x2 i).2 h)]
  · rw [if_neg h, if_neg (show ¬ val_main_v40 (F := Ideal) x0 x1 x2 (ix1 i) = 1 from fun e => h ((v40_at x0 x1 x2 i).1 e))]
    exact zero_word

/-! ## The hardest positive -/

/-- The row's own negative distance, broadcast along the row. -/
theorem v76_at (x y : Arr) (i j : Fin 4096) : val_main_v76 (F := Ideal) x y (ix2 i j) = val_main_v7 (F := Ideal) x y (ix1 i) :=
  (val_main_v76_apply x y _).trans ((val_main_v75_apply x y _).trans (congrArg (val_main_v7 (F := Ideal) x y)
    (funext fun a => Fin.ext (by match a with | ⟨0, _⟩ => rfl))))

/-- The mask: positive j is farther from anchor i than its own negative. -/
theorem v77_at (x0 x1 x2 : Arr) (i j : Fin 4096) :
    val_main_v77 (F := Ideal) x0 x1 x2 (ix2 i j)
      = Ideal.cmp .ogt (root (expSq (mat x0 i) (mat x1 j))) (Ideal.sqrt (rowSq (mat x0 i) (mat x2 i))) := by
  rw [val_main_v77_apply, v74_eq, v36_at, v76_at, v7_eq, v3_at]; rfl

/-- Some positive qualifies. -/
theorem v78_at (x0 x1 x2 : Arr) (i : Fin 4096) :
    val_main_v78 (F := Ideal) x0 x1 x2 (ix1 i) = 1#1
      ↔ ∃ j : Fin 4096, Ideal.sqrt (rowSq (mat x0 i) (mat x2 i)) < root (expSq (mat x0 i) (mat x1 j)) := by
  have h := reduce_row (α := BitVec 1) (IntOp.ori (w := 1)) (val_main_v77 (F := Ideal) x0 x1 x2) (val_main_c_22 (F := Ideal))
    reducesTo_S4096x4096_S4096_d1 h_S_ i
  have h0 : val_main_c_22 (F := Ideal) (Shape.Idx.first h_S_) = 0#1 := rfl
  rw [h0] at h
  unfold val_main_v78
  rw [h, fold_ori_eq_one]
  simp only [Finset.mem_univ, true_and, v77_at, cmp_ogt_eq_one]

/-- The qualifying distances, +∞ elsewhere. -/
theorem v79_at (x0 x1 x2 : Arr) (i j : Fin 4096) :
    val_main_v79 (F := Ideal) x0 x1 x2 (ix2 i j)
      = if Ideal.sqrt (rowSq (mat x0 i) (mat x2 i)) < root (expSq (mat x0 i) (mat x1 j)) then root (expSq (mat x0 i) (mat x1 j)) else ⊤ := by
  rw [val_main_v79_apply, v77_at, v74_eq, v36_at, val_main_call4_v1_apply, val_main_call4_v0_apply, val_main_cst_23_apply, select_ogt]
  exact congrArg (fun z : EReal => if Ideal.sqrt (rowSq (mat x0 i) (mat x2 i)) < root (expSq (mat x0 i) (mat x1 j))
    then root (expSq (mat x0 i) (mat x1 j)) else z) ofBits_posInf

/-- Their infimum along the row. -/
theorem v80_at (x0 x1 x2 : Arr) (i : Fin 4096) :
    val_main_v80 (F := Ideal) x0 x1 x2 (ix1 i)
      = Finset.univ.inf fun j : Fin 4096 =>
          if Ideal.sqrt (rowSq (mat x0 i) (mat x2 i)) < root (expSq (mat x0 i) (mat x1 j)) then root (expSq (mat x0 i) (mat x1 j)) else ⊤ := by
  have h := reduce_row (α := EReal) (FloatOps.minimumf (F := Ideal) (φ := .f32)) (val_main_v79 (F := Ideal) x0 x1 x2)
    (val_main_cst_24 (F := Ideal)) reducesTo_S4096x4096_S4096_d1 h_S_ i
  have h0 : val_main_cst_24 (F := Ideal) (Shape.Idx.first h_S_) = (⊤ : EReal) := ofBits_posInf
  rw [h0, fold_min_eq_inf] at h
  unfold val_main_v80
  rw [h]
  exact congrArg (Finset.inf Finset.univ) (funext fun j => v79_at x0 x1 x2 i j)

/-- The hardest positive of anchor i. -/
theorem v81_at (x0 x1 x2 : Arr) (i : Fin 4096) :
    val_main_v81 (F := Ideal) x0 x1 x2 (ix1 i) = hardPosR (mat x0) (mat x1) (mat x2) i := by
  rw [val_main_v81_apply, v80_at, val_main_call5_v1_apply, val_main_call5_v0_apply, val_main_cst_25_apply]
  unfold hardPosR
  unfold Scalar.select
  by_cases h : ∃ j : Fin 4096, Ideal.sqrt (rowSq (mat x0 i) (mat x2 i)) < root (expSq (mat x0 i) (mat x1 j))
  · rw [if_pos h, if_pos (show val_main_v78 (F := Ideal) x0 x1 x2 (ix1 i) = 1 from (v78_at x0 x1 x2 i).2 h)]
  · rw [if_neg h, if_neg (show ¬ val_main_v78 (F := Ideal) x0 x1 x2 (ix1 i) = 1 from fun e => h ((v78_at x0 x1 x2 i).1 e))]
    exact zero_word

end Cert.Mine.Ref

end
-- ==== Proof.RefValue.lean ====
/-
  The reference's result, read index by index off its run, is the mean of clipped margins over the mined roots.
-/
import proofs.«127039_j10264971838200_2_alg».proof.Proof.RefMine

noncomputable section

namespace Cert.Mine.Ref

open Idealize.ShloMosaic Idealize.ShloMosaic.ValueIdx Cert.ReferenceIdeal Cert.ReferenceIdeal.ReadP Cert.Mine.Fold

/-- The mean of the hardest negatives. -/
theorem v45_at (x0 x1 x2 : Arr) (s : S_.Idx) :
    val_main_v45 (F := Ideal) x0 x1 x2 s = Ideal.div (∑ i : Fin 4096, hardNegR (mat x0) (mat x1) (mat x2) i) nRows := by
  rw [val_main_v45_apply, val_main_v44_apply, val_main_cst_13_apply, val_main_cst_12_apply, sum_idx1]
  refine congrArg₂ Ideal.div ?_ rfl
  refine Eq.trans (congrArg₂ (· + ·) zero_word (Finset.sum_congr rfl fun i _ => v43_at x0 x1 x2 i)) (zero_add _)

/-- The mean of the hardest positives. -/
theorem v83_at (x0 x1 x2 : Arr) (s : S_.Idx) :
    val_main_v83 (F := Ideal) x0 x1 x2 s = Ideal.div (∑ i : Fin 4096, hardPosR (mat x0) (mat x1) (mat x2) i) nRows := by
  rw [val_main_v83_apply, val_main_v82_apply, val_main_cst_27_apply, val_main_cst_26_apply, sum_idx1]
  refine congrArg₂ Ideal.div ?_ rfl
  refine Eq.trans (congrArg₂ (· + ·) zero_word (Finset.sum_congr rfl fun i _ => v81_at x0 x1 x2 i)) (zero_add _)

/-- The clipped margin of anchor i. -/
theorem v92_at (x0 x1 x2 : Arr) (i : Fin 4096) :
    val_main_v92 (F := Ideal) x0 x1 x2 (ix1 i)
      = max 0 (dapR (mat x0) (mat x1) i
          - half * Ideal.div (∑ i : Fin 4096, hardPosR (mat x0) (mat x1) (mat x2) i) nRows
          - half * Ideal.div (∑ i : Fin 4096, hardNegR (mat x0) (mat x1) (mat x2) i) nRows + one) := by
  rw [val_main_v92_apply, val_main_call6_v1_apply, val_main_call6_v0_apply, val_main_cst_31_apply,
    val_main_v91_apply, val_main_v90_apply, val_main_cst_30_apply,
    val_main_v89_apply, val_main_v88_apply, val_main_v87_apply, val_main_cst_29_apply, v45_at,
    val_main_v86_apply, val_main_v85_apply, val_main_v84_apply, val_main_cst_28_apply, v83_at, v3_at]
  exact congrArg (fun z : EReal => max z (dapR (mat x0) (mat x1) i
          - half * Ideal.div (∑ i : Fin 4096, hardPosR (mat x0) (mat x1) (mat x2) i) nRows
          - half * Ideal.div (∑ i : Fin 4096, hardNegR (mat x0) (mat x1) (mat x2) i) nRows + one)) zero_word

/-- The reference's result is the mean of clipped margins over the mined roots. -/
theorem ref_eq (x0 x1 x2 : Arr) :
    val_main_v94 (F := Ideal) x0 x1 x2 ix0 = lossR (mat x0) (mat x1) (mat x2) := by
  rw [val_main_v94_apply, val_main_v93_apply, val_main_cst_33_apply, val_main_cst_32_apply, sum_idx1]
  unfold lossR loss
  refine congrArg₂ Ideal.div ?_ rfl
  refine Eq.trans (congrArg₂ (· + ·) zero_word (Finset.sum_congr rfl fun i _ => v92_at x0 x1 x2 i)) (zero_add _)

/-- The run's term for the result buffer is that value at the scalar's one index. -/
theorem ref_value (m : (ℓ : Loc nD τ sig) → Buf (Elt Ideal) ℓ) (c : Dev nD) :
    Cert.ReferenceIdeal.ValueP.res_main_v94 m c
      = fun _ => lossR (mat (m ((c.tc : Thread nD τ).loc main_arg0))) (mat (m ((c.tc : Thread nD τ).loc main_arg1)))
          (mat (m ((c.tc : Thread nD τ).loc main_arg2))) := by
  rw [val_main_v94_eq]
  funext s
  rw [eq_ix0 s]
  exact ref_eq _ _ _

end Cert.Mine.Ref

end
-- ==== Proof.MineMath1.lean ====
/-
  The root of the positive part, as a map of the extended reals: it sends ⊥ and every negative real to 0,
  a real r ≥ 0 to √r, and ⊤ to ⊤.  It is monotone, nonnegative, and strictly monotone on [0, ⊤].
-/
import proofs.«127039_j10264971838200_2_alg».proof.Proof.MineSpec

noncomputable section

namespace Cert.Mine

open Idealize.ShloMosaic

theorem sqrt_zero : Ideal.sqrt 0 = 0 := by
  show Ideal.sqrt ((0 : ℝ) : EReal) = 0
  rw [Ideal.sqrt_coe]; simp

theorem root_bot : root ⊥ = 0 := by
  simp [root, sqrt_zero]

theorem root_top : root ⊤ = ⊤ := by
  simp [root]

theorem root_coe (r : ℝ) : root (r : EReal) = ((Real.sqrt r : ℝ) : EReal) := by
  unfold root
  rcases le_total r 0 with h | h
  · have h1 : max (r : EReal) 0 = ((0 : ℝ) : EReal) := by
      rw [max_eq_right (by exact_mod_cast h)]; rfl
    rw [h1, Ideal.sqrt_coe]
    simp [Real.sqrt_eq_zero_of_nonpos h]
  · have h1 : max (r : EReal) 0 = (r : EReal) := max_eq_left (by exact_mod_cast h)
    rw [h1, Ideal.sqrt_coe, if_neg (not_lt.mpr h)]

theorem root_nonneg (x : EReal) : 0 ≤ root x := by
  induction x using EReal.rec with
  | bot => rw [root_bot]
  | coe r => rw [root_coe]; exact_mod_cast Real.sqrt_nonneg r
  | top => rw [root_top]; exact le_top

theorem root_of_nonpos {x : EReal} (h : x ≤ 0) : root x = 0 := by
  induction x using EReal.rec with
  | bot => exact root_bot
  | coe r =>
    rw [root_coe, Real.sqrt_eq_zero_of_nonpos (by exact_mod_cast h)]; rfl
  | top => exact absurd h (by simp)

theorem root_mono : Monotone root := by
  intro x y h
  induction x using EReal.rec with
  | bot => rw [root_bot]; exact root_nonneg y
  | coe r =>
    induction y using EReal.rec with
    | bot => exact absurd h (by simp)
    | coe q =>
      rw [root_coe, root_coe]
      exact_mod_cast Real.sqrt_le_sqrt (by exact_mod_cast h)
    | top => rw [root_top]; exact le_top
  | top => rw [top_le_iff.mp h]

/-- Strictness on the nonnegative half line, ⊤ included. -/
theorem root_lt_root {x y : EReal} (hx : 0 ≤ x) (h : x < y) : root x < root y := by
  induction x using EReal.rec with
  | bot => simp at hx
  | top => exact absurd h not_top_lt
  | coe r =>
    have hr : 0 ≤ r := by exact_mod_cast hx
    induction y using EReal.rec with
    | bot => exact absurd h (not_lt_bot)
    | coe q =>
      rw [root_coe, root_coe]
      exact_mod_cast Real.sqrt_lt_sqrt hr (by exact_mod_cast h)
    | top => rw [root_coe, root_top]; exact EReal.coe_lt_top _

/-- On a nonnegative argument the root is the plain square root. -/
theorem sqrt_eq_root {x : EReal} (hx : 0 ≤ x) : Ideal.sqrt x = root x := by
  unfold root; rw [max_eq_left hx]

/-- Comparing with a nonnegative threshold from below commutes with taking roots. -/
theorem lt_iff_root_lt_root {E s : EReal} (hE : 0 ≤ E) : E < s ↔ root E < root s :=
  ⟨root_lt_root hE, fun h => by
    by_contra hn
    exact absurd (root_mono (not_lt.mp hn)) (not_le.mpr h)⟩

/-- Comparing with a threshold from above: an entry that is below the threshold but whose root is not below the
    threshold's root must be negative (else strictness applies), so its root is 0 anyway; an entry that is not below
    the threshold has, by monotonicity, a root that is not below the threshold's root. -/
theorem ite_root_lt {s D : EReal} :
    (if s < D then root s else 0) = (if root s < root D then root s else 0) := by
  by_cases h : s < D
  · rw [if_pos h]
    by_cases h2 : root s < root D
    · rw [if_pos h2]
    · rw [if_neg h2]
      rcases le_or_gt 0 s with h0 | h0
      · exact absurd (root_lt_root h0 h) h2
      · exact root_of_nonpos h0.le
  · rw [if_neg h, if_neg (not_lt.mpr (root_mono (not_lt.mp h)))]

end Cert.Mine

end
-- ==== Proof.MineMath2.lean ====
/-
  Mining commutes with the root.  Stated for an arbitrary finite nonempty index type and arbitrary candidate values:
  a monotone map commutes with a finite nonempty maximum and minimum; entries that do not qualify contribute the root of ⊥,
  which is 0 and never exceeds a root, respectively ⊤, which the root fixes.
-/
import proofs.«127039_j10264971838200_2_alg».proof.Proof.MineMath1

noncomputable section

namespace Cert.Mine

variable {ι : Type} [Fintype ι] [Nonempty ι]

theorem root_sup (m : ι → EReal) :
    root (Finset.univ.sup m) = Finset.univ.sup' Finset.univ_nonempty (fun j => root (m j)) := by
  rw [← Finset.sup'_eq_sup Finset.univ_nonempty m]
  exact Finset.apply_sup'_eq_sup'_comp Finset.univ_nonempty root (fun x y => root_mono.map_sup x y)

theorem root_inf (m : ι → EReal) :
    root (Finset.univ.inf m) = Finset.univ.inf' Finset.univ_nonempty (fun j => root (m j)) := by
  rw [← Finset.inf'_eq_inf Finset.univ_nonempty m]
  exact Finset.apply_inf'_eq_inf'_comp Finset.univ_nonempty root (fun x y => root_mono.map_inf x y)

/-- The largest candidate below the threshold, then its root (0 when none) equals the largest root below the threshold's root (0 when none). -/
theorem hardNeg_eq (s : ι → EReal) (D : EReal) [Decidable (∃ j, root (s j) < root D)] :
    (if (Finset.univ.sup fun j => if s j < D then s j else ⊥) = ⊥ then 0
      else root (Finset.univ.sup fun j => if s j < D then s j else ⊥))
    = if ∃ j, root (s j) < root D then
        Finset.univ.sup fun j => if root (s j) < root D then root (s j) else ⊥
      else 0 := by
  have h1 : ∀ acc : EReal, (if acc = ⊥ then 0 else root acc) = root acc := by
    intro acc
    split_ifs with h
    · rw [h, root_bot]
    · rfl
  rw [h1, root_sup]
  have h2 : ∀ j, root (if s j < D then s j else ⊥) = if root (s j) < root D then root (s j) else 0 := by
    intro j
    rw [← ite_root_lt]
    split_ifs
    · rfl
    · exact root_bot
  simp only [h2]
  by_cases hex : ∃ j, root (s j) < root D
  · rw [if_pos hex]
    obtain ⟨j0, hj0⟩ := hex
    have hle : ∀ j, root (s j) < root D → root (s j) ≤
        Finset.univ.sup fun j => if root (s j) < root D then root (s j) else ⊥ := by
      intro j hq
      have := Finset.le_sup (f := fun j => if root (s j) < root D then root (s j) else ⊥) (Finset.mem_univ j)
      simpa only [if_pos hq] using this
    apply le_antisymm
    · apply Finset.sup'_le
      intro j _
      by_cases hq : root (s j) < root D
      · rw [if_pos hq]; exact hle j hq
      · rw [if_neg hq]; exact (root_nonneg (s j0)).trans (hle j0 hj0)
    · apply Finset.sup_le
      intro j _
      refine le_trans ?_ (Finset.le_sup' (fun j => if root (s j) < root D then root (s j) else 0) (Finset.mem_univ j))
      split_ifs
      · exact le_rfl
      · exact bot_le
  · rw [if_neg hex]
    have h3 : ∀ j, (if root (s j) < root D then root (s j) else 0) = 0 :=
      fun j => if_neg (fun h => hex ⟨j, h⟩)
    simp only [h3]
    exact Finset.sup'_const _ _

/-- The smallest candidate above a nonnegative threshold, then its root (0 when none) equals the smallest root above the threshold's root
    (0 when none), provided no candidate is ⊤. -/
theorem hardPos_eq (s : ι → EReal) (E : EReal) [Decidable (∃ j, root E < root (s j))] (hE : 0 ≤ E) (hs : ∀ j, s j ≠ ⊤) :
    (if (Finset.univ.inf fun j => if E < s j then s j else ⊤) = ⊤ then 0
      else root (Finset.univ.inf fun j => if E < s j then s j else ⊤))
    = if ∃ j, root E < root (s j) then
        Finset.univ.inf fun j => if root E < root (s j) then root (s j) else ⊤
      else 0 := by
  by_cases hex : ∃ j, root E < root (s j)
  · rw [if_pos hex]
    obtain ⟨j0, hj0⟩ := hex
    have hj0' : E < s j0 := (lt_iff_root_lt_root hE).mpr hj0
    have hne : (Finset.univ.inf fun j => if E < s j then s j else ⊤) ≠ ⊤ := by
      intro h
      have h4 := Finset.inf_le (f := fun j => if E < s j then s j else ⊤) (Finset.mem_univ j0)
      rw [h] at h4
      simp only [if_pos hj0'] at h4
      exact hs j0 (top_le_iff.mp h4)
    rw [if_neg hne, root_inf, Finset.inf'_eq_inf]
    congr 1
    funext j
    by_cases hq : E < s j
    · rw [if_pos hq, if_pos ((lt_iff_root_lt_root hE).mp hq)]
    · rw [if_neg hq, if_neg (fun h => hq ((lt_iff_root_lt_root hE).mpr h)), root_top]
  · rw [if_neg hex]
    have h3 : ∀ j, (if E < s j then s j else ⊤) = ⊤ :=
      fun j => if_neg (fun h => hex ⟨j, (lt_iff_root_lt_root hE).mp h⟩)
    simp only [h3]
    rw [if_pos]
    exact Finset.inf_const Finset.univ_nonempty _

end Cert.Mine

end
-- ==== Proof.MineMath3.lean ====
/-
  Finiteness and sign.  The direct squared distance is a sum of squares, and a square is nonnegative in the extended reals
  (also at ±∞), so the sum is.  The expanded squared distance of two rows of reals is a real: each literal is a real
  (its exponent field is not all ones), and reals are closed under finite sums, products and differences.
-/
import proofs.«127039_j10264971838200_2_alg».proof.Proof.MineSpec

noncomputable section

namespace Cert.Mine

open Idealize.ShloMosaic

/-- An extended real that is a real. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {κ : Type} (t : Finset κ) (f : κ → EReal) (h : ∀ k, IsReal (f k)) : IsReal (∑ k ∈ t, f k) := by
  classical
  induction t using Finset.induction_on with
  | empty => exact ⟨0, by simp⟩
  | insert a t ha ih => rw [Finset.sum_insert ha]; exact (h a).add ih

theorem IsReal.ne_top {x : EReal} (hx : IsReal x) : x ≠ ⊤ := by
  obtain ⟨a, rfl⟩ := hx; exact EReal.coe_ne_top a

/-- A pattern whose exponent field is not all ones denotes a real. -/
theorem ieee_isReal (e m : Nat) {w : Nat} (b : BitVec w) (h : (b.extractLsb' m e).toNat ≠ 2 ^ e - 1) :
    IsReal (Ideal.ieee e m b) := by
  simp only [Ideal.ieee, if_neg h]
  split_ifs <;> exact ⟨_, rfl⟩

theorem two_isReal : IsReal two :=
  show IsReal (Ideal.ieee 8 23 (0x40000000#32 : BitVec 32)) from ieee_isReal 8 23 _ (by decide)
theorem twoEps_isReal : IsReal twoEps :=
  show IsReal (Ideal.ieee 8 23 (0x360637BD#32 : BitVec 32)) from ieee_isReal 8 23 _ (by decide)
theorem dEps2_isReal : IsReal dEps2 :=
  show IsReal (Ideal.ieee 8 23 (0x308CBCCC#32 : BitVec 32)) from ieee_isReal 8 23 _ (by decide)

theorem expSq_isReal (x y : Row) (hx : ∀ k, IsReal (x k)) (hy : ∀ k, IsReal (y k)) : IsReal (expSq x y) := by
  unfold expSq
  refine IsReal.add (IsReal.add (IsReal.sub (IsReal.add ?_ ?_) (IsReal.mul two_isReal ?_)) (IsReal.mul twoEps_isReal (IsReal.sub ?_ ?_))) dEps2_isReal
  · exact IsReal.sum _ _ (fun k => (hx k).mul (hx k))
  · exact IsReal.sum _ _ (fun k => (hy k).mul (hy k))
  · exact IsReal.sum _ _ (fun k => (hx k).mul (hy k))
  · exact IsReal.sum _ _ hx
  · exact IsReal.sum _ _ hy

theorem mul_self_nonneg_ereal (t : EReal) : 0 ≤ t * t := by
  induction t using EReal.rec with
  | bot => rw [EReal.bot_mul_bot]; exact le_top
  | coe r => rw [← EReal.coe_mul]; exact_mod_cast mul_self_nonneg r
  | top => rw [EReal.top_mul_top]; exact le_top

theorem rowSq_nonneg (x y : Row) : 0 ≤ rowSq x y := by
  unfold rowSq
  exact Finset.sum_nonneg (fun k _ => mul_self_nonneg_ereal _)

end Cert.Mine

end
-- ==== Proof.MineMath.lean ====
/-
  Mining in squared space and mining the roots give the same loss, for matrices of reals.

  The direct squared distance is nonnegative, so its root of the positive part is its plain root: the anchor-positive terms agree.
  The hardest negative needs nothing more: the root is monotone and sends ⊥ to 0.  The hardest positive needs the expanded squared
  distances to be reals, so that a qualifying candidate keeps the minimum away from ⊤.
-/
import proofs.«127039_j10264971838200_2_alg».proof.Proof.MineMath2
import proofs.«127039_j10264971838200_2_alg».proof.Proof.MineMath3

noncomputable section

namespace Cert.Mine

open Idealize.ShloMosaic

theorem dapK_eq_dapR (a p : Mat) : dapK a p = dapR a p := by
  funext i
  unfold dapK dapR
  rw [max_eq_left (rowSq_nonneg _ _)]

theorem hardNegK_eq_hardNegR (a p n : Mat) : hardNegK a p n = hardNegR a p n := by
  funext i
  unfold hardNegK hardNegR accNeg dapR
  rw [sqrt_eq_root (rowSq_nonneg _ _)]
  exact hardNeg_eq (fun j => expSq (a i) (n j)) (rowSq (a i) (p i))

theorem hardPosK_eq_hardPosR (a p n : Mat)
    (ha : ∀ i k, ∃ r : ℝ, a i k = (r : EReal)) (hp : ∀ i k, ∃ r : ℝ, p i k = (r : EReal)) :
    hardPosK a p n = hardPosR a p n := by
  funext i
  unfold hardPosK hardPosR accPos
  rw [sqrt_eq_root (rowSq_nonneg _ _)]
  exact hardPos_eq (fun j => expSq (a i) (p j)) (rowSq (a i) (n i)) (rowSq_nonneg _ _)
    (fun j => (expSq_isReal _ _ (ha i) (hp j)).ne_top)

theorem lossK_eq_lossR (a p n : Mat)
    (ha : ∀ i k, ∃ r : ℝ, a i k = (r : EReal)) (hp : ∀ i k, ∃ r : ℝ, p i k = (r : EReal))
    (hn : ∀ i k, ∃ r : ℝ, n i k = (r : EReal)) :
    lossK a p n = lossR a p n := by
  unfold lossK lossR
  rw [dapK_eq_dapR, hardNegK_eq_hardNegR, hardPosK_eq_hardPosR a p n ha hp]

end Cert.Mine

end
-- ==== Proof.MineFinite.lean ====
/-
  The precondition, read back.  It says: every entry x of each of the three input arrays has |x| below +∞, where |x| = max x (−x)
  and the comparison is the strict order of the extended reals.  Neither ⊥ nor ⊤ passes (|⊥| = |⊤| = ⊤), so every entry is a real.
-/
import proofs.«127039_j10264971838200_2_alg».proof.Pre_finite_inputs
import proofs.«127039_j10264971838200_2_alg».proof.Proof.MineSpec
import Idealize.ShloMosaic.Lib.ReduceAll
import Idealize.ShloMosaic.Lib.ValueIdx

noncomputable section

namespace Cert.Mine

open Idealize.ShloMosaic

/-- An extended real whose absolute value is strictly below the literal +∞ is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

theorem finite_of_pre [Cert.Pre_finite_inputs.Facts]
    (x0 x1 x2 : FVec Ideal Cert.Pre_finite_inputs.S4096x1024 .f32)
    (h : Cert.Pre_finite_inputs.fn (F := Ideal) x0 x1 x2 = fun _ => 1#1) :
    (∀ i k, ∃ r : ℝ, mat x0 i k = (r : EReal)) ∧ (∀ i k, ∃ r : ℝ, mat x1 i k = (r : EReal))
      ∧ (∀ i k, ∃ r : ℝ, mat x2 i k = (r : EReal)) := by
  have e := congrFun h ValueIdx.ix0
  dsimp only [Cert.Pre_finite_inputs.fn] at e
  simp only [andi] at e
  rw [IntOp.andi_eq_one, IntOp.andi_eq_one] at e
  obtain ⟨⟨e0, e1⟩, e2⟩ := e
  haveI : Subsingleton Cert.Pre_finite_inputs.S_.Idx := ⟨fun a b => funext fun d => d.elim0⟩
  refine ⟨fun i k => ?_, fun i k => ?_, fun i k => ?_⟩
  · exact real_of_abs_lt_inf _ (Host.reduce_andi_all _ _ _ _ _ e0 (ValueIdx.ix2 i k))
  · exact real_of_abs_lt_inf _ (Host.reduce_andi_all _ _ _ _ _ e1 (ValueIdx.ix2 i k))
  · exact real_of_abs_lt_inf _ (Host.reduce_andi_all _ _ _ _ _ e2 (ValueIdx.ix2 i k))

end Cert.Mine

end
-- ==== Proof.lean ====
/-
  The kernel mines the hardest negative and the hardest positive of every anchor in SQUARED distance space, tile by tile over an 8 × 8 grid,
  and takes roots at the end; the reference takes roots first and mines the roots. Over the extended reals, for finite inputs, the two agree:
  the root of the positive part is monotone and strictly increasing on the nonnegatives, so it commutes with the masked maximum and
  minimum and preserves the masks (the direct squared distances are sums of squares, hence nonnegative); finiteness is what makes the
  minimum over a nonempty set of candidates different from +∞, which the kernel uses as its "none found" mark. The tiling only regroups a
  maximum and a minimum. The three frames are the programs' runs with the results forgotten; nothing was rewritten by the idealization.
-/
import proofs.«127039_j10264971838200_2_alg».proof.Defs
import proofs.«127039_j10264971838200_2_alg».proof.Proof.Gen.Kernel
import proofs.«127039_j10264971838200_2_alg».proof.Proof.Gen.KernelIdeal
import proofs.«127039_j10264971838200_2_alg».proof.Proof.Gen.ReferenceIdeal
import proofs.«127039_j10264971838200_2_alg».proof.Proof.Gen.Pre_finite_inputs
import proofs.«127039_j10264971838200_2_alg».proof.Proof.KernelFrameOf
import proofs.«127039_j10264971838200_2_alg».proof.Proof.KernelIdealFrameOf
import proofs.«127039_j10264971838200_2_alg».proof.Proof.KernelIdealFinal
import proofs.«127039_j10264971838200_2_alg».proof.Proof.RefValue
import proofs.«127039_j10264971838200_2_alg».proof.Proof.MineMath
import proofs.«127039_j10264971838200_2_alg».proof.Proof.MineFinite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten: the idealization is the program's own text read over the extended reals. -/
theorem preserves : Cert.preserves_Kernel_KernelIdeal := trivial

/-- Both runs end with the loss: the kernel's mined in squared space, the reference's in root space, equal for finite inputs. -/
theorem algebraic : Cert.algebraic_KernelIdeal_ReferenceIdeal := by
  intro m ρ m' ρ' hpre hagree
  refine ⟨fun c _ => Cert.Mine.lossR (Cert.KernelIdeal.Fr.aM m c) (Cert.KernelIdeal.Fr.pM m c) (Cert.KernelIdeal.Fr.nM m c), ?_, ?_⟩
  · refine (θ_run Cert.KernelIdeal.defs _ _).mono (fun r h c => ?_) (Cert.KernelIdeal.Fr.run_main (F := Ideal) m ρ)
    obtain ⟨ha, hp, hn⟩ := Cert.Mine.finite_of_pre _ _ _ (hpre c)
    exact ⟨(h c _ Cert.KernelIdeal.Fr.ucRefs_v30).trans ((Cert.KernelIdeal.Fr.kernel_value m c).trans
        (funext fun _ => Cert.Mine.lossK_eq_lossR _ _ _ ha hp hn)),
      (h c _ Cert.KernelIdeal.Fr.ucRefs_arg0).trans (Cert.KernelIdeal.Fr.W3_arg m c _ (.inl rfl)),
      (h c _ Cert.KernelIdeal.Fr.ucRefs_arg1).trans (Cert.KernelIdeal.Fr.W3_arg m c _ (.inr (.inl rfl))),
      (h c _ Cert.KernelIdeal.Fr.ucRefs_arg2).trans (Cert.KernelIdeal.Fr.W3_arg m c _ (.inr (.inr rfl)))⟩
  · refine (θ_run Cert.ReferenceIdeal.defs _ _).mono (fun r h c => ⟨(h c).1.trans ?_, (h c).2⟩)
      (Cert.ReferenceIdeal.ValueP.run (F := Ideal) m' ρ')
    rw [Cert.Mine.Ref.ref_value m' c, (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
